-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x26x128 : Shape := ⟨3, ![16384, 26, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x26x128 : S_.BroadcastsInDim S16384x26x128 (![] : Fin 0 → Fin S16384x26x128.rank)
  reducesTo_S16384x26x128_S_d0_1_2 : S16384x26x128.ReducesTo [0, 1, 2] S_

variable [Facts]

def fn {F : FTy → Type} [FloatOps F] (main_arg0 : FVec F S16384x128 .f32) (main_arg1 : FVec F S16384x26x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x26x128 .f32 := Host.absf main_arg1
  let main_cst_0 : FVec F S_ .f32 := constant S_ .f32 0x7F800000#32
  let main_v5 : FVec F S16384x26x128 .f32 := broadcastInDim S16384x26x128 ![] bcast_S_S16384x26x128 main_cst_0
  let main_v6 : IVec S16384x26x128 1 := cmpf .olt main_v4 main_v5
  let main_c_1 : IVec S_ 1 := constantI S_ 1 1#1
  let main_v7 : IVec S_ 1 := (fun x v => Host.reduce IntOp.andi x v reducesTo_S16384x26x128_S_d0_1_2 h_S_) main_v6 main_c_1
  let main_v8 : IVec S_ 1 := andi main_v3 main_v7
  main_v8
-- ==== Kernel.lean ====
abbrev S16384x128 : Shape := ⟨2, ![16384, 128]⟩
abbrev S16384x26x128 : Shape := ⟨3, ![16384, 26, 128]⟩
abbrev S16384x351 : Shape := ⟨2, ![16384, 351]⟩
abbrev S512x128 : Shape := ⟨2, ![512, 128]⟩
abbrev S512x26x128 : Shape := ⟨3, ![512, 26, 128]⟩
abbrev S512x351 : Shape := ⟨2, ![512, 351]⟩
abbrev S512x1x128 : Shape := ⟨3, ![512, 1, 128]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S16384x26x128, .f32⟩
  | .hbm, ⟨2, _⟩ => ⟨S16384x351, .f32⟩
  | .local _ .vmem, ⟨0, _⟩ => ⟨S512x128, .f32⟩
  | .local _ .vmem, ⟨1, _⟩ => ⟨S512x128, .f32⟩
  | .local _ .vmem, ⟨2, _⟩ => ⟨S512x26x128, .f32⟩
  | .local _ .vmem, ⟨3, _⟩ => ⟨S512x26x128, .f32⟩
  | .local _ .vmem, ⟨4, _⟩ => ⟨S512x351, .f32⟩
  | .local _ .vmem, ⟨5, _⟩ => ⟨S512x351, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x351 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x128_S512x128_0_0 : ∀ a, (![0, 0] : Fin 2 → Nat) a + S512x128.size a ≤ S512x128.size a
  h_S512x128 : 0 < S512x128.numel
  inb_S512x26x128_S512x26x128_0_0_0 : ∀ a, (![0, 0, 0] : Fin 3 → Nat) a + S512x26x128.size a ≤ S512x26x128.size a
  h_S512x26x128 : 0 < S512x26x128.numel
  slices_S512x26x128_o0_0_0_S512x1x128 : S512x26x128.Slices ![0, 0, 0] S512x1x128
  shapeCasts_S512x1x128_S512x128 : S512x1x128.ShapeCasts S512x128
  slices_S512x26x128_o0_1_0_S512x1x128 : S512x26x128.Slices ![0, 1, 0] S512x1x128
  slices_S512x26x128_o0_2_0_S512x1x128 : S512x26x128.Slices ![0, 2, 0] S512x1x128
  slices_S512x26x128_o0_3_0_S512x1x128 : S512x26x128.Slices ![0, 3, 0] S512x1x128
  slices_S512x26x128_o0_4_0_S512x1x128 : S512x26x128.Slices ![0, 4, 0] S512x1x128
  slices_S512x26x128_o0_5_0_S512x1x128 : S512x26x128.Slices ![0, 5, 0] S512x1x128
  slices_S512x26x128_o0_6_0_S512x1x128 : S512x26x128.Slices ![0, 6, 0] S512x1x128
  slices_S512x26x128_o0_7_0_S512x1x128 : S512x26x128.Slices ![0, 7, 0] S512x1x128
  slices_S512x26x128_o0_8_0_S512x1x128 : S512x26x128.Slices ![0, 8, 0] S512x1x128
  slices_S512x26x128_o0_9_0_S512x1x128 : S512x26x128.Slices ![0, 9, 0] S512x1x128
  slices_S512x26x128_o0_10_0_S512x1x128 : S512x26x128.Slices ![0, 10, 0] S512x1x128
  slices_S512x26x128_o0_11_0_S512x1x128 : S512x26x128.Slices ![0, 11, 0] S512x1x128
  slices_S512x26x128_o0_12_0_S512x1x128 : S512x26x128.Slices ![0, 12, 0] S512x1x128
  slices_S512x26x128_o0_13_0_S512x1x128 : S512x26x128.Slices ![0, 13, 0] S512x1x128
  slices_S512x26x128_o0_14_0_S512x1x128 : S512x26x128.Slices ![0, 14, 0] S512x1x128
  slices_S512x26x128_o0_15_0_S512x1x128 : S512x26x128.Slices ![0, 15, 0] S512x1x128
  slices_S512x26x128_o0_16_0_S512x1x128 : S512x26x128.Slices ![0, 16, 0] S512x1x128
  slices_S512x26x128_o0_17_0_S512x1x128 : S512x26x128.Slices ![0, 17, 0] S512x1x128
  slices_S512x26x128_o0_18_0_S512x1x128 : S512x26x128.Slices ![0, 18, 0] S512x1x128
  slices_S512x26x128_o0_19_0_S512x1x128 : S512x26x128.Slices ![0, 19, 0] S512x1x128
  slices_S512x26x128_o0_20_0_S512x1x128 : S512x26x128.Slices ![0, 20, 0] S512x1x128
  slices_S512x26x128_o0_21_0_S512x1x128 : S512x26x128.Slices ![0, 21, 0] S512x1x128
  slices_S512x26x128_o0_22_0_S512x1x128 : S512x26x128.Slices ![0, 22, 0] S512x1x128
  slices_S512x26x128_o0_23_0_S512x1x128 : S512x26x128.Slices ![0, 23, 0] S512x1x128
  slices_S512x26x128_o0_24_0_S512x1x128 : S512x26x128.Slices ![0, 24, 0] S512x1x128
  slices_S512x26x128_o0_25_0_S512x1x128 : S512x26x128.Slices ![0, 25, 0] S512x1x128
  reduces_S512x128_S512 : S512x128.Reduces [1] S512
  shapeCasts_S512_S512x1 : S512.ShapeCasts S512x1
  inb_S512x351_S512x1_0_0 : ∀ a, (![0, 0] : Fin 2 → Nat) a + S512x1.size a ≤ S512x351.size a
  h_S512x1 : 0 < S512x1.numel
  inb_S512x351_S512x1_0_1 : ∀ a, (![0, 1] : Fin 2 → Nat) a + S512x1.size a ≤ S512x351.size a
  inb_S512x351_S512x1_0_2 : ∀ a, (![0, 2] : Fin 2 → Nat) a + S512x1.size a ≤ S512x351.size a
  inb_S512x351_S512x1_0_3 : ∀ a, (![0, 3] : Fin 2 → Nat) a + S512x1.size a ≤ S512x351.size a
  inb_S512x351_S512x1_0_4 : ∀ a, (![0, 4] : Fin 2 → Nat) a + S512x1.size a ≤ S512x351.size a
  inb_S512x351_S512x1_0_5 : ∀ a, (![0, 5] : Fin 2 → Nat) a + S512x1.size a ≤ S512x351.size a
  inb_S512x351_S512x1_0_6 : ∀ a, (![0, 6] : Fin 2 → Nat) a + S512x1.size a ≤ S512x351.size a
  inb_S512x351_S512x1_0_7 : ∀ a, (![0, 7] : Fin 2 → Nat) a + S512x1.size a ≤ S512x351.size a
  inb_S512x351_S512x1_0_8 : ∀ a, (![0, 8] : Fin 2 → Nat) a + S512x1.size a ≤ S512x351.size a
  inb_S512x351_S512x1_0_9 : ∀ a, (![0, 9] : Fin 2 → Nat) a + S512x1.size a ≤ S512x351.size a
  inb_S512x351_S512x1_0_10 : ∀ a, (![0, 10] : Fin 2 → Nat) a + S512x1.size a ≤ S512x351.size a
  inb_S512x351_S512x1_0_11 : ∀ a, (![0, 11] : Fin 2 → Nat) a + S512x1.size a ≤ S512x351.size a
  inb_S512x351_S512x1_0_12 : ∀ a, (![0, 12] : Fin 2 → Nat) a + S512x1.size a ≤ S512x351.size a
  inb_S512x351_S512x1_0_13 : ∀ a, (![0, 13] : Fin 2 → Nat) a + S512x1.size a ≤ S512x351.size a
  inb_S512x351_S512x1_0_14 : ∀ a, (![0, 14] : Fin 2 → Nat) a + S512x1.size a ≤ S512x351.size a
  inb_S512x351_S512x1_0_15 : ∀ a, (![0, 15] : Fin 2 → Nat) a + S512x1.size a ≤ S512x351.size a
  inb_S512x351_S512x1_0_16 : ∀ a, (![0, 16] : Fin 2 → Nat) a + S512x1.size a ≤ S512x351.size a
  inb_S512x351_S512x1_0_17 : ∀ a, (![0, 17] : Fin 2 → Nat) a + S512x1.size a ≤ S512x351.size a
  inb_S512x351_S512x1_0_18 : ∀ a, (![0, 18] : Fin 2 → Nat) a + S512x1.size a ≤ S512x351.size a
  inb_S512x351_S512x1_0_19 : ∀ a, (![0, 19] : Fin 2 → Nat) a + S512x1.size a ≤ S512x351.size a
  inb_S512x351_S512x1_0_20 : ∀ a, (![0, 20] : Fin 2 → Nat) a + S512x1.size a ≤ S512x351.size a
  inb_S512x351_S512x1_0_21 : ∀ a, (![0, 21] : Fin 2 → Nat) a + S512x1.size a ≤ S512x351.size a
  inb_S512x351_S512x1_0_22 : ∀ a, (![0, 22] : Fin 2 → Nat) a + S512x1.size a ≤ S512x351.size a
  inb_S512x351_S512x1_0_23 : ∀ a, (![0, 23] : Fin 2 → Nat) a + S512x1.size a ≤ S512x351.size a
  inb_S512x351_S512x1_0_24 : ∀ a, (![0, 24] : Fin 2 → Nat) a + S512x1.size a ≤ S512x351.size a
  inb_S512x351_S512x1_0_25 : ∀ a, (![0, 25] : Fin 2 → Nat) a + S512x1.size a ≤ S512x351.size a
  inb_S512x351_S512x1_0_26 : ∀ a, (![0, 26] : Fin 2 → Nat) a + S512x1.size a ≤ S512x351.size a
  inb_S512x351_S512x1_0_27 : ∀ a, (![0, 27] : Fin 2 → Nat) a + S512x1.size a ≤ S512x351.size a
  inb_S512x351_S512x1_0_28 : ∀ a, (![0, 28] : Fin 2 → Nat) a + S512x1.size a ≤ S512x351.size a
  inb_S512x351_S512x1_0_29 : ∀ a, (![0, 29] : Fin 2 → Nat) a + S512x1.size a ≤ S512x351.size a
  inb_S512x351_S512x1_0_30 : ∀ a, (![0, 30] : Fin 2 → Nat) a + S512x1.size a ≤ S512x351.size a
  inb_S512x351_S512x1_0_31 : ∀ a, (![0, 31] : Fin 2 → Nat) a + S512x1.size a ≤ S512x351.size a
  inb_S512x351_S512x1_0_32 : ∀ a, (![0, 32] : Fin 2 → Nat) a + S512x1.size a ≤ S512x351.size a
  inb_S512x351_S512x1_0_33 : ∀ a, (![0, 33] : Fin 2 → Nat) a + S512x1.size a ≤ S512x351.size a
  inb_S512x351_S512x1_0_34 : ∀ a, (![0, 34] : Fin 2 → Nat) a + S512x1.size a ≤ S512x351.size a
  inb_S512x351_S512x1_0_35 : ∀ a, (![0, 35] : Fin 2 → Nat) a + S512x1.size a ≤ S512x351.size a
  inb_S512x351_S512x1_0_36 : ∀ a, (![0, 36] : Fin 2 → Nat) a + S512x1.size a ≤ S512x351.size a
  inb_S512x351_S512x1_0_37 : ∀ a, (![0, 37] : Fin 2 → Nat) a + S512x1.size a ≤ S512x351.size a
  inb_S512x351_S512x1_0_38 : ∀ a, (![0, 38] : Fin 2 → Nat) a + S512x1.size a ≤ S512x351.size a
  inb_S512x351_S512x1_0_39 : ∀ a, (![0, 39] : Fin 2 → Nat) a + S512x1.size a ≤ S512x351.size a
  inb_S512x351_S512x1_0_40 : ∀ a, (![0, 40] : Fin 2 → Nat) a + S512x1.size a ≤ S512x351.size a
  inb_S512x351_S512x1_0_41 : ∀ a, (![0, 41] : Fin 2 → Nat) a + S512x1.size a ≤ S512x351.size a
  inb_S512x351_S512x1_0_42 : ∀ a, (![0, 42] : Fin 2 → Nat) a + S512x1.size a ≤ S512x351.size a
  inb_S512x351_S512x1_0_43 : ∀ a, (![0, 43] : Fin 2 → Nat) a + S512x1.size a ≤ S512x351.size a
  inb_S512x351_S512x1_0_44 : ∀ a, (![0, 44] : Fin 2 → Nat) a + S512x1.size a ≤ S512x351.size a
  inb_S512x351_S512x1_0_45 : ∀ a, (![0, 45] : Fin 2 → Nat) a + S512x1.size a ≤ S512x351.size a
  inb_S512x351_S512x1_0_46 : ∀ a, (![0, 46] : Fin 2 → Nat) a + S512x1.size a ≤ S512x351.size a
  inb_S512x351_S512x1_0_47 : ∀ a, (![0, 47] : Fin 2 → Nat) a + S512x1.size a ≤ S512x351.size a
  inb_S512x351_S512x1_0_48 : ∀ a, (![0, 48] : Fin 2 → Nat) a + S512x1.size a ≤ S512x351.size a
  inb_S512x351_S512x1_0_49 : ∀ a, (![0, 49] : Fin 2 → Nat) a + S512x1.size a ≤ S512x351.size a
  inb_S512x351_S512x1_0_50 : ∀ a, (![0, 50] : Fin 2 → Nat) a + S512x1.size a ≤ S512x351.size a
  inb_S512x351_S512x1_0_51 : ∀ a, (![0, 51] : Fin 2 → Nat) a + S512x1.size a ≤ S512x351.size a
  inb_S512x351_S512x1_0_52 : ∀ a, (![0, 52] : Fin 2 → Nat) a + S512x1.size a ≤ S512x351.size a
  inb_S512x351_S512x1_0_53 : ∀ a, (![0, 53] : Fin 2 → Nat) a + S512x1.size a ≤ S512x351.size a
  inb_S512x351_S512x1_0_54 : ∀ a, (![0, 54] : Fin 2 → Nat) a + S512x1.size a ≤ S512x351.size a
  inb_S512x351_S512x1_0_55 : ∀ a, (![0, 55] : Fin 2 → Nat) a + S512x1.size a ≤ S512x351.size a
  inb_S512x351_S512x1_0_56 : ∀ a, (![0, 56] : Fin 2 → Nat) a + S512x1.size a ≤ S512x351.size a
  inb_S512x351_S512x1_0_57 : ∀ a, (![0, 57] : Fin 2 → Nat) a + S512x1.size a ≤ S512x351.size a
  inb_S512x351_S512x1_0_58 : ∀ a, (![0, 58] : Fin 2 → Nat) a + S512x1.size a ≤ S512x351.size a
  inb_S512x351_S512x1_0_59 : ∀ a, (![0, 59] : Fin 2 → Nat) a + S512x1.size a ≤ S512x351.size a
  inb_S512x351_S512x1_0_60 : ∀ a, (![0, 60] : Fin 2 → Nat) a + S512x1.size a ≤ S512x351.size a
  inb_S512x351_S512x1_0_61 : ∀ a, (![0, 61] : Fin 2 → Nat) a + S512x1.size a ≤ S512x351.size a
  inb_S512x351_S512x1_0_62 : ∀ a, (![0, 62] : Fin 2 → Nat) a + S512x1.size a ≤ S512x351.size a
  inb_S512x351_S512x1_0_63 : ∀ a, (![0, 63] : Fin 2 → Nat) a + S512x1.size a ≤ S512x351.size a
  inb_S512x351_S512x1_0_64 : ∀ a, (![0, 64] : Fin 2 → Nat) a + S512x1.size a ≤ S512x351.size a
  inb_S512x351_S512x1_0_65 : ∀ a, (![0, 65] : Fin 2 → Nat) a + S512x1.size a ≤ S512x351.size a
  inb_S512x351_S512x1_0_66 : ∀ a, (![0, 66] : Fin 2 → Nat) a + S512x1.size a ≤ S512x351.size a
  inb_S512x351_S512x1_0_67 : ∀ a, (![0, 67] : Fin 2 → Nat) a + S512x1.size a ≤ S512x351.size a
  inb_S512x351_S512x1_0_68 : ∀ a, (![0, 68] : Fin 2 → Nat) a + S512x1.size a ≤ S512x351.size a
  inb_S512x351_S512x1_0_69 : ∀ a, (![0, 69] : Fin 2 → Nat) a + S512x1.size a ≤ S512x351.size a
  inb_S512x351_S512x1_0_70 : ∀ a, (![0, 70] : Fin 2 → Nat) a + S512x1.size a ≤ S512x351.size a
  inb_S512x351_S512x1_0_71 : ∀ a, (![0, 71] : Fin 2 → Nat) a + S512x1.size a ≤ S512x351.size a
  inb_S512x351_S512x1_0_72 : ∀ a, (![0, 72] : Fin 2 → Nat) a + S512x1.size a ≤ S512x351.size a
  inb_S512x351_S512x1_0_73 : ∀ a, (![0, 73] : Fin 2 → Nat) a + S512x1.size a ≤ S512x351.size a
  inb_S512x351_S512x1_0_74 : ∀ a, (![0, 74] : Fin 2 → Nat) a + S512x1.size a ≤ S512x351.size a
  inb_S512x351_S512x1_0_75 : ∀ a, (![0, 75] : Fin 2 → Nat) a + S512x1.size a ≤ S512x351.size a
  inb_S512x351_S512x1_0_76 : ∀ a, (![0, 76] : Fin 2 → Nat) a + S512x1.size a ≤ S512x351.size a
  inb_S512x351_S512x1_0_77 : ∀ a, (![0, 77] : Fin 2 → Nat) a + S512x1.size a ≤ S512x351.size a
  inb_S512x351_S512x1_0_78 : ∀ a, (![0, 78] : Fin 2 → Nat) a + S512x1.size a ≤ S512x351.size a
  inb_S512x351_S512x1_0_79 : ∀ a, (![0, 79] : Fin 2 → Nat) a + S512x1.size a ≤ S512x351.size a
  inb_S512x351_S512x1_0_80 : ∀ a, (![0, 80] : Fin 2 → Nat) a + S512x1.size a ≤ S512x351.size a
  inb_S512x351_S512x1_0_81 : ∀ a, (![0, 81] : Fin 2 → Nat) a + S512x1.size a ≤ S512x351.size a
  inb_S512x351_S512x1_0_82 : ∀ a, (![0, 82] : Fin 2 → Nat) a + S512x1.size a ≤ S512x351.size a
  inb_S512x351_S512x1_0_83 : ∀ a, (![0, 83] : Fin 2 → Nat) a + S512x1.size a ≤ S512x351.size a
  inb_S512x351_S512x1_0_84 : ∀ a, (![0, 84] : Fin 2 → Nat) a + S512x1.size a ≤ S512x351.size a
  inb_S512x351_S512x1_0_85 : ∀ a, (![0, 85] : Fin 2 → Nat) a + S512x1.size a ≤ S512x351.size a
  inb_S512x351_S512x1_0_86 : ∀ a, (![0, 86] : Fin 2 → Nat) a + S512x1.size a ≤ S512x351.size a
  inb_S512x351_S512x1_0_87 : ∀ a, (![0, 87] : Fin 2 → Nat) a + S512x1.size a ≤ S512x351.size a
  inb_S512x351_S512x1_0_88 : ∀ a, (![0, 88] : Fin 2 → Nat) a + S512x1.size a ≤ S512x351.size a
  inb_S512x351_S512x1_0_89 : ∀ a, (![0, 89] : Fin 2 → Nat) a + S512x1.size a ≤ S512x351.size a
  inb_S512x351_S512x1_0_90 : ∀ a, (![0, 90] : Fin 2 → Nat) a + S512x1.size a ≤ S512x351.size a
  inb_S512x351_S512x1_0_91 : ∀ a, (![0, 91] : Fin 2 → Nat) a + S512x1.size a ≤ S512x351.size a
  inb_S512x351_S512x1_0_92 : ∀ a, (![0, 92] : Fin 2 → Nat) a + S512x1.size a ≤ S512x351.size a
  inb_S512x351_S512x1_0_93 : ∀ a, (![0, 93] : Fin 2 → Nat) a + S512x1.size a ≤ S512x351.size a
  inb_S512x351_S512x1_0_94 : ∀ a, (![0, 94] : Fin 2 → Nat) a + S512x1.size a ≤ S512x351.size a
  inb_S512x351_S512x1_0_95 : ∀ a, (![0, 95] : Fin 2 → Nat) a + S512x1.size a ≤ S512x351.size a
  inb_S512x351_S512x1_0_96 : ∀ a, (![0, 96] : Fin 2 → Nat) a + S512x1.size a ≤ S512x351.size a
  inb_S512x351_S512x1_0_97 : ∀ a, (![0, 97] : Fin 2 → Nat) a + S512x1.size a ≤ S512x351.size a
  inb_S512x351_S512x1_0_98 : ∀ a, (![0, 98] : Fin 2 → Nat) a + S512x1.size a ≤ S512x351.size a
  inb_S512x351_S512x1_0_99 : ∀ a, (![0, 99] : Fin 2 → Nat) a + S512x1.size a ≤ S512x351.size a
  inb_S512x351_S512x1_0_100 : ∀ a, (![0, 100] : Fin 2 → Nat) a + S512x1.size a ≤ S512x351.size a
  inb_S512x351_S512x1_0_101 : ∀ a, (![0, 101] : Fin 2 → Nat) a + S512x1.size a ≤ S512x351.size a
  inb_S512x351_S512x1_0_102 : ∀ a, (![0, 102] : Fin 2 → Nat) a + S512x1.size a ≤ S512x351.size a
  inb_S512x351_S512x1_0_103 : ∀ a, (![0, 103] : Fin 2 → Nat) a + S512x1.size a ≤ S512x351.size a
  inb_S512x351_S512x1_0_104 : ∀ a, (![0, 104] : Fin 2 → Nat) a + S512x1.size a ≤ S512x351.size a
  inb_S512x351_S512x1_0_105 : ∀ a, (![0, 105] : Fin 2 → Nat) a + S512x1.size a ≤ S512x351.size a
  inb_S512x351_S512x1_0_106 : ∀ a, (![0, 106] : Fin 2 → Nat) a + S512x1.size a ≤ S512x351.size a
  inb_S512x351_S512x1_0_107 : ∀ a, (![0, 107] : Fin 2 → Nat) a + S512x1.size a ≤ S512x351.size a
  inb_S512x351_S512x1_0_108 : ∀ a, (![0, 108] : Fin 2 → Nat) a + S512x1.size a ≤ S512x351.size a
  inb_S512x351_S512x1_0_109 : ∀ a, (![0, 109] : Fin 2 → Nat) a + S512x1.size a ≤ S512x351.size a
  inb_S512x351_S512x1_0_110 : ∀ a, (![0, 110] : Fin 2 → Nat) a + S512x1.size a ≤ S512x351.size a
  inb_S512x351_S512x1_0_111 : ∀ a, (![0, 111] : Fin 2 → Nat) a + S512x1.size a ≤ S512x351.size a
  inb_S512x351_S512x1_0_112 : ∀ a, (![0, 112] : Fin 2 → Nat) a + S512x1.size a ≤ S512x351.size a
  inb_S512x351_S512x1_0_113 : ∀ a, (![0, 113] : Fin 2 → Nat) a + S512x1.size a ≤ S512x351.size a
  inb_S512x351_S512x1_0_114 : ∀ a, (![0, 114] : Fin 2 → Nat) a + S512x1.size a ≤ S512x351.size a
  inb_S512x351_S512x1_0_115 : ∀ a, (![0, 115] : Fin 2 → Nat) a + S512x1.size a ≤ S512x351.size a
  inb_S512x351_S512x1_0_116 : ∀ a, (![0, 116] : Fin 2 → Nat) a + S512x1.size a ≤ S512x351.size a
  inb_S512x351_S512x1_0_117 : ∀ a, (![0, 117] : Fin 2 → Nat) a + S512x1.size a ≤ S512x351.size a
  inb_S512x351_S512x1_0_118 : ∀ a, (![0, 118] : Fin 2 → Nat) a + S512x1.size a ≤ S512x351.size a
  inb_S512x351_S512x1_0_119 : ∀ a, (![0, 119] : Fin 2 → Nat) a + S512x1.size a ≤ S512x351.size a
  inb_S512x351_S512x1_0_120 : ∀ a, (![0, 120] : Fin 2 → Nat) a + S512x1.size a ≤ S512x351.size a
  inb_S512x351_S512x1_0_121 : ∀ a, (![0, 121] : Fin 2 → Nat) a + S512x1.size a ≤ S512x351.size a
  inb_S512x351_S512x1_0_122 : ∀ a, (![0, 122] : Fin 2 → Nat) a + S512x1.size a ≤ S512x351.size a
  inb_S512x351_S512x1_0_123 : ∀ a, (![0, 123] : Fin 2 → Nat) a + S512x1.size a ≤ S512x351.size a
  inb_S512x351_S512x1_0_124 : ∀ a, (![0, 124] : Fin 2 → Nat) a + S512x1.size a ≤ S512x351.size a
  inb_S512x351_S512x1_0_125 : ∀ a, (![0, 125] : Fin 2 → Nat) a + S512x1.size a ≤ S512x351.size a
  inb_S512x351_S512x1_0_126 : ∀ a, (![0, 126] : Fin 2 → Nat) a + S512x1.size a ≤ S512x351.size a
  inb_S512x351_S512x1_0_127 : ∀ a, (![0, 127] : Fin 2 → Nat) a + S512x1.size a ≤ S512x351.size a
  inb_S512x351_S512x1_0_128 : ∀ a, (![0, 128] : Fin 2 → Nat) a + S512x1.size a ≤ S512x351.size a
  inb_S512x351_S512x1_0_129 : ∀ a, (![0, 129] : Fin 2 → Nat) a + S512x1.size a ≤ S512x351.size a
  inb_S512x351_S512x1_0_130 : ∀ a, (![0, 130] : Fin 2 → Nat) a + S512x1.size a ≤ S512x351.size a
  inb_S512x351_S512x1_0_131 : ∀ a, (![0, 131] : Fin 2 → Nat) a + S512x1.size a ≤ S512x351.size a
  inb_S512x351_S512x1_0_132 : ∀ a, (![0, 132] : Fin 2 → Nat) a + S512x1.size a ≤ S512x351.size a
  inb_S512x351_S512x1_0_133 : ∀ a, (![0, 133] : Fin 2 → Nat) a + S512x1.size a ≤ S512x351.size a
  inb_S512x351_S512x1_0_134 : ∀ a, (![0, 134] : Fin 2 → Nat) a + S512x1.size a ≤ S512x351.size a
  inb_S512x351_S512x1_0_135 : ∀ a, (![0, 135] : Fin 2 → Nat) a + S512x1.size a ≤ S512x351.size a
  inb_S512x351_S512x1_0_136 : ∀ a, (![0, 136] : Fin 2 → Nat) a + S512x1.size a ≤ S512x351.size a
  inb_S512x351_S512x1_0_137 : ∀ a, (![0, 137] : Fin 2 → Nat) a + S512x1.size a ≤ S512x351.size a
  inb_S512x351_S512x1_0_138 : ∀ a, (![0, 138] : Fin 2 → Nat) a + S512x1.size a ≤ S512x351.size a
  inb_S512x351_S512x1_0_139 : ∀ a, (![0, 139] : Fin 2 → Nat) a + S512x1.size a ≤ S512x351.size a
  inb_S512x351_S512x1_0_140 : ∀ a, (![0, 140] : Fin 2 → Nat) a + S512x1.size a ≤ S512x351.size a
  inb_S512x351_S512x1_0_141 : ∀ a, (![0, 141] : Fin 2 → Nat) a + S512x1.size a ≤ S512x351.size a
  inb_S512x351_S512x1_0_142 : ∀ a, (![0, 142] : Fin 2 → Nat) a + S512x1.size a ≤ S512x351.size a
  inb_S512x351_S512x1_0_143 : ∀ a, (![0, 143] : Fin 2 → Nat) a + S512x1.size a ≤ S512x351.size a
  inb_S512x351_S512x1_0_144 : ∀ a, (![0, 144] : Fin 2 → Nat) a + S512x1.size a ≤ S512x351.size a
  inb_S512x351_S512x1_0_145 : ∀ a, (![0, 145] : Fin 2 → Nat) a + S512x1.size a ≤ S512x351.size a
  inb_S512x351_S512x1_0_146 : ∀ a, (![0, 146] : Fin 2 → Nat) a + S512x1.size a ≤ S512x351.size a
  inb_S512x351_S512x1_0_147 : ∀ a, (![0, 147] : Fin 2 → Nat) a + S512x1.size a ≤ S512x351.size a
  inb_S512x351_S512x1_0_148 : ∀ a, (![0, 148] : Fin 2 → Nat) a + S512x1.size a ≤ S512x351.size a
  inb_S512x351_S512x1_0_149 : ∀ a, (![0, 149] : Fin 2 → Nat) a + S512x1.size a ≤ S512x351.size a
  inb_S512x351_S512x1_0_150 : ∀ a, (![0, 150] : Fin 2 → Nat) a + S512x1.size a ≤ S512x351.size a
  inb_S512x351_S512x1_0_151 : ∀ a, (![0, 151] : Fin 2 → Nat) a + S512x1.size a ≤ S512x351.size a
  inb_S512x351_S512x1_0_152 : ∀ a, (![0, 152] : Fin 2 → Nat) a + S512x1.size a ≤ S512x351.size a
  inb_S512x351_S512x1_0_153 : ∀ a, (![0, 153] : Fin 2 → Nat) a + S512x1.size a ≤ S512x351.size a
  inb_S512x351_S512x1_0_154 : ∀ a, (![0, 154] : Fin 2 → Nat) a + S512x1.size a ≤ S512x351.size a
  inb_S512x351_S512x1_0_155 : ∀ a, (![0, 155] : Fin 2 → Nat) a + S512x1.size a ≤ S512x351.size a
  inb_S512x351_S512x1_0_156 : ∀ a, (![0, 156] : Fin 2 → Nat) a + S512x1.size a ≤ S512x351.size a
  inb_S512x351_S512x1_0_157 : ∀ a, (![0, 157] : Fin 2 → Nat) a + S512x1.size a ≤ S512x351.size a
  inb_S512x351_S512x1_0_158 : ∀ a, (![0, 158] : Fin 2 → Nat) a + S512x1.size a ≤ S512x351.size a
  inb_S512x351_S512x1_0_159 : ∀ a, (![0, 159] : Fin 2 → Nat) a + S512x1.size a ≤ S512x351.size a
  inb_S512x351_S512x1_0_160 : ∀ a, (![0, 160] : Fin 2 → Nat) a + S512x1.size a ≤ S512x351.size a
  inb_S512x351_S512x1_0_161 : ∀ a, (![0, 161] : Fin 2 → Nat) a + S512x1.size a ≤ S512x351.size a
  inb_S512x351_S512x1_0_162 : ∀ a, (![0, 162] : Fin 2 → Nat) a + S512x1.size a ≤ S512x351.size a
  inb_S512x351_S512x1_0_163 : ∀ a, (![0, 163] : Fin 2 → Nat) a + S512x1.size a ≤ S512x351.size a
  inb_S512x351_S512x1_0_164 : ∀ a, (![0, 164] : Fin 2 → Nat) a + S512x1.size a ≤ S512x351.size a
  inb_S512x351_S512x1_0_165 : ∀ a, (![0, 165] : Fin 2 → Nat) a + S512x1.size a ≤ S512x351.size a
  inb_S512x351_S512x1_0_166 : ∀ a, (![0, 166] : Fin 2 → Nat) a + S512x1.size a ≤ S512x351.size a
  inb_S512x351_S512x1_0_167 : ∀ a, (![0, 167] : Fin 2 → Nat) a + S512x1.size a ≤ S512x351.size a
  inb_S512x351_S512x1_0_168 : ∀ a, (![0, 168] : Fin 2 → Nat) a + S512x1.size a ≤ S512x351.size a
  inb_S512x351_S512x1_0_169 : ∀ a, (![0, 169] : Fin 2 → Nat) a + S512x1.size a ≤ S512x351.size a
  inb_S512x351_S512x1_0_170 : ∀ a, (![0, 170] : Fin 2 → Nat) a + S512x1.size a ≤ S512x351.size a
  inb_S512x351_S512x1_0_171 : ∀ a, (![0, 171] : Fin 2 → Nat) a + S512x1.size a ≤ S512x351.size a
  inb_S512x351_S512x1_0_172 : ∀ a, (![0, 172] : Fin 2 → Nat) a + S512x1.size a ≤ S512x351.size a
  inb_S512x351_S512x1_0_173 : ∀ a, (![0, 173] : Fin 2 → Nat) a + S512x1.size a ≤ S512x351.size a
  inb_S512x351_S512x1_0_174 : ∀ a, (![0, 174] : Fin 2 → Nat) a + S512x1.size a ≤ S512x351.size a
  inb_S512x351_S512x1_0_175 : ∀ a, (![0, 175] : Fin 2 → Nat) a + S512x1.size a ≤ S512x351.size a
  inb_S512x351_S512x1_0_176 : ∀ a, (![0, 176] : Fin 2 → Nat) a + S512x1.size a ≤ S512x351.size a
  inb_S512x351_S512x1_0_177 : ∀ a, (![0, 177] : Fin 2 → Nat) a + S512x1.size a ≤ S512x351.size a
  inb_S512x351_S512x1_0_178 : ∀ a, (![0, 178] : Fin 2 → Nat) a + S512x1.size a ≤ S512x351.size a
  inb_S512x351_S512x1_0_179 : ∀ a, (![0, 179] : Fin 2 → Nat) a + S512x1.size a ≤ S512x351.size a
  inb_S512x351_S512x1_0_180 : ∀ a, (![0, 180] : Fin 2 → Nat) a + S512x1.size a ≤ S512x351.size a
  inb_S512x351_S512x1_0_181 : ∀ a, (![0, 181] : Fin 2 → Nat) a + S512x1.size a ≤ S512x351.size a
  inb_S512x351_S512x1_0_182 : ∀ a, (![0, 182] : Fin 2 → Nat) a + S512x1.size a ≤ S512x351.size a
  inb_S512x351_S512x1_0_183 : ∀ a, (![0, 183] : Fin 2 → Nat) a + S512x1.size a ≤ S512x351.size a
  inb_S512x351_S512x1_0_184 : ∀ a, (![0, 184] : Fin 2 → Nat) a + S512x1.size a ≤ S512x351.size a
  inb_S512x351_S512x1_0_185 : ∀ a, (![0, 185] : Fin 2 → Nat) a + S512x1.size a ≤ S512x351.size a
  inb_S512x351_S512x1_0_186 : ∀ a, (![0, 186] : Fin 2 → Nat) a + S512x1.size a ≤ S512x351.size a
  inb_S512x351_S512x1_0_187 : ∀ a, (![0, 187] : Fin 2 → Nat) a + S512x1.size a ≤ S512x351.size a
  inb_S512x351_S512x1_0_188 : ∀ a, (![0, 188] : Fin 2 → Nat) a + S512x1.size a ≤ S512x351.size a
  inb_S512x351_S512x1_0_189 : ∀ a, (![0, 189] : Fin 2 → Nat) a + S512x1.size a ≤ S512x351.size a
  inb_S512x351_S512x1_0_190 : ∀ a, (![0, 190] : Fin 2 → Nat) a + S512x1.size a ≤ S512x351.size a
  inb_S512x351_S512x1_0_191 : ∀ a, (![0, 191] : Fin 2 → Nat) a + S512x1.size a ≤ S512x351.size a
  inb_S512x351_S512x1_0_192 : ∀ a, (![0, 192] : Fin 2 → Nat) a + S512x1.size a ≤ S512x351.size a
  inb_S512x351_S512x1_0_193 : ∀ a, (![0, 193] : Fin 2 → Nat) a + S512x1.size a ≤ S512x351.size a
  inb_S512x351_S512x1_0_194 : ∀ a, (![0, 194] : Fin 2 → Nat) a + S512x1.size a ≤ S512x351.size a
  inb_S512x351_S512x1_0_195 : ∀ a, (![0, 195] : Fin 2 → Nat) a + S512x1.size a ≤ S512x351.size a
  inb_S512x351_S512x1_0_196 : ∀ a, (![0, 196] : Fin 2 → Nat) a + S512x1.size a ≤ S512x351.size a
  inb_S512x351_S512x1_0_197 : ∀ a, (![0, 197] : Fin 2 → Nat) a + S512x1.size a ≤ S512x351.size a
  inb_S512x351_S512x1_0_198 : ∀ a, (![0, 198] : Fin 2 → Nat) a + S512x1.size a ≤ S512x351.size a
  inb_S512x351_S512x1_0_199 : ∀ a, (![0, 199] : Fin 2 → Nat) a + S512x1.size a ≤ S512x351.size a
  inb_S512x351_S512x1_0_200 : ∀ a, (![0, 200] : Fin 2 → Nat) a + S512x1.size a ≤ S512x351.size a
  inb_S512x351_S512x1_0_201 : ∀ a, (![0, 201] : Fin 2 → Nat) a + S512x1.size a ≤ S512x351.size a
  inb_S512x351_S512x1_0_202 : ∀ a, (![0, 202] : Fin 2 → Nat) a + S512x1.size a ≤ S512x351.size a
  inb_S512x351_S512x1_0_203 : ∀ a, (![0, 203] : Fin 2 → Nat) a + S512x1.size a ≤ S512x351.size a
  inb_S512x351_S512x1_0_204 : ∀ a, (![0, 204] : Fin 2 → Nat) a + S512x1.size a ≤ S512x351.size a
  inb_S512x351_S512x1_0_205 : ∀ a, (![0, 205] : Fin 2 → Nat) a + S512x1.size a ≤ S512x351.size a
  inb_S512x351_S512x1_0_206 : ∀ a, (![0, 206] : Fin 2 → Nat) a + S512x1.size a ≤ S512x351.size a
  inb_S512x351_S512x1_0_207 : ∀ a, (![0, 207] : Fin 2 → Nat) a + S512x1.size a ≤ S512x351.size a
  inb_S512x351_S512x1_0_208 : ∀ a, (![0, 208] : Fin 2 → Nat) a + S512x1.size a ≤ S512x351.size a
  inb_S512x351_S512x1_0_209 : ∀ a, (![0, 209] : Fin 2 → Nat) a + S512x1.size a ≤ S512x351.size a
  inb_S512x351_S512x1_0_210 : ∀ a, (![0, 210] : Fin 2 → Nat) a + S512x1.size a ≤ S512x351.size a
  inb_S512x351_S512x1_0_211 : ∀ a, (![0, 211] : Fin 2 → Nat) a + S512x1.size a ≤ S512x351.size a
  inb_S512x351_S512x1_0_212 : ∀ a, (![0, 212] : Fin 2 → Nat) a + S512x1.size a ≤ S512x351.size a
  inb_S512x351_S512x1_0_213 : ∀ a, (![0, 213] : Fin 2 → Nat) a + S512x1.size a ≤ S512x351.size a
  inb_S512x351_S512x1_0_214 : ∀ a, (![0, 214] : Fin 2 → Nat) a + S512x1.size a ≤ S512x351.size a
  inb_S512x351_S512x1_0_215 : ∀ a, (![0, 215] : Fin 2 → Nat) a + S512x1.size a ≤ S512x351.size a
  inb_S512x351_S512x1_0_216 : ∀ a, (![0, 216] : Fin 2 → Nat) a + S512x1.size a ≤ S512x351.size a
  inb_S512x351_S512x1_0_217 : ∀ a, (![0, 217] : Fin 2 → Nat) a + S512x1.size a ≤ S512x351.size a
  inb_S512x351_S512x1_0_218 : ∀ a, (![0, 218] : Fin 2 → Nat) a + S512x1.size a ≤ S512x351.size a
  inb_S512x351_S512x1_0_219 : ∀ a, (![0, 219] : Fin 2 → Nat) a + S512x1.size a ≤ S512x351.size a
  inb_S512x351_S512x1_0_220 : ∀ a, (![0, 220] : Fin 2 → Nat) a + S512x1.size a ≤ S512x351.size a
  inb_S512x351_S512x1_0_221 : ∀ a, (![0, 221] : Fin 2 → Nat) a + S512x1.size a ≤ S512x351.size a
  inb_S512x351_S512x1_0_222 : ∀ a, (![0, 222] : Fin 2 → Nat) a + S512x1.size a ≤ S512x351.size a
  inb_S512x351_S512x1_0_223 : ∀ a, (![0, 223] : Fin 2 → Nat) a + S512x1.size a ≤ S512x351.size a
  inb_S512x351_S512x1_0_224 : ∀ a, (![0, 224] : Fin 2 → Nat) a + S512x1.size a ≤ S512x351.size a
  inb_S512x351_S512x1_0_225 : ∀ a, (![0, 225] : Fin 2 → Nat) a + S512x1.size a ≤ S512x351.size a
  inb_S512x351_S512x1_0_226 : ∀ a, (![0, 226] : Fin 2 → Nat) a + S512x1.size a ≤ S512x351.size a
  inb_S512x351_S512x1_0_227 : ∀ a, (![0, 227] : Fin 2 → Nat) a + S512x1.size a ≤ S512x351.size a
  inb_S512x351_S512x1_0_228 : ∀ a, (![0, 228] : Fin 2 → Nat) a + S512x1.size a ≤ S512x351.size a
  inb_S512x351_S512x1_0_229 : ∀ a, (![0, 229] : Fin 2 → Nat) a + S512x1.size a ≤ S512x351.size a
  inb_S512x351_S512x1_0_230 : ∀ a, (![0, 230] : Fin 2 → Nat) a + S512x1.size a ≤ S512x351.size a
  inb_S512x351_S512x1_0_231 : ∀ a, (![0, 231] : Fin 2 → Nat) a + S512x1.size a ≤ S512x351.size a
  inb_S512x351_S512x1_0_232 : ∀ a, (![0, 232] : Fin 2 → Nat) a + S512x1.size a ≤ S512x351.size a
  inb_S512x351_S512x1_0_233 : ∀ a, (![0, 233] : Fin 2 → Nat) a + S512x1.size a ≤ S512x351.size a
  inb_S512x351_S512x1_0_234 : ∀ a, (![0, 234] : Fin 2 → Nat) a + S512x1.size a ≤ S512x351.size a
  inb_S512x351_S512x1_0_235 : ∀ a, (![0, 235] : Fin 2 → Nat) a + S512x1.size a ≤ S512x351.size a
  inb_S512x351_S512x1_0_236 : ∀ a, (![0, 236] : Fin 2 → Nat) a + S512x1.size a ≤ S512x351.size a
  inb_S512x351_S512x1_0_237 : ∀ a, (![0, 237] : Fin 2 → Nat) a + S512x1.size a ≤ S512x351.size a
  inb_S512x351_S512x1_0_238 : ∀ a, (![0, 238] : Fin 2 → Nat) a + S512x1.size a ≤ S512x351.size a
  inb_S512x351_S512x1_0_239 : ∀ a, (![0, 239] : Fin 2 → Nat) a + S512x1.size a ≤ S512x351.size a
  inb_S512x351_S512x1_0_240 : ∀ a, (![0, 240] : Fin 2 → Nat) a + S512x1.size a ≤ S512x351.size a
  inb_S512x351_S512x1_0_241 : ∀ a, (![0, 241] : Fin 2 → Nat) a + S512x1.size a ≤ S512x351.size a
  inb_S512x351_S512x1_0_242 : ∀ a, (![0, 242] : Fin 2 → Nat) a + S512x1.size a ≤ S512x351.size a
  inb_S512x351_S512x1_0_243 : ∀ a, (![0, 243] : Fin 2 → Nat) a + S512x1.size a ≤ S512x351.size a
  inb_S512x351_S512x1_0_244 : ∀ a, (![0, 244] : Fin 2 → Nat) a + S512x1.size a ≤ S512x351.size a
  inb_S512x351_S512x1_0_245 : ∀ a, (![0, 245] : Fin 2 → Nat) a + S512x1.size a ≤ S512x351.size a
  inb_S512x351_S512x1_0_246 : ∀ a, (![0, 246] : Fin 2 → Nat) a + S512x1.size a ≤ S512x351.size a
  inb_S512x351_S512x1_0_247 : ∀ a, (![0, 247] : Fin 2 → Nat) a + S512x1.size a ≤ S512x351.size a
  inb_S512x351_S512x1_0_248 : ∀ a, (![0, 248] : Fin 2 → Nat) a + S512x1.size a ≤ S512x351.size a
  inb_S512x351_S512x1_0_249 : ∀ a, (![0, 249] : Fin 2 → Nat) a + S512x1.size a ≤ S512x351.size a
  inb_S512x351_S512x1_0_250 : ∀ a, (![0, 250] : Fin 2 → Nat) a + S512x1.size a ≤ S512x351.size a
  inb_S512x351_S512x1_0_251 : ∀ a, (![0, 251] : Fin 2 → Nat) a + S512x1.size a ≤ S512x351.size a
  inb_S512x351_S512x1_0_252 : ∀ a, (![0, 252] : Fin 2 → Nat) a + S512x1.size a ≤ S512x351.size a
  inb_S512x351_S512x1_0_253 : ∀ a, (![0, 253] : Fin 2 → Nat) a + S512x1.size a ≤ S512x351.size a
  inb_S512x351_S512x1_0_254 : ∀ a, (![0, 254] : Fin 2 → Nat) a + S512x1.size a ≤ S512x351.size a
  inb_S512x351_S512x1_0_255 : ∀ a, (![0, 255] : Fin 2 → Nat) a + S512x1.size a ≤ S512x351.size a
  inb_S512x351_S512x1_0_256 : ∀ a, (![0, 256] : Fin 2 → Nat) a + S512x1.size a ≤ S512x351.size a
  inb_S512x351_S512x1_0_257 : ∀ a, (![0, 257] : Fin 2 → Nat) a + S512x1.size a ≤ S512x351.size a
  inb_S512x351_S512x1_0_258 : ∀ a, (![0, 258] : Fin 2 → Nat) a + S512x1.size a ≤ S512x351.size a
  inb_S512x351_S512x1_0_259 : ∀ a, (![0, 259] : Fin 2 → Nat) a + S512x1.size a ≤ S512x351.size a
  inb_S512x351_S512x1_0_260 : ∀ a, (![0, 260] : Fin 2 → Nat) a + S512x1.size a ≤ S512x351.size a
  inb_S512x351_S512x1_0_261 : ∀ a, (![0, 261] : Fin 2 → Nat) a + S512x1.size a ≤ S512x351.size a
  inb_S512x351_S512x1_0_262 : ∀ a, (![0, 262] : Fin 2 → Nat) a + S512x1.size a ≤ S512x351.size a
  inb_S512x351_S512x1_0_263 : ∀ a, (![0, 263] : Fin 2 → Nat) a + S512x1.size a ≤ S512x351.size a
  inb_S512x351_S512x1_0_264 : ∀ a, (![0, 264] : Fin 2 → Nat) a + S512x1.size a ≤ S512x351.size a
  inb_S512x351_S512x1_0_265 : ∀ a, (![0, 265] : Fin 2 → Nat) a + S512x1.size a ≤ S512x351.size a
  inb_S512x351_S512x1_0_266 : ∀ a, (![0, 266] : Fin 2 → Nat) a + S512x1.size a ≤ S512x351.size a
  inb_S512x351_S512x1_0_267 : ∀ a, (![0, 267] : Fin 2 → Nat) a + S512x1.size a ≤ S512x351.size a
  inb_S512x351_S512x1_0_268 : ∀ a, (![0, 268] : Fin 2 → Nat) a + S512x1.size a ≤ S512x351.size a
  inb_S512x351_S512x1_0_269 : ∀ a, (![0, 269] : Fin 2 → Nat) a + S512x1.size a ≤ S512x351.size a
  inb_S512x351_S512x1_0_270 : ∀ a, (![0, 270] : Fin 2 → Nat) a + S512x1.size a ≤ S512x351.size a
  inb_S512x351_S512x1_0_271 : ∀ a, (![0, 271] : Fin 2 → Nat) a + S512x1.size a ≤ S512x351.size a
  inb_S512x351_S512x1_0_272 : ∀ a, (![0, 272] : Fin 2 → Nat) a + S512x1.size a ≤ S512x351.size a
  inb_S512x351_S512x1_0_273 : ∀ a, (![0, 273] : Fin 2 → Nat) a + S512x1.size a ≤ S512x351.size a
  inb_S512x351_S512x1_0_274 : ∀ a, (![0, 274] : Fin 2 → Nat) a + S512x1.size a ≤ S512x351.size a
  inb_S512x351_S512x1_0_275 : ∀ a, (![0, 275] : Fin 2 → Nat) a + S512x1.size a ≤ S512x351.size a
  inb_S512x351_S512x1_0_276 : ∀ a, (![0, 276] : Fin 2 → Nat) a + S512x1.size a ≤ S512x351.size a
  inb_S512x351_S512x1_0_277 : ∀ a, (![0, 277] : Fin 2 → Nat) a + S512x1.size a ≤ S512x351.size a
  inb_S512x351_S512x1_0_278 : ∀ a, (![0, 278] : Fin 2 → Nat) a + S512x1.size a ≤ S512x351.size a
  inb_S512x351_S512x1_0_279 : ∀ a, (![0, 279] : Fin 2 → Nat) a + S512x1.size a ≤ S512x351.size a
  inb_S512x351_S512x1_0_280 : ∀ a, (![0, 280] : Fin 2 → Nat) a + S512x1.size a ≤ S512x351.size a
  inb_S512x351_S512x1_0_281 : ∀ a, (![0, 281] : Fin 2 → Nat) a + S512x1.size a ≤ S512x351.size a
  inb_S512x351_S512x1_0_282 : ∀ a, (![0, 282] : Fin 2 → Nat) a + S512x1.size a ≤ S512x351.size a
  inb_S512x351_S512x1_0_283 : ∀ a, (![0, 283] : Fin 2 → Nat) a + S512x1.size a ≤ S512x351.size a
  inb_S512x351_S512x1_0_284 : ∀ a, (![0, 284] : Fin 2 → Nat) a + S512x1.size a ≤ S512x351.size a
  inb_S512x351_S512x1_0_285 : ∀ a, (![0, 285] : Fin 2 → Nat) a + S512x1.size a ≤ S512x351.size a
  inb_S512x351_S512x1_0_286 : ∀ a, (![0, 286] : Fin 2 → Nat) a + S512x1.size a ≤ S512x351.size a
  inb_S512x351_S512x1_0_287 : ∀ a, (![0, 287] : Fin 2 → Nat) a + S512x1.size a ≤ S512x351.size a
  inb_S512x351_S512x1_0_288 : ∀ a, (![0, 288] : Fin 2 → Nat) a + S512x1.size a ≤ S512x351.size a
  inb_S512x351_S512x1_0_289 : ∀ a, (![0, 289] : Fin 2 → Nat) a + S512x1.size a ≤ S512x351.size a
  inb_S512x351_S512x1_0_290 : ∀ a, (![0, 290] : Fin 2 → Nat) a + S512x1.size a ≤ S512x351.size a
  inb_S512x351_S512x1_0_291 : ∀ a, (![0, 291] : Fin 2 → Nat) a + S512x1.size a ≤ S512x351.size a
  inb_S512x351_S512x1_0_292 : ∀ a, (![0, 292] : Fin 2 → Nat) a + S512x1.size a ≤ S512x351.size a
  inb_S512x351_S512x1_0_293 : ∀ a, (![0, 293] : Fin 2 → Nat) a + S512x1.size a ≤ S512x351.size a
  inb_S512x351_S512x1_0_294 : ∀ a, (![0, 294] : Fin 2 → Nat) a + S512x1.size a ≤ S512x351.size a
  inb_S512x351_S512x1_0_295 : ∀ a, (![0, 295] : Fin 2 → Nat) a + S512x1.size a ≤ S512x351.size a
  inb_S512x351_S512x1_0_296 : ∀ a, (![0, 296] : Fin 2 → Nat) a + S512x1.size a ≤ S512x351.size a
  inb_S512x351_S512x1_0_297 : ∀ a, (![0, 297] : Fin 2 → Nat) a + S512x1.size a ≤ S512x351.size a
  inb_S512x351_S512x1_0_298 : ∀ a, (![0, 298] : Fin 2 → Nat) a + S512x1.size a ≤ S512x351.size a
  inb_S512x351_S512x1_0_299 : ∀ a, (![0, 299] : Fin 2 → Nat) a + S512x1.size a ≤ S512x351.size a
  inb_S512x351_S512x1_0_300 : ∀ a, (![0, 300] : Fin 2 → Nat) a + S512x1.size a ≤ S512x351.size a
  inb_S512x351_S512x1_0_301 : ∀ a, (![0, 301] : Fin 2 → Nat) a + S512x1.size a ≤ S512x351.size a
  inb_S512x351_S512x1_0_302 : ∀ a, (![0, 302] : Fin 2 → Nat) a + S512x1.size a ≤ S512x351.size a
  inb_S512x351_S512x1_0_303 : ∀ a, (![0, 303] : Fin 2 → Nat) a + S512x1.size a ≤ S512x351.size a
  inb_S512x351_S512x1_0_304 : ∀ a, (![0, 304] : Fin 2 → Nat) a + S512x1.size a ≤ S512x351.size a
  inb_S512x351_S512x1_0_305 : ∀ a, (![0, 305] : Fin 2 → Nat) a + S512x1.size a ≤ S512x351.size a
  inb_S512x351_S512x1_0_306 : ∀ a, (![0, 306] : Fin 2 → Nat) a + S512x1.size a ≤ S512x351.size a
  inb_S512x351_S512x1_0_307 : ∀ a, (![0, 307] : Fin 2 → Nat) a + S512x1.size a ≤ S512x351.size a
  inb_S512x351_S512x1_0_308 : ∀ a, (![0, 308] : Fin 2 → Nat) a + S512x1.size a ≤ S512x351.size a
  inb_S512x351_S512x1_0_309 : ∀ a, (![0, 309] : Fin 2 → Nat) a + S512x1.size a ≤ S512x351.size a
  inb_S512x351_S512x1_0_310 : ∀ a, (![0, 310] : Fin 2 → Nat) a + S512x1.size a ≤ S512x351.size a
  inb_S512x351_S512x1_0_311 : ∀ a, (![0, 311] : Fin 2 → Nat) a + S512x1.size a ≤ S512x351.size a
  inb_S512x351_S512x1_0_312 : ∀ a, (![0, 312] : Fin 2 → Nat) a + S512x1.size a ≤ S512x351.size a
  inb_S512x351_S512x1_0_313 : ∀ a, (![0, 313] : Fin 2 → Nat) a + S512x1.size a ≤ S512x351.size a
  inb_S512x351_S512x1_0_314 : ∀ a, (![0, 314] : Fin 2 → Nat) a + S512x1.size a ≤ S512x351.size a
  inb_S512x351_S512x1_0_315 : ∀ a, (![0, 315] : Fin 2 → Nat) a + S512x1.size a ≤ S512x351.size a
  inb_S512x351_S512x1_0_316 : ∀ a, (![0, 316] : Fin 2 → Nat) a + S512x1.size a ≤ S512x351.size a
  inb_S512x351_S512x1_0_317 : ∀ a, (![0, 317] : Fin 2 → Nat) a + S512x1.size a ≤ S512x351.size a
  inb_S512x351_S512x1_0_318 : ∀ a, (![0, 318] : Fin 2 → Nat) a + S512x1.size a ≤ S512x351.size a
  inb_S512x351_S512x1_0_319 : ∀ a, (![0, 319] : Fin 2 → Nat) a + S512x1.size a ≤ S512x351.size a
  inb_S512x351_S512x1_0_320 : ∀ a, (![0, 320] : Fin 2 → Nat) a + S512x1.size a ≤ S512x351.size a
  inb_S512x351_S512x1_0_321 : ∀ a, (![0, 321] : Fin 2 → Nat) a + S512x1.size a ≤ S512x351.size a
  inb_S512x351_S512x1_0_322 : ∀ a, (![0, 322] : Fin 2 → Nat) a + S512x1.size a ≤ S512x351.size a
  inb_S512x351_S512x1_0_323 : ∀ a, (![0, 323] : Fin 2 → Nat) a + S512x1.size a ≤ S512x351.size a
  inb_S512x351_S512x1_0_324 : ∀ a, (![0, 324] : Fin 2 → Nat) a + S512x1.size a ≤ S512x351.size a
  inb_S512x351_S512x1_0_325 : ∀ a, (![0, 325] : Fin 2 → Nat) a + S512x1.size a ≤ S512x351.size a
  inb_S512x351_S512x1_0_326 : ∀ a, (![0, 326] : Fin 2 → Nat) a + S512x1.size a ≤ S512x351.size a
  inb_S512x351_S512x1_0_327 : ∀ a, (![0, 327] : Fin 2 → Nat) a + S512x1.size a ≤ S512x351.size a
  inb_S512x351_S512x1_0_328 : ∀ a, (![0, 328] : Fin 2 → Nat) a + S512x1.size a ≤ S512x351.size a
  inb_S512x351_S512x1_0_329 : ∀ a, (![0, 329] : Fin 2 → Nat) a + S512x1.size a ≤ S512x351.size a
  inb_S512x351_S512x1_0_330 : ∀ a, (![0, 330] : Fin 2 → Nat) a + S512x1.size a ≤ S512x351.size a
  inb_S512x351_S512x1_0_331 : ∀ a, (![0, 331] : Fin 2 → Nat) a + S512x1.size a ≤ S512x351.size a
  inb_S512x351_S512x1_0_332 : ∀ a, (![0, 332] : Fin 2 → Nat) a + S512x1.size a ≤ S512x351.size a
  inb_S512x351_S512x1_0_333 : ∀ a, (![0, 333] : Fin 2 → Nat) a + S512x1.size a ≤ S512x351.size a
  inb_S512x351_S512x1_0_334 : ∀ a, (![0, 334] : Fin 2 → Nat) a + S512x1.size a ≤ S512x351.size a
  inb_S512x351_S512x1_0_335 : ∀ a, (![0, 335] : Fin 2 → Nat) a + S512x1.size a ≤ S512x351.size a
  inb_S512x351_S512x1_0_336 : ∀ a, (![0, 336] : Fin 2 → Nat) a + S512x1.size a ≤ S512x351.size a
  inb_S512x351_S512x1_0_337 : ∀ a, (![0, 337] : Fin 2 → Nat) a + S512x1.size a ≤ S512x351.size a
  inb_S512x351_S512x1_0_338 : ∀ a, (![0, 338] : Fin 2 → Nat) a + S512x1.size a ≤ S512x351.size a
  inb_S512x351_S512x1_0_339 : ∀ a, (![0, 339] : Fin 2 → Nat) a + S512x1.size a ≤ S512x351.size a
  inb_S512x351_S512x1_0_340 : ∀ a, (![0, 340] : Fin 2 → Nat) a + S512x1.size a ≤ S512x351.size a
  inb_S512x351_S512x1_0_341 : ∀ a, (![0, 341] : Fin 2 → Nat) a + S512x1.size a ≤ S512x351.size a
  inb_S512x351_S512x1_0_342 : ∀ a, (![0, 342] : Fin 2 → Nat) a + S512x1.size a ≤ S512x351.size a
  inb_S512x351_S512x1_0_343 : ∀ a, (![0, 343] : Fin 2 → Nat) a + S512x1.size a ≤ S512x351.size a
  inb_S512x351_S512x1_0_344 : ∀ a, (![0, 344] : Fin 2 → Nat) a + S512x1.size a ≤ S512x351.size a
  inb_S512x351_S512x1_0_345 : ∀ a, (![0, 345] : Fin 2 → Nat) a + S512x1.size a ≤ S512x351.size a
  inb_S512x351_S512x1_0_346 : ∀ a, (![0, 346] : Fin 2 → Nat) a + S512x1.size a ≤ S512x351.size a
  inb_S512x351_S512x1_0_347 : ∀ a, (![0, 347] : Fin 2 → Nat) a + S512x1.size a ≤ S512x351.size a
  inb_S512x351_S512x1_0_348 : ∀ a, (![0, 348] : Fin 2 → Nat) a + S512x1.size a ≤ S512x351.size a
  inb_S512x351_S512x1_0_349 : ∀ a, (![0, 349] : Fin 2 → Nat) a + S512x1.size a ≤ S512x351.size a
  inb_S512x351_S512x1_0_350 : ∀ a, (![0, 350] : Fin 2 → Nat) a + S512x1.size a ≤ S512x351.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x26x128.size a ≤ S16384x26x128.size a
  hwx0_1 : ∀ i : grid0.Coords, EltTy.bits .f32 = 32 ∨ (Rect.block (s := S16384x26x128) S512x26x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x351.size a ≤ S16384x351.size a
  hwx0_2 : ∀ i : grid0.Coords, EltTy.bits .f32 = 32 ∨ (Rect.block (s := S16384x351) S512x351.size (cc0_transform_2 i) (hinb0_2 i)).WholeWords (EltTy.packing .f32)

variable [Facts₀]

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x26x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x351.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x26x128 : Shape := ⟨3, ![16384, 26, 128]⟩
abbrev S16384x1x128 : Shape := ⟨3, ![16384, 1, 128]⟩
abbrev S16384x27x128 : Shape := ⟨3, ![16384, 27, 128]⟩
abbrev S16384x27x27 : Shape := ⟨3, ![16384, 27, 27]⟩
abbrev S_ : Shape := ⟨0, ![]⟩
abbrev S27x27 : Shape := ⟨2, ![27, 27]⟩
abbrev S729 : Shape := ⟨1, ![729]⟩
abbrev S351 : Shape := ⟨1, ![351]⟩
abbrev S729x1 : Shape := ⟨2, ![729, 1]⟩
abbrev S351x1 : Shape := ⟨2, ![351, 1]⟩
abbrev S351x2 : Shape := ⟨2, ![351, 2]⟩
abbrev S16384x351 : Shape := ⟨2, ![16384, 351]⟩

abbrev nBuf : Space → Nat
  | .hbm => 140
  | .vmem => 0
  | .smem => 0
  | _ => 0

abbrev hbmTy0_0 (i : Nat) : BufTy := match i % 128 with
  | 0 => ⟨S16384x128, .f32⟩
  | 1 => ⟨S16384x26x128, .f32⟩
  | 2 => ⟨S16384x1x128, .f32⟩
  | 3 => ⟨S16384x27x128, .f32⟩
  | 4 => ⟨S16384x27x27, .f32⟩
  | 5 => ⟨S_, .f32⟩
  | 6 => ⟨S27x27, .f32⟩
  | 7 => ⟨S27x27, .i32⟩
  | 8 => ⟨S_, .i32⟩
  | 9 => ⟨S27x27, .i32⟩
  | 10 => ⟨S27x27, .i32⟩
  | 11 => ⟨S27x27, .i32⟩
  | 12 => ⟨S27x27, .i1⟩
  | 13 => ⟨S_, .f32⟩
  | 14 => ⟨S27x27, .f32⟩
  | 15 => ⟨S27x27, .f32⟩
  | 16 => ⟨S_, .f32⟩
  | 17 => ⟨S27x27, .f32⟩
  | 18 => ⟨S27x27, .i1⟩
  | 19 => ⟨S729, .i1⟩
  | 20 => ⟨S729, .i32⟩
  | 21 => ⟨S_, .i32⟩
  | 22 => ⟨S_, .i32⟩
  | 23 => ⟨S729, .i32⟩
  | 24 => ⟨S_, .i32⟩
  | 25 => ⟨S351, .i32⟩
  | 26 => ⟨S_, .i32⟩
  | 27 => ⟨S_, .i32⟩
  | 28 => ⟨S729, .i32⟩
  | 29 => ⟨S729, .i32⟩
  | 30 => ⟨S_, .i32⟩
  | 31 => ⟨S729, .i32⟩
  | 32 => ⟨S729, .i1⟩
  | 33 => ⟨S_, .i32⟩
  | 34 => ⟨S729, .i32⟩
  | 35 => ⟨S729, .i32⟩
  | 36 => ⟨S729, .i32⟩
  | 37 => ⟨S729x1, .i32⟩
  | 38 => ⟨S_, .i32⟩
  | 39 => ⟨S729, .i32⟩
  | 40 => ⟨S351, .i32⟩
  | 41 => ⟨S_, .i32⟩
  | 42 => ⟨S_, .i32⟩
  | 43 => ⟨S351, .i32⟩
  | 44 => ⟨S_, .i32⟩
  | 45 => ⟨S351, .i32⟩
  | 46 => ⟨S351, .i32⟩
  | 47 => ⟨S351, .i32⟩
  | 48 => ⟨S_, .i32⟩
  | 49 => ⟨S351, .i32⟩
  | 50 => ⟨S351, .i1⟩
  | 51 => ⟨S351, .i32⟩
  | 52 => ⟨S351, .i32⟩
  | 53 => ⟨S_, .i32⟩
  | 54 => ⟨S351, .i32⟩
  | 55 => ⟨S351, .i1⟩
  | 56 => ⟨S351, .i1⟩
  | 57 => ⟨S_, .i32⟩
  | 58 => ⟨S351, .i32⟩
  | 59 => ⟨S351, .i32⟩
  | 60 => ⟨S351, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S351, .i32⟩
  | 68 => ⟨S351, .i32⟩
  | 69 => ⟨S_, .i32⟩
  | 70 => ⟨S351, .i32⟩
  | 71 => ⟨S351, .i1⟩
  | 72 => ⟨S_, .i32⟩
  | 73 => ⟨S351, .i32⟩
  | 74 => ⟨S351, .i1⟩
  | 75 => ⟨S_, .i32⟩
  | 76 => ⟨S_, .i1⟩
  | 77 => ⟨S351, .i1⟩
  | 78 => ⟨S351, .i1⟩
  | 79 => ⟨S351, .i1⟩
  | 80 => ⟨S351, .i32⟩
  | 81 => ⟨S351, .i32⟩
  | 82 => ⟨S351, .i32⟩
  | 83 => ⟨S_, .i32⟩
  | 84 => ⟨S351, .i32⟩
  | 85 => ⟨S351, .i32⟩
  | 86 => ⟨S351, .i32⟩
  | 87 => ⟨S_, .i32⟩
  | 88 => ⟨S351, .i32⟩
  | 89 => ⟨S351, .i1⟩
  | 90 => ⟨S351, .i32⟩
  | 91 => ⟨S351, .i32⟩
  | 92 => ⟨S_, .i32⟩
  | 93 => ⟨S351, .i32⟩
  | 94 => ⟨S351, .i1⟩
  | 95 => ⟨S351, .i1⟩
  | 96 => ⟨S_, .i32⟩
  | 97 => ⟨S351, .i32⟩
  | 98 => ⟨S351, .i32⟩
  | 99 => ⟨S351, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S351, .i32⟩
  | 107 => ⟨S351, .i32⟩
  | 108 => ⟨S_, .i32⟩
  | 109 => ⟨S351, .i32⟩
  | 110 => ⟨S351, .i1⟩
  | 111 => ⟨S_, .i32⟩
  | 112 => ⟨S351, .i32⟩
  | 113 => ⟨S351, .i1⟩
  | 114 => ⟨S_, .i32⟩
  | 115 => ⟨S_, .i1⟩
  | 116 => ⟨S351, .i1⟩
  | 117 => ⟨S351, .i1⟩
  | 118 => ⟨S351, .i1⟩
  | 119 => ⟨S351, .i32⟩
  | 120 => ⟨S351, .i32⟩
  | 121 => ⟨S351, .i32⟩
  | 122 => ⟨S_, .i32⟩
  | 123 => ⟨S351, .i32⟩
  | 124 => ⟨S351, .i1⟩
  | 125 => ⟨S_, .i32⟩
  | 126 => ⟨S351, .i32⟩
  | 127 => ⟨S351, .i32⟩
  | _ => ⟨S16384x128, .f32⟩

abbrev hbmTy0_1 (i : Nat) : BufTy := match i % 128 with
  | 0 => ⟨S351, .i32⟩
  | 1 => ⟨S_, .i32⟩
  | 2 => ⟨S351, .i32⟩
  | 3 => ⟨S351, .i1⟩
  | 4 => ⟨S_, .i32⟩
  | 5 => ⟨S351, .i32⟩
  | 6 => ⟨S351, .i32⟩
  | 7 => ⟨S351, .i32⟩
  | 8 => ⟨S351x1, .i32⟩
  | 9 => ⟨S351x1, .i32⟩
  | 10 => ⟨S351x2, .i32⟩
  | 11 => ⟨S16384x351, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_call0_c : Ref sig .tc := ⟨.hbm, 21, rfl⟩
abbrev main_call1_call0_v0 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_c_1 : Ref sig .tc := ⟨.hbm, 26, rfl⟩
abbrev main_call2_v0 : Ref sig .tc := ⟨.hbm, 27, rfl⟩
abbrev main_call2_v1 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_call3_call0_c : Ref sig .tc := ⟨.hbm, 41, rfl⟩
abbrev main_call3_call0_v0 : Ref sig .tc := ⟨.hbm, 42, rfl⟩
abbrev main_v18 : Ref sig .tc := ⟨.hbm, 43, rfl⟩
abbrev main_c_5 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_v6 : Ref sig .tc := ⟨.hbm, 51, rfl⟩
abbrev main_call4_v7 : Ref sig .tc := ⟨.hbm, 52, rfl⟩
abbrev main_call4_c : Ref sig .tc := ⟨.hbm, 53, rfl⟩
abbrev main_call4_v8 : Ref sig .tc := ⟨.hbm, 54, rfl⟩
abbrev main_call4_v9 : Ref sig .tc := ⟨.hbm, 55, rfl⟩
abbrev main_call4_v10 : Ref sig .tc := ⟨.hbm, 56, rfl⟩
abbrev main_call4_c_0 : Ref sig .tc := ⟨.hbm, 57, rfl⟩
abbrev main_call4_v11 : Ref sig .tc := ⟨.hbm, 58, rfl⟩
abbrev main_call4_v12 : Ref sig .tc := ⟨.hbm, 59, rfl⟩
abbrev main_v19 : Ref sig .tc := ⟨.hbm, 60, rfl⟩
abbrev main_c_6 : Ref sig .tc := ⟨.hbm, 61, rfl⟩
abbrev main_call5_v0 : Ref sig .tc := ⟨.hbm, 62, rfl⟩
abbrev main_call5_c : Ref sig .tc := ⟨.hbm, 63, rfl⟩
abbrev main_call5_v1 : Ref sig .tc := ⟨.hbm, 64, rfl⟩
abbrev main_call5_c_0 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_c_1 : Ref sig .tc := ⟨.hbm, 69, rfl⟩
abbrev main_call5_v5 : Ref sig .tc := ⟨.hbm, 70, rfl⟩
abbrev main_call5_v6 : Ref sig .tc := ⟨.hbm, 71, rfl⟩
abbrev main_call5_c_2 : Ref sig .tc := ⟨.hbm, 72, rfl⟩
abbrev main_call5_v7 : Ref sig .tc := ⟨.hbm, 73, rfl⟩
abbrev main_call5_v8 : Ref sig .tc := ⟨.hbm, 74, rfl⟩
abbrev main_call5_c_3 : Ref sig .tc := ⟨.hbm, 75, rfl⟩
abbrev main_call5_v9 : Ref sig .tc := ⟨.hbm, 76, rfl⟩
abbrev main_call5_v10 : Ref sig .tc := ⟨.hbm, 77, rfl⟩
abbrev main_call5_v11 : Ref sig .tc := ⟨.hbm, 78, rfl⟩
abbrev main_call5_v12 : Ref sig .tc := ⟨.hbm, 79, rfl⟩
abbrev main_call5_v13 : Ref sig .tc := ⟨.hbm, 80, rfl⟩
abbrev main_call5_v14 : Ref sig .tc := ⟨.hbm, 81, rfl⟩
abbrev main_v20 : Ref sig .tc := ⟨.hbm, 82, rfl⟩
abbrev main_c_7 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_v6 : Ref sig .tc := ⟨.hbm, 90, rfl⟩
abbrev main_call6_v7 : Ref sig .tc := ⟨.hbm, 91, rfl⟩
abbrev main_call6_c : Ref sig .tc := ⟨.hbm, 92, rfl⟩
abbrev main_call6_v8 : Ref sig .tc := ⟨.hbm, 93, rfl⟩
abbrev main_call6_v9 : Ref sig .tc := ⟨.hbm, 94, rfl⟩
abbrev main_call6_v10 : Ref sig .tc := ⟨.hbm, 95, rfl⟩
abbrev main_call6_c_0 : Ref sig .tc := ⟨.hbm, 96, rfl⟩
abbrev main_call6_v11 : Ref sig .tc := ⟨.hbm, 97, rfl⟩
abbrev main_call6_v12 : Ref sig .tc := ⟨.hbm, 98, rfl⟩
abbrev main_v21 : Ref sig .tc := ⟨.hbm, 99, rfl⟩
abbrev main_c_8 : Ref sig .tc := ⟨.hbm, 100, rfl⟩
abbrev main_call7_v0 : Ref sig .tc := ⟨.hbm, 101, rfl⟩
abbrev main_call7_c : Ref sig .tc := ⟨.hbm, 102, rfl⟩
abbrev main_call7_v1 : Ref sig .tc := ⟨.hbm, 103, rfl⟩
abbrev main_call7_c_0 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_c_1 : Ref sig .tc := ⟨.hbm, 108, rfl⟩
abbrev main_call7_v5 : Ref sig .tc := ⟨.hbm, 109, rfl⟩
abbrev main_call7_v6 : Ref sig .tc := ⟨.hbm, 110, rfl⟩
abbrev main_call7_c_2 : Ref sig .tc := ⟨.hbm, 111, rfl⟩
abbrev main_call7_v7 : Ref sig .tc := ⟨.hbm, 112, rfl⟩
abbrev main_call7_v8 : Ref sig .tc := ⟨.hbm, 113, rfl⟩
abbrev main_call7_c_3 : Ref sig .tc := ⟨.hbm, 114, rfl⟩
abbrev main_call7_v9 : Ref sig .tc := ⟨.hbm, 115, rfl⟩
abbrev main_call7_v10 : Ref sig .tc := ⟨.hbm, 116, rfl⟩
abbrev main_call7_v11 : Ref sig .tc := ⟨.hbm, 117, rfl⟩
abbrev main_call7_v12 : Ref sig .tc := ⟨.hbm, 118, rfl⟩
abbrev main_call7_v13 : Ref sig .tc := ⟨.hbm, 119, rfl⟩
abbrev main_call7_v14 : Ref sig .tc := ⟨.hbm, 120, rfl⟩
abbrev main_v22 : Ref sig .tc := ⟨.hbm, 121, rfl⟩
abbrev main_c_9 : Ref sig .tc := ⟨.hbm, 122, rfl⟩
abbrev main_v23 : Ref sig .tc := ⟨.hbm, 123, rfl⟩
abbrev main_v24 : Ref sig .tc := ⟨.hbm, 124, rfl⟩
abbrev main_c_10 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_c_11 : Ref sig .tc := ⟨.hbm, 129, rfl⟩
abbrev main_v28 : Ref sig .tc := ⟨.hbm, 130, rfl⟩
abbrev main_v29 : Ref sig .tc := ⟨.hbm, 131, rfl⟩
abbrev main_c_12 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩

abbrev nD : Nat := 1
abbrev τ : Topo := Topo.v7x

variable {F : FTy → Type} [FloatOps F]

class Facts₀ : Prop where
  bcast_S16384x128_S16384x1x128_0_2 : S16384x128.BroadcastsInDim S16384x1x128 (![0, 2] : Fin 2 → Fin S16384x1x128.rank)
  concatenates_S16384x1x128_S16384x26x128_S16384x27x128_d1 : Shape.Concatenates [S16384x1x128, S16384x26x128] S16384x27x128 1
  bcast_S_S27x27 : S_.BroadcastsInDim S27x27 (![] : Fin 0 → Fin S27x27.rank)
  shapeCasts_S27x27_S729 : S27x27.ShapeCasts S729
  natLt_1_32 : 1 < 32
  bcast_S_S_ : S_.BroadcastsInDim S_ (![] : Fin 0 → Fin S_.rank)
  reduceWindows_S729_S729_w729s1p728_0 : S729.ReduceWindows (![729] : Fin 1 → Nat) ![1] ![728] ![0] S729
  h_S_ : 0 < S_.numel
  bcast_S_S351 : S_.BroadcastsInDim S351 (![] : Fin 0 → Fin S351.rank)
  bcast_S_S729 : S_.BroadcastsInDim S729 (![] : Fin 0 → Fin S729.rank)
  bcast_S729_S729x1_0 : S729.BroadcastsInDim S729x1 (![0] : Fin 1 → Fin S729x1.rank)
  reduceWindows_S351_S351_w351s1p350_0 : S351.ReduceWindows (![351] : Fin 1 → Nat) ![1] ![350] ![0] S351
  bcast_S351_S351x1_0 : S351.BroadcastsInDim S351x1 (![0] : Fin 1 → Fin S351x1.rank)
  concatenates_S351x1_S351x1_S351x2_d1 : Shape.Concatenates [S351x1, S351x1] S351x2 1
  dot_S16384x27x128_S16384x27x128_S16384x27x27_2_2_1_1_0_0_wf : DotDims.WF S16384x27x128 S16384x27x128 S16384x27x27 [2] [2] [1] [1] [0] [0]
  scatter_S351_S729x1_S729_n_0_0_1_wf : ScatterDims.WF S351 S729x1 S729 [] [0] [0] 1
  gather_S16384x27x27_S351x2_S16384x351_0_12_n_n_12_1_1638411_wf : GatherDims.WF S16384x27x27 S351x2 S16384x351 [0] [1, 2] [] [1, 2] [] 1 ![16384, 1, 1]

variable [Facts₀]

def dot_S16384x27x128_S16384x27x128_S16384x27x27_2_2_1_1_0_0 : DotDims S16384x27x128 S16384x27x128 S16384x27x27 where
  lhsContracting := [2]
  rhsContracting := [2]
  lhsNonContracting := [1]
  rhsNonContracting := [1]
  lhsBatch := [0]
  rhsBatch := [0]
  wf := dot_S16384x27x128_S16384x27x128_S16384x27x27_2_2_1_1_0_0_wf
def scatter_S351_S729x1_S729_n_0_0_1 : ScatterDims S351 S729x1 S729 where
  updateWindowDims := []
  insertedWindowDims := [0]
  scatterDimsToOperandDims := [0]
  indexVectorDim := 1
  wf := scatter_S351_S729x1_S729_n_0_0_1_wf
def gather_S16384x27x27_S351x2_S16384x351_0_12_n_n_12_1_1638411 : GatherDims S16384x27x27 S351x2 S16384x351 where
  offsetDims := [0]
  collapsedSliceDims := [1, 2]
  operandBatchingDims := []
  startIndicesBatchingDims := []
  startIndexMap := [1, 2]
  indexVectorDim := 1
  sliceSizes := ![16384, 1, 1]
  wf := gather_S16384x27x27_S351x2_S16384x351_0_12_n_n_12_1_1638411_wf

class Facts : Prop extends Facts₀ where

variable [Facts]
-- ==== Proof.Spec.lean ====
/-
  What both programs compute, as one function of the two argument arrays.

  Row `b` carries 27 feature vectors of length 128: feature 0 is the dense row, feature n ≥ 1 is embedding row
  n - 1. The result's column `c` is the dot product of features `pairL c` and `pairR c`, where
  (pairL c, pairR c) is the c-th pair i < j in lexicographic order — which is also the c-th entry, read row by
  row, of the strict upper triangle of a 27 × 27 matrix.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The pairs i < j below 27, in lexicographic order (351 of them). -/
def pairs : List (ℕ × ℕ) :=
  (List.range 27).flatMap fun i => (List.range' (i + 1) (26 - i)).map fun j => (i, j)

/-- The smaller member of the c-th pair. -/
def pairL (c : ℕ) : ℕ := (pairs.getD c (0, 0)).1

/-- The larger member of the c-th pair. -/
def pairR (c : ℕ) : ℕ := (pairs.getD c (0, 0)).2

/-- Feature `n` of row `b` at lane `d`: the dense row for n = 0, embedding row n - 1 otherwise. -/
def feat {B : ℕ} (dense : (⟨2, ![B, 128]⟩ : Shape).Idx → EReal) (embs : (⟨3, ![B, 26, 128]⟩ : Shape).Idx → EReal)
    (b : Fin B) (n : ℕ) (d : Fin 128) : EReal :=
  if n = 0 then dense (ix2 b d) else if h : n - 1 < 26 then embs (ix3 b ⟨n - 1, h⟩ d) else 0

/-- Entry (b, c) of the result: the dot product of the two features of pair c in row b. -/
def dotAt {B : ℕ} (dense : (⟨2, ![B, 128]⟩ : Shape).Idx → EReal) (embs : (⟨3, ![B, 26, 128]⟩ : Shape).Idx → EReal)
    (b : Fin B) (c : Fin 351) : EReal :=
  ∑ d : Fin 128, feat dense embs b (pairL c.val) d * feat dense embs b (pairR c.val) d

/-- The whole result array over `B` rows. -/
def dots {B : ℕ} (dense : (⟨2, ![B, 128]⟩ : Shape).Idx → EReal) (embs : (⟨3, ![B, 26, 128]⟩ : Shape).Idx → EReal) :
    (⟨2, ![B, 351]⟩ : Shape).Idx → EReal :=
  fun y => dotAt dense embs (y 0) (y 1)

theorem dots_apply {B : ℕ} (dense : (⟨2, ![B, 128]⟩ : Shape).Idx → EReal) (embs : (⟨3, ![B, 26, 128]⟩ : Shape).Idx → EReal)
    (b : Fin B) (c : Fin 351) : dots dense embs (ix2 b c) = dotAt dense embs b c := rfl

/-- A block of rows of the arrays has the features of those rows. -/
theorem feat_congr {B B' : ℕ} (dense : (⟨2, ![B, 128]⟩ : Shape).Idx → EReal) (embs : (⟨3, ![B, 26, 128]⟩ : Shape).Idx → EReal)
    (dense' : (⟨2, ![B', 128]⟩ : Shape).Idx → EReal) (embs' : (⟨3, ![B', 26, 128]⟩ : Shape).Idx → EReal)
    (b : Fin B) (b' : Fin B') (hd : ∀ d, dense (ix2 b d) = dense' (ix2 b' d))
    (he : ∀ k d, embs (ix3 b k d) = embs' (ix3 b' k d)) (n : ℕ) (d : Fin 128) :
    feat dense embs b n d = feat dense' embs' b' n d := by
  unfold feat
  split
  · exact hd d
  · split
    · exact he _ d
    · rfl

/-- So the dot products of a block of rows are those rows' dot products. -/
theorem dotAt_congr {B B' : ℕ} (dense : (⟨2, ![B, 128]⟩ : Shape).Idx → EReal) (embs : (⟨3, ![B, 26, 128]⟩ : Shape).Idx → EReal)
    (dense' : (⟨2, ![B', 128]⟩ : Shape).Idx → EReal) (embs' : (⟨3, ![B', 26, 128]⟩ : Shape).Idx → EReal)
    (b : Fin B) (b' : Fin B') (hd : ∀ d, dense (ix2 b d) = dense' (ix2 b' d))
    (he : ∀ k d, embs (ix3 b k d) = embs' (ix3 b' k d)) (c : Fin 351) :
    dotAt dense embs b c = dotAt dense' embs' b' c := by
  unfold dotAt
  refine Finset.sum_congr rfl fun d _ => ?_
  rw [feat_congr dense embs dense' embs' b b' hd he, feat_congr dense embs dense' embs' b b' hd he]

end Cert.Spec

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.KernelBlock.lean ====
/-
  What the body leaves in the output block.

  A block of 512 rows carries, per row, 27 feature vectors of length 128 (the dense row, then the 26 embedding rows).
  The body stores 351 columns: column `c` is the product of two features summed along the lanes, kept as a [512, 1]
  column. Each stored column is the dot-product column of the `c`-th pair i < j, so the block the stores leave —
  they tile it — is the array of dot products, entry by entry.
-/
import proofs.«151987_j39891656245395_2_alg».proof.Proof.KernelIdealFrameP
import proofs.«151987_j39891656245395_2_alg».proof.Proof.Spec
import proofs.«151987_j39891656245395_2_alg».proof.Proof.LibKeepdims
import Idealize.ShloMosaic.Lib.Pipeline.Value
import Idealize.ShloMosaic.Lib.ValueIdx

noncomputable section

namespace Cert.KernelIdeal.Block

open Idealize.ShloMosaic Idealize.ShloMosaic.ValueIdx
open Cert.KernelIdeal Cert.KernelIdeal.Gen

/-- Feature `n` of every row of a block, as one [512, 128] array. -/
def featRow (x0 : Vec Ideal S512x128 .f32) (x1 : Vec Ideal S512x26x128 .f32) (n : ℕ) : FVec Ideal S512x128 .f32 :=
  fun y => Cert.Spec.feat x0 x1 (y 0) n (y 1)

/-- The column a pair of [512, 128] arrays leaves: their product summed along the lanes, kept as a [512, 1] column. -/
def colOf (a b : FVec Ideal S512x128 .f32) : FVec Ideal S512x1 .f32 :=
  shapeCast S512x1 (multiReduction .add [1] S512 (mulf a b) 0x00000000#32 reduces_S512x128_S512 (.inl rfl) rfl)
    shapeCasts_S512_S512x1

/-- Entry `(p, 0)` of that column is the dot product of row `p` of the two arrays. -/
theorem colOf_apply (a b : FVec Ideal S512x128 .f32) (p : Fin 512) (u : Fin 1) :
    colOf a b (ix2 p u) = ∑ d : Fin 128, a (ix2 p d) * b (ix2 p d) := by
  unfold colOf
  rw [Cert.Lib.Keepdims.shapeCast_a_a1_apply]
  exact Cert.Lib.Keepdims.laneSum_apply (mulf a b) _ _ _ _ p

/-- Row `k` of the embeddings of every row of a block, as one [512, 128] array: the [512, 1, 128] slab at offset
    `k` along the middle axis, its unit axis dropped. -/
def sliceOf (k : ℕ) (h : S512x26x128.Slices ![0, k, 0] S512x1x128) (v1 : Vec Ideal S512x26x128 .f32) :
    FVec Ideal S512x128 .f32 :=
  shapeCast S512x128 (extractStridedSlice S512x1x128 ![0, k, 0] v1 h) shapeCasts_S512x1x128_S512x128

theorem sliceOf_apply (k : ℕ) (h : S512x26x128.Slices ![0, k, 0] S512x1x128) (v1 : Vec Ideal S512x26x128 .f32)
    (hk : k < 26) (p : Fin 512) (d : Fin 128) : sliceOf k h v1 (ix2 p d) = v1 (ix3 p ⟨k, hk⟩ d) := by
  unfold sliceOf
  rw [shapeCast_apply _ shapeCasts_S512x1x128_S512x128 (ix2 p d) (ix3 p (0 : Fin 1) d) (by
    rw [Shape.rowMajor_val_three, Shape.rowMajor_val_two]
    show (p.val * 1 + 0) * 128 + d.val = p.val * 128 + d.val
    omega)]
  refine extractStridedSlice_apply _ v1 h _ _ fun a => ?_
  match a with
  | ⟨0, _⟩ => show p.val = 0 + p.val; omega
  | ⟨1, _⟩ => show k = k + 0; omega
  | ⟨2, _⟩ => show d.val = 0 + d.val; omega

theorem hz2 : (![0, 0] : Fin 2 → ℕ) = fun _ => 0 := funext fun a => by fin_cases a <;> rfl
theorem hz3 : (![0, 0, 0] : Fin 3 → ℕ) = fun _ => 0 := funext fun a => by fin_cases a <;> rfl

/-- The dense block, loaded whole, is feature 0 of its rows. -/
theorem dense_eq (x0 : Vec Ideal S512x128 .f32) (x1 : Vec Ideal S512x26x128 .f32)
    (inb : ∀ a, (![0, 0] : Fin 2 → ℕ) a + S512x128.size a ≤ S512x128.size a) :
    View.ld x0 (Rect.unit (s := S512x128) ![0, 0] S512x128.size inb) = featRow x0 x1 0 := by
  rw [View.ld_unit_zero hz2]
  funext y
  unfold featRow Cert.Spec.feat
  rw [if_pos rfl]
  exact congrArg x0 (eq_ix2 y)

/-- Slab `k` of the embeddings block, loaded whole, is feature `k + 1` of its rows. -/
theorem slice_eq (x0 : Vec Ideal S512x128 .f32) (x1 : Vec Ideal S512x26x128 .f32) (k : ℕ)
    (h : S512x26x128.Slices ![0, k, 0] S512x1x128)
    (inb : ∀ a, (![0, 0, 0] : Fin 3 → ℕ) a + S512x26x128.size a ≤ S512x26x128.size a) :
    sliceOf k h (View.ld x1 (Rect.unit (s := S512x26x128) ![0, 0, 0] S512x26x128.size inb)) = featRow x0 x1 (k + 1) := by
  rw [View.ld_unit_zero hz3]
  have hk : k < 26 := by
    have h1 : k + 1 ≤ 26 := h.2 1
    omega
  funext y
  obtain ⟨p, d, rfl⟩ : ∃ (p : Fin 512) (d : Fin 128), y = ix2 p d := ⟨y 0, y 1, eq_ix2 y⟩
  rw [sliceOf_apply k h x1 hk]
  unfold featRow Cert.Spec.feat
  rw [if_neg (Nat.succ_ne_zero k), dif_pos (show k + 1 - 1 < 26 from by omega)]
  rfl

/-- Column `c` of the output block, as a rectangle: its local index `(p, 0)` sits at `(p, c)`. -/
theorem colRect_emb (c : ℕ) (inb : ∀ a, (![0, c] : Fin 2 → ℕ) a + S512x1.size a ≤ S512x351.size a) (hc : c < 351)
    (p : Fin 512) (u : Fin 1) :
    (Rect.unit (s := S512x351) ![0, c] S512x1.size inb).emb (ix2 p u) = ix2 p (⟨c, hc⟩ : Fin 351) := by
  funext a
  apply Fin.ext
  match a with
  | ⟨0, _⟩ => show 0 + 1 * p.val = p.val; omega
  | ⟨1, _⟩ => show c + 1 * u.val = c; have := u.isLt; omega

/-- One store of the body: the column of the pair (i, j)'s two features, stored at column `c` where the `c`-th pair
    is (i, j), is that column of the dot products. -/
theorem col_piece (x0 : Vec Ideal S512x128 .f32) (x1 : Vec Ideal S512x26x128 .f32) (c : ℕ)
    (inb : ∀ a, (![0, c] : Fin 2 → ℕ) a + S512x1.size a ≤ S512x351.size a)
    (a b : FVec Ideal S512x128 .f32) (i j : ℕ) (pay : FVec Ideal S512x1 .f32) (hpay : pay = colOf a b)
    (ha : a = featRow x0 x1 i) (hb : b = featRow x0 x1 j) (hi : Cert.Spec.pairL c = i) (hj : Cert.Spec.pairR c = j) :
    ∀ x : (Rect.unit (s := S512x351) ![0, c] S512x1.size inb).shape.Idx,
      pay x = Cert.Spec.dots x0 x1 ((Rect.unit (s := S512x351) ![0, c] S512x1.size inb).emb x) := by
  intro x
  have hc : c < 351 := by
    have h1 : c + 1 ≤ 351 := inb 1
    omega
  obtain ⟨p, u, rfl⟩ : ∃ (p : Fin 512) (u : Fin 1), x = ix2 p u := ⟨x 0, x 1, eq_ix2 x⟩
  subst hpay ha hb hi hj
  rw [colRect_emb c inb hc, Cert.Spec.dots_apply, colOf_apply]
  rfl

/-- Closes one store's obligation: the stored column is a column of dot products (the two operands are features of the
    rows, the column index names their pair). -/
macro "column_store" x0:ident x1:ident : tactic => `(tactic|
  exact col_piece $x0 $x1 _ (by decide) _ _ _ _ _ rfl
    (by first | exact dense_eq $x0 $x1 _ | exact slice_eq $x0 $x1 _ _ _)
    (by first | exact dense_eq $x0 $x1 _ | exact slice_eq $x0 $x1 _ _ _) (by decide) (by decide))

/-- What the body leaves in the output block is, entry by entry, the dot product of the pair's two feature rows:
    every one of the 351 stored columns is a column of the dot-product array, and the stores cover the block. -/
theorem out_eq (x0 : Vec Ideal Cert.KernelIdeal.S512x128 .f32) (x1 : Vec Ideal Cert.KernelIdeal.S512x26x128 .f32) :
    Cert.KernelIdeal.GenP.out0_2 (F := Ideal) x0 x1 = Cert.Spec.dots x0 x1 := by
  funext y
  unfold Cert.KernelIdeal.GenP.out0_2
  refine View.canon_apply_of_pieces (Val := Elt Ideal) (S := S512x351) (e := .f32) (Cert.Spec.dots x0 x1) _ ?_ y
    (Cert.KernelIdeal.GenP.cover0_2 ..)
  iterate 351 (refine List.forall_mem_cons.2 ⟨by column_store x0 x1, ?_⟩)
  exact fun _ h => absurd h List.not_mem_nil

end Cert.KernelIdeal.Block

end
-- ==== Proof.KernelValue.lean ====
/-
  From the blocks to the whole array.

  Grid point `t` works on rows 512·t … 512·t + 511: its two input blocks are those rows of the argument arrays, and it
  writes back those rows, all 351 columns, of the result. The dot products of a row depend on that row alone, so the
  block a point writes back is a block of the dot-product array of the whole arguments; the 32 blocks cover the
  16384 rows, so that array is what the result ends holding.
-/
import proofs.«151987_j39891656245395_2_alg».proof.Proof.KernelIdealValueP
import proofs.«151987_j39891656245395_2_alg».proof.Proof.KernelBlock
import proofs.«151987_j39891656245395_2_alg».proof.Proof.Spec
import Idealize.ShloMosaic.Lib.Pipeline.Value
import Idealize.ShloMosaic.Lib.ValueIdx

noncomputable section

namespace Cert.KernelIdeal.WholeValue

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 32 grid points: every window's block at point `t` is block `t` along the
    rows and block 0 along every other axis. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The dot products of a block of rows: when `X0`, `X1` are rows 512·t, 512·t + 1, … of `A0`, `A1`, entry `(p, q)` of
    the block's dot products is entry `(512·t + p, q)` of the whole arrays' dot products. -/
theorem dots_rows (X0 : Vec Ideal S512x128 .f32) (X1 : Vec Ideal S512x26x128 .f32)
    (A0 : Vec Ideal S16384x128 .f32) (A1 : Vec Ideal S16384x26x128 .f32) (t : ℕ)
    (h0 : ∀ (p : Fin 512) (r : Fin 16384) (d : Fin 128), r.val = t * 512 + p.val → X0 (ix2 p d) = A0 (ix2 r d))
    (h1 : ∀ (p : Fin 512) (r : Fin 16384) (k : Fin 26) (d : Fin 128), r.val = t * 512 + p.val →
      X1 (ix3 p k d) = A1 (ix3 r k d))
    (j : S512x351.Idx) (i : S16384x351.Idx) (hi0 : (i 0).val = t * 512 + (j 0).val) (hi1 : (i 1).val = (j 1).val) :
    Cert.Spec.dots X0 X1 j = Cert.Spec.dots A0 A1 i := by
  obtain ⟨p, q, rfl⟩ : ∃ (p : Fin 512) (q : Fin 351), j = ix2 p q := ⟨j 0, j 1, eq_ix2 j⟩
  obtain ⟨r, s, rfl⟩ : ∃ (r : Fin 16384) (s : Fin 351), i = ix2 r s := ⟨i 0, i 1, eq_ix2 i⟩
  have hr : r.val = t * 512 + p.val := hi0
  obtain rfl : s = q := Fin.ext hi1
  rw [Cert.Spec.dots_apply, Cert.Spec.dots_apply]
  exact Cert.Spec.dotAt_congr X0 X1 A0 A1 p r (fun d => h0 p r d hr) (fun k d => h1 p r k d hr) s

/-- Input window 0's block at point `t` is rows 512·t … 512·t + 511 of the first argument. -/
theorem iblk0_apply (c : Dev nD) (t : Fin cfg0.N) (p : Fin 512) (r : Fin 16384) (d : Fin 128)
    (hr : r.val = t.val * 512 + p.val) :
    (iblk m c 0 t : Vec Ideal S512x128 .f32) (ix2 p d) = (V m c main_arg0 : Vec Ideal S16384x128 .f32) (ix2 r d) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 128 + 1 * d.val = d.val; rw [e1]; omega

/-- Input window 1's block at point `t` is rows 512·t … 512·t + 511 of the second argument. -/
theorem iblk1_apply (c : Dev nD) (t : Fin cfg0.N) (p : Fin 512) (r : Fin 16384) (k : Fin 26) (d : Fin 128)
    (hr : r.val = t.val * 512 + p.val) :
    (iblk m c 1 t : Vec Ideal S512x26x128 .f32) (ix3 p k d)
      = (V m c main_arg1 : Vec Ideal S16384x26x128 .f32) (ix3 r k d) := by
  obtain ⟨-, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 512 + 1 * p.val = r.val; rw [e0, hr]; omega
  | ⟨1, _⟩ => show win0_1.index t (1 : Fin 3) * 26 + 1 * k.val = k.val; rw [e1]; omega
  | ⟨2, _⟩ => show win0_1.index t (2 : Fin 3) * 128 + 1 * d.val = d.val; rw [e2]; omega

/-- What point `t` writes back is block `t` of the dot products of the whole argument arrays. -/
theorem flushed_eq (c : Dev nD) (t : Fin cfg0.N) :
    (dats m 0 c).flushed 2 t
      = ((cfg0.win 2).blk t).view.read (Elt Ideal) (Cert.Spec.dots (V m c main_arg0) (V m c main_arg1)) := by
  rw [flushed2, Cert.KernelIdeal.Block.out_eq]
  obtain ⟨-, -, -, -, -, e0, e1⟩ := idx_facts t
  funext j
  show Cert.Spec.dots (iblk m c 0 t) (iblk m c 1 t) j
    = Cert.Spec.dots (V m c main_arg0) (V m c main_arg1) (((cfg0.win 2).blk t).view.emb j)
  refine dots_rows _ _ _ _ t.val (fun p r d hr => iblk0_apply m c t p r d hr)
    (fun p r k d hr => iblk1_apply m c t p r k d hr) j _ ?_ ?_
  · show win0_2.index t (0 : Fin 2) * 512 + 1 * (j 0).val = t.val * 512 + (j 0).val; rw [e0]; omega
  · show win0_2.index t (1 : Fin 2) * 351 + 1 * (j 1).val = (j 1).val; rw [e1]; omega

/-- An index of the result is in point `t`'s block iff each coordinate is in the block's range on its axis. -/
theorem mem_blk (t : Fin cfg0.N) (i : S16384x351.Idx) :
    i ∈ ((cfg0.win 2).blk t).view.set ↔ ∀ a : Fin 2, win0_2.index t a * S512x351.size a ≤ (i a).val
      ∧ (i a).val < win0_2.index t a * S512x351.size a + S512x351.size a := by
  show i ∈ ((View.whole main_v0).slice (win0_2.rect t)).set ↔ _
  rw [View.set_slice_whole, Rect.mem_set_unit]
  exact Iff.rfl

/-- Row `r` of the result is written back by point `r / 512`: the 32 blocks cover the array. -/
theorem cover (i : S16384x351.Idx) :
    ∃ t : Fin cfg0.N, (cfg0.win 2).flush t = true ∧ i ∈ ((cfg0.win 2).blk t).view.set := by
  have hi0 : (i 0).val < 16384 := (i 0).isLt
  have hi1 : (i 1).val < 351 := (i 1).isLt
  obtain ⟨t, ht⟩ : ∃ t : Fin cfg0.N, t.val = (i 0).val / 512 :=
    ⟨⟨(i 0).val / 512, by rw [show cfg0.N = 32 from N_0]; omega⟩, rfl⟩
  obtain ⟨-, -, -, -, -, e0, e1⟩ := idx_facts t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    rw [e0, ht]; omega
  | ⟨1, _⟩ =>
    show win0_2.index t (1 : Fin 2) * 351 ≤ (i 1).val ∧ (i 1).val < win0_2.index t (1 : Fin 2) * 351 + 351
    rw [e1]; omega

/-- The result array after the run: the dot products of the argument arrays, entry by entry. -/
theorem final2 (c : Dev nD) :
    (dats m 0 c).arrAt 2 cfg0.N = Cert.Spec.dots (V m c main_arg0) (V m c main_arg1) :=
  (dats m 0 c).arrAt_eq_of_cover 2 _ (fun t _ => flushed_eq m c t) cover

/-- The run, read: the result array at the dot products of the arguments, the arguments unchanged. -/
theorem run : θ_run defs (onTc (τ := τ) (main (F := Ideal))) ⟨m, fun _ => 0, ρ⟩ fun r => ∀ c : Dev nD,
      r.2.mem ((c : Thread nD τ).loc main_v0)
        = Cert.Spec.dots (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.KernelIdeal.WholeValue

end
-- ==== Proof.RefLine.lean ====
/-
  The reference's @main as one straight line of host operations, and its run.

  jax outlines the helpers of the reference (the triangular mask, the two running sums, the clip, the floor
  division, the remainder, the selects) as private functions; a call executes the callee's operations on the
  call's own buffers, so @main is the list of its own operations with each callee's operations in place of the call
  — 138 operations in all. Every weakly fair execution of that line terminates, and each buffer ends at the fold of
  the operations over the launch contents.
-/
import proofs.«151987_j39891656245395_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The dense row, as a block of one row per batch row, set on top of the 26 embedding rows: 27 feature rows. -/
def stackRows (a : FVec F S16384x1x128 .f32) (b : FVec F S16384x26x128 .f32) : FVec F S16384x27x128 .f32 :=
  concatenate S16384x27x128 1 [⟨S16384x1x128, a⟩, ⟨S16384x26x128, b⟩] concatenates_S16384x1x128_S16384x26x128_S16384x27x128_d1

/-- Two index columns side by side: the table of index pairs. -/
def joinColumns (a b : IVec S351x1 32) : IVec S351x2 32 :=
  concatenate S351x2 1 [⟨S351x1, a⟩, ⟨S351x1, b⟩] concatenates_S351x1_S351x1_S351x2_d1

/-- @main's operations in order, the callees' operations at their calls. -/
abbrev ops : List (HloOp τ sig (Elt F)) :=
  [
    unary main_arg0 main_v0 (broadcastInDim S16384x1x128 ![0, 2] bcast_S16384x128_S16384x1x128_0_2 : (⟨S16384x128, .f32⟩ : BufTy).Contents (Elt F) → (⟨S16384x1x128, .f32⟩ : BufTy).Contents (Elt F)),
    binary main_v0 main_arg1 main_v1 (stackRows (F := F)),
    binary main_v1 main_v1 main_v2 ((fun l r => Host.dotGeneral dot_S16384x27x128_S16384x27x128_S16384x27x27_2_2_1_1_0_0 none l r) : (⟨S16384x27x128, .f32⟩ : BufTy).Contents (Elt F) → (⟨S16384x27x128, .f32⟩ : BufTy).Contents (Elt F) → (⟨S16384x27x27, .f32⟩ : BufTy).Contents (Elt F)),
    nullary main_cst (constant S_ .f32 0x3F800000#32),
    unary main_cst main_v3 (broadcastInDim S27x27 ![] bcast_S_S27x27 : (⟨S_, .f32⟩ : BufTy).Contents (Elt F) → (⟨S27x27, .f32⟩ : BufTy).Contents (Elt F)),
    TRef.nullary main_call0.v0 (iotaInDim S27x27 32 0),
    TRef.nullary main_call0.c (constantI S_ 32 0#32),
    TRef.unary main_call0.c main_call0.v1 (broadcastInDim S27x27 ![] bcast_S_S27x27),
    TRef.binary main_call0.v0 main_call0.v1 main_call0.v2 addi,
    TRef.nullary main_call0.v3 (iotaInDim S27x27 32 1),
    TRef.binary main_call0.v2 main_call0.v3 main_call0.v4 (cmpi .sge),
    TRef.nullary main_call0.cst (constant S_ .f32 0x00000000#32),
    TRef.unary main_call0.cst main_call0.v5 (broadcastInDim S27x27 ![] bcast_S_S27x27),
    TRef.ternary main_call0.v4 main_call0.v5 (.of main_v3 : TRef sig ⟨S27x27, .f32⟩) main_call0.v6 select,
    nullary main_cst_0 (constant S_ .f32 0x00000000#32),
    unary main_cst_0 main_v5 (broadcastInDim S27x27 ![] bcast_S_S27x27 : (⟨S_, .f32⟩ : BufTy).Contents (Elt F) → (⟨S27x27, .f32⟩ : BufTy).Contents (Elt F)),
    binary main_v4 main_v5 main_v6 (cmpf .une : (⟨S27x27, .f32⟩ : BufTy).Contents (Elt F) → (⟨S27x27, .f32⟩ : BufTy).Contents (Elt F) → (⟨S27x27, .i1⟩ : BufTy).Contents (Elt F)),
    TRef.reshape (.of main_v6 : TRef sig ⟨S27x27, .i1⟩) main_call1.v0 rfl shapeCasts_S27x27_S729,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![729] ![1] ![728] ![0] x v reduceWindows_S729_S729_w729s1p728_0 h_S_),
    nullary main_c (constantI S_ 32 0#32),
    unary main_c main_v8 (broadcastInDim S351 ![] bcast_S_S351 : (⟨S_, .i32⟩ : BufTy).Contents (Elt F) → (⟨S351, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S729 ![] bcast_S_S729),
    TRef.binary main_call2.v1 (.of main_v7 : TRef sig ⟨S729, .i32⟩) main_call2.v2 maxsi,
    nullary main_c_2 (constantI S_ 32 0#32),
    unary main_c_2 main_v10 (broadcastInDim S729 ![] bcast_S_S729 : (⟨S_, .i32⟩ : BufTy).Contents (Elt F) → (⟨S729, .i32⟩ : BufTy).Contents (Elt F)),
    binary main_v9 main_v10 main_v11 (cmpi .slt : (⟨S729, .i32⟩ : BufTy).Contents (Elt F) → (⟨S729, .i32⟩ : BufTy).Contents (Elt F) → (⟨S729, .i1⟩ : BufTy).Contents (Elt F)),
    nullary main_c_3 (constantI S_ 32 351#32),
    unary main_c_3 main_v12 (broadcastInDim S729 ![] bcast_S_S729 : (⟨S_, .i32⟩ : BufTy).Contents (Elt F) → (⟨S729, .i32⟩ : BufTy).Contents (Elt F)),
    binary main_v9 main_v12 main_v13 (addi : (⟨S729, .i32⟩ : BufTy).Contents (Elt F) → (⟨S729, .i32⟩ : BufTy).Contents (Elt F) → (⟨S729, .i32⟩ : BufTy).Contents (Elt F)),
    ternary main_v11 main_v13 main_v9 main_v14 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    unary main_v14 main_v15 (broadcastInDim S729x1 ![0] bcast_S729_S729x1_0 : (⟨S729, .i32⟩ : BufTy).Contents (Elt F) → (⟨S729x1, .i32⟩ : BufTy).Contents (Elt F)),
    nullary main_c_4 (constantI S_ 32 1#32),
    unary main_c_4 main_v16 (broadcastInDim S729 ![] bcast_S_S729 : (⟨S_, .i32⟩ : BufTy).Contents (Elt F) → (⟨S729, .i32⟩ : BufTy).Contents (Elt F)),
    ternary main_v8 main_v15 main_v16 main_v17 ((fun x i u => Host.scatter scatter_S351_S729x1_S729_n_0_0_1 IntOp.addi x i u) : (⟨S351, .i32⟩ : BufTy).Contents (Elt F) → (⟨S729x1, .i32⟩ : BufTy).Contents (Elt F) → (⟨S729, .i32⟩ : BufTy).Contents (Elt F) → (⟨S351, .i32⟩ : BufTy).Contents (Elt F)),
    TRef.nullary main_call3.call0.c (constantI S_ 32 0#32),
    TRef.unary main_call3.call0.c main_call3.call0.v0 (broadcastInDim S_ ![] bcast_S_S_),
    TRef.binary (.of main_v17 : TRef sig ⟨S351, .i32⟩) main_call3.call0.v0 main_call3.call0.v1 (fun x v => Host.reduceWindow IntOp.addi ![351] ![1] ![350] ![0] x v reduceWindows_S351_S351_w351s1p350_0 h_S_),
    nullary main_c_5 (constantI S_ 32 27#32),
    TRef.unary (.of main_c_5 : TRef sig ⟨S_, .i32⟩) main_call4.v0 (broadcastInDim S351 ![] bcast_S_S351),
    TRef.binary (.of main_v18 : TRef sig ⟨S351, .i32⟩) main_call4.v0 main_call4.v1 Host.divsi,
    TRef.unary (.of main_v18 : TRef sig ⟨S351, .i32⟩) main_call4.v2 signi,
    TRef.unary (.of main_c_5 : TRef sig ⟨S_, .i32⟩) main_call4.v3 signi,
    TRef.unary main_call4.v3 main_call4.v4 (broadcastInDim S351 ![] bcast_S_S351),
    TRef.binary main_call4.v2 main_call4.v4 main_call4.v5 (cmpi .ne),
    TRef.unary (.of main_c_5 : TRef sig ⟨S_, .i32⟩) main_call4.v6 (broadcastInDim S351 ![] bcast_S_S351),
    TRef.binary (.of main_v18 : TRef sig ⟨S351, .i32⟩) main_call4.v6 main_call4.v7 Host.remsi,
    TRef.nullary main_call4.c (constantI S_ 32 0#32),
    TRef.unary main_call4.c main_call4.v8 (broadcastInDim S351 ![] bcast_S_S351),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S351 ![] bcast_S_S351),
    TRef.binary main_call4.v1 main_call4.v11 main_call4.v12 subi,
    TRef.ternary main_call4.v10 main_call4.v12 main_call4.v1 main_call4.call0.v0 select,
    nullary main_c_6 (constantI S_ 32 27#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S351 ![] bcast_S_S351),
    TRef.binary (.of main_v19 : TRef sig ⟨S351, .i32⟩) main_call5.v3 main_call5.v4 Host.remsi,
    TRef.nullary main_call5.c_1 (constantI S_ 32 0#32),
    TRef.unary main_call5.c_1 main_call5.v5 (broadcastInDim S351 ![] bcast_S_S351),
    TRef.binary main_call5.v4 main_call5.v5 main_call5.v6 (cmpi .ne),
    TRef.nullary main_call5.c_2 (constantI S_ 32 0#32),
    TRef.unary main_call5.c_2 main_call5.v7 (broadcastInDim S351 ![] bcast_S_S351),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S351 ![] bcast_S_S351),
    TRef.binary main_call5.v8 main_call5.v10 main_call5.v11 (cmpi .ne),
    TRef.binary main_call5.v11 main_call5.v6 main_call5.v12 andi,
    TRef.unary main_call5.call0.v0 main_call5.v13 (broadcastInDim S351 ![] bcast_S_S351),
    TRef.binary main_call5.v4 main_call5.v13 main_call5.v14 addi,
    TRef.ternary main_call5.v12 main_call5.v14 main_call5.v4 main_call5.v15 select,
    nullary main_c_7 (constantI S_ 32 1#32),
    TRef.unary (.of main_c_7 : TRef sig ⟨S_, .i32⟩) main_call6.v0 (broadcastInDim S351 ![] bcast_S_S351),
    TRef.binary (.of main_v18 : TRef sig ⟨S351, .i32⟩) main_call6.v0 main_call6.v1 Host.divsi,
    TRef.unary (.of main_v18 : TRef sig ⟨S351, .i32⟩) main_call6.v2 signi,
    TRef.unary (.of main_c_7 : TRef sig ⟨S_, .i32⟩) main_call6.v3 signi,
    TRef.unary main_call6.v3 main_call6.v4 (broadcastInDim S351 ![] bcast_S_S351),
    TRef.binary main_call6.v2 main_call6.v4 main_call6.v5 (cmpi .ne),
    TRef.unary (.of main_c_7 : TRef sig ⟨S_, .i32⟩) main_call6.v6 (broadcastInDim S351 ![] bcast_S_S351),
    TRef.binary (.of main_v18 : TRef sig ⟨S351, .i32⟩) main_call6.v6 main_call6.v7 Host.remsi,
    TRef.nullary main_call6.c (constantI S_ 32 0#32),
    TRef.unary main_call6.c main_call6.v8 (broadcastInDim S351 ![] bcast_S_S351),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S351 ![] bcast_S_S351),
    TRef.binary main_call6.v1 main_call6.v11 main_call6.v12 subi,
    TRef.ternary main_call6.v10 main_call6.v12 main_call6.v1 main_call6.call0.v0 select,
    nullary main_c_8 (constantI S_ 32 27#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S351 ![] bcast_S_S351),
    TRef.binary (.of main_v21 : TRef sig ⟨S351, .i32⟩) main_call7.v3 main_call7.v4 Host.remsi,
    TRef.nullary main_call7.c_1 (constantI S_ 32 0#32),
    TRef.unary main_call7.c_1 main_call7.v5 (broadcastInDim S351 ![] bcast_S_S351),
    TRef.binary main_call7.v4 main_call7.v5 main_call7.v6 (cmpi .ne),
    TRef.nullary main_call7.c_2 (constantI S_ 32 0#32),
    TRef.unary main_call7.c_2 main_call7.v7 (broadcastInDim S351 ![] bcast_S_S351),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S351 ![] bcast_S_S351),
    TRef.binary main_call7.v8 main_call7.v10 main_call7.v11 (cmpi .ne),
    TRef.binary main_call7.v11 main_call7.v6 main_call7.v12 andi,
    TRef.unary main_call7.call0.v0 main_call7.v13 (broadcastInDim S351 ![] bcast_S_S351),
    TRef.binary main_call7.v4 main_call7.v13 main_call7.v14 addi,
    TRef.ternary main_call7.v12 main_call7.v14 main_call7.v4 main_call7.v15 select,
    nullary main_c_9 (constantI S_ 32 0#32),
    unary main_c_9 main_v23 (broadcastInDim S351 ![] bcast_S_S351 : (⟨S_, .i32⟩ : BufTy).Contents (Elt F) → (⟨S351, .i32⟩ : BufTy).Contents (Elt F)),
    binary main_v20 main_v23 main_v24 (cmpi .slt : (⟨S351, .i32⟩ : BufTy).Contents (Elt F) → (⟨S351, .i32⟩ : BufTy).Contents (Elt F) → (⟨S351, .i1⟩ : BufTy).Contents (Elt F)),
    nullary main_c_10 (constantI S_ 32 27#32),
    unary main_c_10 main_v25 (broadcastInDim S351 ![] bcast_S_S351 : (⟨S_, .i32⟩ : BufTy).Contents (Elt F) → (⟨S351, .i32⟩ : BufTy).Contents (Elt F)),
    binary main_v20 main_v25 main_v26 (addi : (⟨S351, .i32⟩ : BufTy).Contents (Elt F) → (⟨S351, .i32⟩ : BufTy).Contents (Elt F) → (⟨S351, .i32⟩ : BufTy).Contents (Elt F)),
    ternary main_v24 main_v26 main_v20 main_v27 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_11 (constantI S_ 32 0#32),
    unary main_c_11 main_v28 (broadcastInDim S351 ![] bcast_S_S351 : (⟨S_, .i32⟩ : BufTy).Contents (Elt F) → (⟨S351, .i32⟩ : BufTy).Contents (Elt F)),
    binary main_v22 main_v28 main_v29 (cmpi .slt : (⟨S351, .i32⟩ : BufTy).Contents (Elt F) → (⟨S351, .i32⟩ : BufTy).Contents (Elt F) → (⟨S351, .i1⟩ : BufTy).Contents (Elt F)),
    nullary main_c_12 (constantI S_ 32 27#32),
    unary main_c_12 main_v30 (broadcastInDim S351 ![] bcast_S_S351 : (⟨S_, .i32⟩ : BufTy).Contents (Elt F) → (⟨S351, .i32⟩ : BufTy).Contents (Elt F)),
    binary main_v22 main_v30 main_v31 (addi : (⟨S351, .i32⟩ : BufTy).Contents (Elt F) → (⟨S351, .i32⟩ : BufTy).Contents (Elt F) → (⟨S351, .i32⟩ : BufTy).Contents (Elt F)),
    ternary main_v29 main_v31 main_v22 main_v32 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    unary main_v27 main_v33 (broadcastInDim S351x1 ![0] bcast_S351_S351x1_0 : (⟨S351, .i32⟩ : BufTy).Contents (Elt F) → (⟨S351x1, .i32⟩ : BufTy).Contents (Elt F)),
    unary main_v32 main_v34 (broadcastInDim S351x1 ![0] bcast_S351_S351x1_0 : (⟨S351, .i32⟩ : BufTy).Contents (Elt F) → (⟨S351x1, .i32⟩ : BufTy).Contents (Elt F)),
    binary main_v33 main_v34 main_v35 joinColumns,
    binary main_v2 main_v35 main_v36 ((fun x i => Host.gather gather_S16384x27x27_S351x2_S16384x351_0_12_n_n_12_1_1638411 x i) : (⟨S16384x27x27, .f32⟩ : BufTy).Contents (Elt F) → (⟨S351x2, .i32⟩ : BufTy).Contents (Elt F) → (⟨S16384x351, .f32⟩ : BufTy).Contents (Elt F)) ]

set_option maxRecDepth 8192 in
/-- @main is that line: the callees unfolded at their calls and the sequencing reassociated. -/
theorem main_eq (c : Dev nD) : main (F := F) c = seq ops := by
  simp only [main, fn_triu.body, fn_cumsum_0.body, fn_cumsum.body, fn_clip.body, fn_cumsum_2.body, fn_cumsum_1.body, fn_where.body, fn_floor_divide.body, fn_where_3.body, fn_remainder.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., binary_bufs_sub .., binary_bufs_sub .., nullary_bufs_sub .., unary_bufs_sub .., nullary_bufs_sub ..,
    nullary_bufs_sub .., unary_bufs_sub .., binary_bufs_sub .., nullary_bufs_sub .., binary_bufs_sub .., nullary_bufs_sub ..,
    unary_bufs_sub .., ternary_bufs_sub .., nullary_bufs_sub .., unary_bufs_sub .., binary_bufs_sub .., reshape_bufs_sub ..,
    unary_bufs_sub .., nullary_bufs_sub .., unary_bufs_sub .., binary_bufs_sub .., nullary_bufs_sub .., unary_bufs_sub ..,
    nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..⟩

/-- From any memory with zero counters every weakly fair execution of @main terminates, each buffer at the fold of
    the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.RefStageDefs.lean ====
/-
  The value each buffer of the reference holds after @main's line, as a pure term of the two argument arrays: one
  definition per operation, the operation applied to its operands' definitions.
-/
import proofs.«151987_j39891656245395_2_alg».proof.Proof.RefLine
import Idealize.ShloMosaic.PureOps.Ideal

noncomputable section

namespace Cert.ReferenceIdeal.Stages

open Cert.ReferenceIdeal Cert.ReferenceIdeal.Gen Cert.ReferenceIdeal.Line Idealize.ShloMosaic Idealize.ShloMosaic.TcCoe Idealize.SL.Sem Idealize.ShloMosaic.StableHlo

def s_main_v0 (x0 : FVec Ideal S16384x128 .f32) : FVec Ideal S16384x1x128 .f32 :=
  (broadcastInDim S16384x1x128 ![0, 2] bcast_S16384x128_S16384x1x128_0_2) x0
def s_main_v1 (x0 : FVec Ideal S16384x128 .f32) (x1 : FVec Ideal S16384x26x128 .f32) : FVec Ideal S16384x27x128 .f32 :=
  stackRows (F := Ideal) (s_main_v0 x0) x1
def s_main_v2 (x0 : FVec Ideal S16384x128 .f32) (x1 : FVec Ideal S16384x26x128 .f32) : FVec Ideal S16384x27x27 .f32 :=
  ((fun l r => Host.dotGeneral (F := Ideal) dot_S16384x27x128_S16384x27x128_S16384x27x27_2_2_1_1_0_0 none l r)) (s_main_v1 x0 x1) (s_main_v1 x0 x1)
def s_main_cst : FVec Ideal S_ .f32 :=
  constant (F := Ideal) S_ .f32 0x3F800000#32
def s_main_v3 : FVec Ideal S27x27 .f32 :=
  (broadcastInDim S27x27 ![] bcast_S_S27x27) s_main_cst
def s_main_call0_v0 : IVec S27x27 32 :=
  iotaInDim S27x27 32 0
def s_main_call0_c : IVec S_ 32 :=
  constantI S_ 32 0#32
def s_main_call0_v1 : IVec S27x27 32 :=
  (broadcastInDim S27x27 ![] bcast_S_S27x27) s_main_call0_c
def s_main_call0_v2 : IVec S27x27 32 :=
  addi s_main_call0_v0 s_main_call0_v1
def s_main_call0_v3 : IVec S27x27 32 :=
  iotaInDim S27x27 32 1
def s_main_call0_v4 : IVec S27x27 1 :=
  (cmpi .sge) s_main_call0_v2 s_main_call0_v3
def s_main_call0_cst : FVec Ideal S_ .f32 :=
  constant (F := Ideal) S_ .f32 0x00000000#32
def s_main_call0_v5 : FVec Ideal S27x27 .f32 :=
  (broadcastInDim S27x27 ![] bcast_S_S27x27) s_main_call0_cst
def s_main_v4 : FVec Ideal S27x27 .f32 :=
  select s_main_call0_v4 s_main_call0_v5 s_main_v3
def s_main_cst_0 : FVec Ideal S_ .f32 :=
  constant (F := Ideal) S_ .f32 0x00000000#32
def s_main_v5 : FVec Ideal S27x27 .f32 :=
  (broadcastInDim S27x27 ![] bcast_S_S27x27) s_main_cst_0
def s_main_v6 : IVec S27x27 1 :=
  (cmpf (F := Ideal) .une) s_main_v4 s_main_v5
def s_main_call1_v0 : IVec S729 1 :=
  shapeCast S729 s_main_v6 shapeCasts_S27x27_S729
def s_main_call1_v1 : IVec S729 32 :=
  (extui 32 · natLt_1_32) s_main_call1_v0
def s_main_call1_call0_c : IVec S_ 32 :=
  constantI S_ 32 0#32
def s_main_call1_call0_v0 : IVec S_ 32 :=
  (broadcastInDim S_ ![] bcast_S_S_) s_main_call1_call0_c
def s_main_v7 : IVec S729 32 :=
  (fun x v => Host.reduceWindow IntOp.addi ![729] ![1] ![728] ![0] x v reduceWindows_S729_S729_w729s1p728_0 h_S_) s_main_call1_v1 s_main_call1_call0_v0
def s_main_c : IVec S_ 32 :=
  constantI S_ 32 0#32
def s_main_v8 : IVec S351 32 :=
  (broadcastInDim S351 ![] bcast_S_S351) s_main_c
def s_main_c_1 : IVec S_ 32 :=
  constantI S_ 32 0#32
def s_main_call2_v0 : IVec S_ 32 :=
  id s_main_c_1
def s_main_call2_v1 : IVec S729 32 :=
  (broadcastInDim S729 ![] bcast_S_S729) s_main_call2_v0
def s_main_v9 : IVec S729 32 :=
  maxsi s_main_call2_v1 s_main_v7
def s_main_c_2 : IVec S_ 32 :=
  constantI S_ 32 0#32
def s_main_v10 : IVec S729 32 :=
  (broadcastInDim S729 ![] bcast_S_S729) s_main_c_2
def s_main_v11 : IVec S729 1 :=
  (cmpi .slt) s_main_v9 s_main_v10
def s_main_c_3 : IVec S_ 32 :=
  constantI S_ 32 351#32
def s_main_v12 : IVec S729 32 :=
  (broadcastInDim S729 ![] bcast_S_S729) s_main_c_3
def s_main_v13 : IVec S729 32 :=
  (addi) s_main_v9 s_main_v12
def s_main_v14 : IVec S729 32 :=
  (select) s_main_v11 s_main_v13 s_main_v9
def s_main_v15 : IVec S729x1 32 :=
  (broadcastInDim S729x1 ![0] bcast_S729_S729x1_0) s_main_v14
def s_main_c_4 : IVec S_ 32 :=
  constantI S_ 32 1#32
def s_main_v16 : IVec S729 32 :=
  (broadcastInDim S729 ![] bcast_S_S729) s_main_c_4
def s_main_v17 : IVec S351 32 :=
  ((fun x i u => Host.scatter scatter_S351_S729x1_S729_n_0_0_1 IntOp.addi x i u)) s_main_v8 s_main_v15 s_main_v16
def s_main_call3_call0_c : IVec S_ 32 :=
  constantI S_ 32 0#32
def s_main_call3_call0_v0 : IVec S_ 32 :=
  (broadcastInDim S_ ![] bcast_S_S_) s_main_call3_call0_c
def s_main_v18 : IVec S351 32 :=
  (fun x v => Host.reduceWindow IntOp.addi ![351] ![1] ![350] ![0] x v reduceWindows_S351_S351_w351s1p350_0 h_S_) s_main_v17 s_main_call3_call0_v0
def s_main_c_5 : IVec S_ 32 :=
  constantI S_ 32 27#32
def s_main_call4_v0 : IVec S351 32 :=
  (broadcastInDim S351 ![] bcast_S_S351) s_main_c_5
def s_main_call4_v1 : IVec S351 32 :=
  Host.divsi s_main_v18 s_main_call4_v0
def s_main_call4_v2 : IVec S351 32 :=
  signi s_main_v18
def s_main_call4_v3 : IVec S_ 32 :=
  signi s_main_c_5
def s_main_call4_v4 : IVec S351 32 :=
  (broadcastInDim S351 ![] bcast_S_S351) s_main_call4_v3
def s_main_call4_v5 : IVec S351 1 :=
  (cmpi .ne) s_main_call4_v2 s_main_call4_v4
def s_main_call4_v6 : IVec S351 32 :=
  (broadcastInDim S351 ![] bcast_S_S351) s_main_c_5
def s_main_call4_v7 : IVec S351 32 :=
  Host.remsi s_main_v18 s_main_call4_v6
def s_main_call4_c : IVec S_ 32 :=
  constantI S_ 32 0#32
def s_main_call4_v8 : IVec S351 32 :=
  (broadcastInDim S351 ![] bcast_S_S351) s_main_call4_c
def s_main_call4_v9 : IVec S351 1 :=
  (cmpi .ne) s_main_call4_v7 s_main_call4_v8
def s_main_call4_v10 : IVec S351 1 :=
  andi s_main_call4_v5 s_main_call4_v9
def s_main_call4_c_0 : IVec S_ 32 :=
  constantI S_ 32 1#32
def s_main_call4_v11 : IVec S351 32 :=
  (broadcastInDim S351 ![] bcast_S_S351) s_main_call4_c_0
def s_main_call4_v12 : IVec S351 32 :=
  subi s_main_call4_v1 s_main_call4_v11
def s_main_v19 : IVec S351 32 :=
  select s_main_call4_v10 s_main_call4_v12 s_main_call4_v1
def s_main_c_6 : IVec S_ 32 :=
  constantI S_ 32 27#32
def s_main_call5_v0 : IVec S_ 32 :=
  id s_main_c_6
def s_main_call5_c : IVec S_ 32 :=
  constantI S_ 32 0#32
def s_main_call5_v1 : IVec S_ 1 :=
  (cmpi .eq) s_main_call5_v0 s_main_call5_c
def s_main_call5_c_0 : IVec S_ 32 :=
  constantI S_ 32 1#32
def s_main_call5_v2 : IVec S_ 32 :=
  select s_main_call5_v1 s_main_call5_c_0 s_main_call5_v0
def s_main_call5_v3 : IVec S351 32 :=
  (broadcastInDim S351 ![] bcast_S_S351) s_main_call5_v2
def s_main_call5_v4 : IVec S351 32 :=
  Host.remsi s_main_v19 s_main_call5_v3
def s_main_call5_c_1 : IVec S_ 32 :=
  constantI S_ 32 0#32
def s_main_call5_v5 : IVec S351 32 :=
  (broadcastInDim S351 ![] bcast_S_S351) s_main_call5_c_1
def s_main_call5_v6 : IVec S351 1 :=
  (cmpi .ne) s_main_call5_v4 s_main_call5_v5
def s_main_call5_c_2 : IVec S_ 32 :=
  constantI S_ 32 0#32
def s_main_call5_v7 : IVec S351 32 :=
  (broadcastInDim S351 ![] bcast_S_S351) s_main_call5_c_2
def s_main_call5_v8 : IVec S351 1 :=
  (cmpi .slt) s_main_call5_v4 s_main_call5_v7
def s_main_call5_c_3 : IVec S_ 32 :=
  constantI S_ 32 0#32
def s_main_call5_v9 : IVec S_ 1 :=
  (cmpi .slt) s_main_call5_v2 s_main_call5_c_3
def s_main_call5_v10 : IVec S351 1 :=
  (broadcastInDim S351 ![] bcast_S_S351) s_main_call5_v9
def s_main_call5_v11 : IVec S351 1 :=
  (cmpi .ne) s_main_call5_v8 s_main_call5_v10
def s_main_call5_v12 : IVec S351 1 :=
  andi s_main_call5_v11 s_main_call5_v6
def s_main_call5_v13 : IVec S351 32 :=
  (broadcastInDim S351 ![] bcast_S_S351) s_main_call5_v2
def s_main_call5_v14 : IVec S351 32 :=
  addi s_main_call5_v4 s_main_call5_v13
def s_main_v20 : IVec S351 32 :=
  select s_main_call5_v12 s_main_call5_v14 s_main_call5_v4
def s_main_c_7 : IVec S_ 32 :=
  constantI S_ 32 1#32
def s_main_call6_v0 : IVec S351 32 :=
  (broadcastInDim S351 ![] bcast_S_S351) s_main_c_7
def s_main_call6_v1 : IVec S351 32 :=
  Host.divsi s_main_v18 s_main_call6_v0
def s_main_call6_v2 : IVec S351 32 :=
  signi s_main_v18
def s_main_call6_v3 : IVec S_ 32 :=
  signi s_main_c_7
def s_main_call6_v4 : IVec S351 32 :=
  (broadcastInDim S351 ![] bcast_S_S351) s_main_call6_v3
def s_main_call6_v5 : IVec S351 1 :=
  (cmpi .ne) s_main_call6_v2 s_main_call6_v4
def s_main_call6_v6 : IVec S351 32 :=
  (broadcastInDim S351 ![] bcast_S_S351) s_main_c_7
def s_main_call6_v7 : IVec S351 32 :=
  Host.remsi s_main_v18 s_main_call6_v6
def s_main_call6_c : IVec S_ 32 :=
  constantI S_ 32 0#32
def s_main_call6_v8 : IVec S351 32 :=
  (broadcastInDim S351 ![] bcast_S_S351) s_main_call6_c
def s_main_call6_v9 : IVec S351 1 :=
  (cmpi .ne) s_main_call6_v7 s_main_call6_v8
def s_main_call6_v10 : IVec S351 1 :=
  andi s_main_call6_v5 s_main_call6_v9
def s_main_call6_c_0 : IVec S_ 32 :=
  constantI S_ 32 1#32
def s_main_call6_v11 : IVec S351 32 :=
  (broadcastInDim S351 ![] bcast_S_S351) s_main_call6_c_0
def s_main_call6_v12 : IVec S351 32 :=
  subi s_main_call6_v1 s_main_call6_v11
def s_main_v21 : IVec S351 32 :=
  select s_main_call6_v10 s_main_call6_v12 s_main_call6_v1
def s_main_c_8 : IVec S_ 32 :=
  constantI S_ 32 27#32
def s_main_call7_v0 : IVec S_ 32 :=
  id s_main_c_8
def s_main_call7_c : IVec S_ 32 :=
  constantI S_ 32 0#32
def s_main_call7_v1 : IVec S_ 1 :=
  (cmpi .eq) s_main_call7_v0 s_main_call7_c
def s_main_call7_c_0 : IVec S_ 32 :=
  constantI S_ 32 1#32
def s_main_call7_v2 : IVec S_ 32 :=
  select s_main_call7_v1 s_main_call7_c_0 s_main_call7_v0
def s_main_call7_v3 : IVec S351 32 :=
  (broadcastInDim S351 ![] bcast_S_S351) s_main_call7_v2
def s_main_call7_v4 : IVec S351 32 :=
  Host.remsi s_main_v21 s_main_call7_v3
def s_main_call7_c_1 : IVec S_ 32 :=
  constantI S_ 32 0#32
def s_main_call7_v5 : IVec S351 32 :=
  (broadcastInDim S351 ![] bcast_S_S351) s_main_call7_c_1
def s_main_call7_v6 : IVec S351 1 :=
  (cmpi .ne) s_main_call7_v4 s_main_call7_v5
def s_main_call7_c_2 : IVec S_ 32 :=
  constantI S_ 32 0#32
def s_main_call7_v7 : IVec S351 32 :=
  (broadcastInDim S351 ![] bcast_S_S351) s_main_call7_c_2
def s_main_call7_v8 : IVec S351 1 :=
  (cmpi .slt) s_main_call7_v4 s_main_call7_v7
def s_main_call7_c_3 : IVec S_ 32 :=
  constantI S_ 32 0#32
def s_main_call7_v9 : IVec S_ 1 :=
  (cmpi .slt) s_main_call7_v2 s_main_call7_c_3
def s_main_call7_v10 : IVec S351 1 :=
  (broadcastInDim S351 ![] bcast_S_S351) s_main_call7_v9
def s_main_call7_v11 : IVec S351 1 :=
  (cmpi .ne) s_main_call7_v8 s_main_call7_v10
def s_main_call7_v12 : IVec S351 1 :=
  andi s_main_call7_v11 s_main_call7_v6
def s_main_call7_v13 : IVec S351 32 :=
  (broadcastInDim S351 ![] bcast_S_S351) s_main_call7_v2
def s_main_call7_v14 : IVec S351 32 :=
  addi s_main_call7_v4 s_main_call7_v13
def s_main_v22 : IVec S351 32 :=
  select s_main_call7_v12 s_main_call7_v14 s_main_call7_v4
def s_main_c_9 : IVec S_ 32 :=
  constantI S_ 32 0#32
def s_main_v23 : IVec S351 32 :=
  (broadcastInDim S351 ![] bcast_S_S351) s_main_c_9
def s_main_v24 : IVec S351 1 :=
  (cmpi .slt) s_main_v20 s_main_v23
def s_main_c_10 : IVec S_ 32 :=
  constantI S_ 32 27#32
def s_main_v25 : IVec S351 32 :=
  (broadcastInDim S351 ![] bcast_S_S351) s_main_c_10
def s_main_v26 : IVec S351 32 :=
  (addi) s_main_v20 s_main_v25
def s_main_v27 : IVec S351 32 :=
  (select) s_main_v24 s_main_v26 s_main_v20
def s_main_c_11 : IVec S_ 32 :=
  constantI S_ 32 0#32
def s_main_v28 : IVec S351 32 :=
  (broadcastInDim S351 ![] bcast_S_S351) s_main_c_11
def s_main_v29 : IVec S351 1 :=
  (cmpi .slt) s_main_v22 s_main_v28
def s_main_c_12 : IVec S_ 32 :=
  constantI S_ 32 27#32
def s_main_v30 : IVec S351 32 :=
  (broadcastInDim S351 ![] bcast_S_S351) s_main_c_12
def s_main_v31 : IVec S351 32 :=
  (addi) s_main_v22 s_main_v30
def s_main_v32 : IVec S351 32 :=
  (select) s_main_v29 s_main_v31 s_main_v22
def s_main_v33 : IVec S351x1 32 :=
  (broadcastInDim S351x1 ![0] bcast_S351_S351x1_0) s_main_v27
def s_main_v34 : IVec S351x1 32 :=
  (broadcastInDim S351x1 ![0] bcast_S351_S351x1_0) s_main_v32
def s_main_v35 : IVec S351x2 32 :=
  joinColumns s_main_v33 s_main_v34
def s_main_v36 (x0 : FVec Ideal S16384x128 .f32) (x1 : FVec Ideal S16384x26x128 .f32) : FVec Ideal S16384x351 .f32 :=
  ((fun x i => Host.gather gather_S16384x27x27_S351x2_S16384x351_0_12_n_n_12_1_1638411 x i)) (s_main_v2 x0 x1) s_main_v35

end Cert.ReferenceIdeal.Stages

end
-- ==== Proof.LibNonzeroCount.lean ====
/- How a sized "nonzero" enumerates the true positions of a mask, as pure counting over ℕ.

   A mask b over positions 0 … N-1 is given.  The inclusive prefix count (pre b i) is the number
   of true positions ≤ i.  Counting, for each value v, the positions whose prefix count is v
   gives bin; the inclusive prefix sum of bin is flat, so (flat k) is the number of positions
   whose prefix count is ≤ k.  Because the prefix count is monotone, those positions form an
   initial segment, and its length (flat k) is the position of the (k+1)-th true entry whenever
   k is below the total number of true entries.  Hence k ↦ flat k lists the true positions in
   increasing order, and a sum over the listed positions is the masked sum over all positions. -/
import Mathlib.Algebra.BigOperators.Group.Finset.Basic
import Mathlib.Algebra.Order.BigOperators.Group.Finset
import Mathlib.Data.Finset.Card
import Mathlib.Tactic.Ring

namespace NonzeroCount

variable (N : ℕ) (b : ℕ → Bool)

/-- Inclusive prefix count: the number of true positions among 0 … i. -/
def pre (i : ℕ) : ℕ := ((Finset.range (i+1)).filter (fun j => b j = true)).card

/-- The number of true positions among 0 … N-1. -/
def count : ℕ := ((Finset.range N).filter (fun j => b j = true)).card

/-- The number of positions below N whose inclusive prefix count is exactly v. -/
def bin (v : ℕ) : ℕ := ((Finset.range N).filter (fun i => pre b i = v)).card

/-- The number of positions below N whose inclusive prefix count is at most k. -/
def flat (k : ℕ) : ℕ := ((Finset.range N).filter (fun i => pre b i ≤ k)).card

/-- A prefix count over i+1 positions is at most i+1. -/
theorem pre_le (i : ℕ) : pre b i ≤ i + 1 := by
  unfold pre
  exact (Finset.card_filter_le _ _).trans (by rw [Finset.card_range])

/-- The prefix count is monotone in the position. -/
theorem pre_mono {i j : ℕ} (h : i ≤ j) : pre b i ≤ pre b j := by
  unfold pre
  apply Finset.card_le_card
  apply Finset.filter_subset_filter
  apply Finset.range_mono
  omega

/-- One more position adds one to the prefix count exactly when that position is true. -/
theorem pre_succ (i : ℕ) : pre b (i+1) = pre b i + (if b (i+1) then 1 else 0) := by
  unfold pre
  rw [Finset.range_add_one (n := i+1), Finset.filter_insert]
  by_cases hb : b (i+1) = true
  · rw [if_pos hb, if_pos hb, Finset.card_insert_of_notMem]
    intro hmem
    rw [Finset.mem_filter, Finset.mem_range] at hmem
    omega
  · rw [if_neg hb, if_neg hb]
    omega

/-- At position 0 the prefix count is 1 or 0 according to the mask there. -/
theorem pre_zero : pre b 0 = if b 0 then 1 else 0 := by
  unfold pre
  rw [show Finset.range (0+1) = {0} from rfl, Finset.filter_singleton]
  by_cases hb : b 0 = true
  · rw [if_pos hb, if_pos hb, Finset.card_singleton]
  · rw [if_neg hb, if_neg hb, Finset.card_empty]

/-- The prefix count at the last position is the total count. -/
theorem pre_last (hN : 0 < N) : pre b (N-1) = count N b := by
  unfold pre count
  rw [Nat.sub_add_cancel hN]

/-- A prefix count below N never exceeds the total count. -/
theorem pre_le_count {i : ℕ} (hi : i < N) : pre b i ≤ count N b := by
  have h := pre_mono b (show i ≤ N - 1 by omega)
  rwa [pre_last N b (by omega)] at h

/-- At a true position the prefix count is positive. -/
theorem pre_pos {i : ℕ} (hb : b i = true) : 0 < pre b i := by
  unfold pre
  apply Finset.card_pos.mpr
  exact ⟨i, by rw [Finset.mem_filter, Finset.mem_range]; exact ⟨by omega, hb⟩⟩

/-- Moving up to a true position strictly increases the prefix count. -/
theorem pre_lt_of_lt {i p : ℕ} (h : i < p) (hb : b p = true) : pre b i < pre b p := by
  obtain ⟨q, rfl⟩ : ∃ q, p = q + 1 := ⟨p - 1, by omega⟩
  rw [pre_succ, if_pos hb]
  have := pre_mono b (show i ≤ q by omega)
  omega

/-- The total count is at most N. -/
theorem count_le : count N b ≤ N := by
  unfold count
  exact (Finset.card_filter_le _ _).trans (by rw [Finset.card_range])

/-- flat is at most N. -/
theorem flat_le (k : ℕ) : flat N b k ≤ N := by
  unfold flat
  exact (Finset.card_filter_le _ _).trans (by rw [Finset.card_range])

/-- A finite set of naturals closed under going down is the initial segment of its own size. -/
theorem eq_range_card (S : Finset ℕ) (h : ∀ i ∈ S, ∀ j, j ≤ i → j ∈ S) :
    S = Finset.range S.card := by
  apply Finset.eq_of_subset_of_card_le
  · intro i hi
    rw [Finset.mem_range]
    have hsub : Finset.range (i+1) ⊆ S := by
      intro j hj
      rw [Finset.mem_range] at hj
      exact h i hi j (by omega)
    have hc := Finset.card_le_card hsub
    rw [Finset.card_range] at hc
    omega
  · rw [Finset.card_range]

/-- The positions whose prefix count is at most k are exactly the positions below (flat k):
    they form an initial segment because the prefix count is monotone. -/
theorem lt_flat_iff (k i : ℕ) : i < flat N b k ↔ i < N ∧ pre b i ≤ k := by
  have hS := eq_range_card ((Finset.range N).filter (fun i => pre b i ≤ k)) (by
    intro i hi j hji
    rw [Finset.mem_filter, Finset.mem_range] at hi ⊢
    exact ⟨by omega, (pre_mono b hji).trans hi.2⟩)
  have hmem : i ∈ (Finset.range N).filter (fun i => pre b i ≤ k) ↔ i < flat N b k := by
    rw [hS, Finset.mem_range]; rfl
  rw [← hmem, Finset.mem_filter, Finset.mem_range]

/-- The prefix sums of bin are flat: positions with prefix count ≤ k, split by the value
    of their prefix count. -/
theorem sum_bin (k : ℕ) : ∑ v ∈ Finset.range (k+1), bin N b v = flat N b k := by
  unfold flat bin
  rw [Finset.card_eq_sum_card_fiberwise (f := fun i => pre b i) (t := Finset.range (k+1))]
  · apply Finset.sum_congr rfl
    intro v hv
    rw [Finset.mem_range] at hv
    rw [Finset.filter_filter]
    congr 1
    apply Finset.filter_congr
    intro i _
    constructor
    · intro h; exact ⟨by omega, h⟩
    · intro h; exact h.2
  · intro i hi
    have hi' := (Finset.mem_filter.mp (Finset.mem_coe.mp hi)).2
    apply Finset.mem_coe.mpr
    show pre b i ∈ Finset.range (k+1)
    rw [Finset.mem_range]
    omega

/-- Below the total count, the listed position is a position of the array. -/
theorem flat_lt {k : ℕ} (hk : k < count N b) : flat N b k < N := by
  by_contra hcon
  have hle := flat_le N b k
  have hcN := count_le N b
  have hN : 0 < N := by omega
  have h1 : N - 1 < flat N b k := by omega
  have h2 := ((lt_flat_iff N b k (N-1)).mp h1).2
  rw [pre_last N b hN] at h2
  omega

/-- Below the total count, the listed position is true and its prefix count is k+1: it is
    the (k+1)-th true position. -/
theorem flat_spec {k : ℕ} (hk : k < count N b) :
    b (flat N b k) = true ∧ pre b (flat N b k) = k + 1 := by
  have hlt := flat_lt N b hk
  have hnot : ¬ pre b (flat N b k) ≤ k := by
    intro hle
    have := (lt_flat_iff N b k (flat N b k)).mpr ⟨hlt, hle⟩
    omega
  rcases Nat.eq_zero_or_pos (flat N b k) with h0 | hpos
  · rw [h0] at hnot ⊢
    rw [pre_zero] at hnot ⊢
    by_cases hb : b 0 = true
    · rw [if_pos hb] at hnot ⊢
      exact ⟨hb, by omega⟩
    · rw [if_neg hb] at hnot
      omega
  · obtain ⟨q, hq⟩ : ∃ q, flat N b k = q + 1 := ⟨flat N b k - 1, by omega⟩
    have hqk := ((lt_flat_iff N b k q).mp (by omega)).2
    rw [hq] at hnot ⊢
    rw [pre_succ] at hnot ⊢
    by_cases hb : b (q+1) = true
    · rw [if_pos hb] at hnot ⊢
      exact ⟨hb, by omega⟩
    · rw [if_neg hb] at hnot
      omega

/-- Below the total count, the listed position is a true position of the mask. -/
theorem b_flat {k : ℕ} (hk : k < count N b) : b (flat N b k) = true :=
  (flat_spec N b hk).1

/-- Below the total count, the prefix count at the listed position is k+1. -/
theorem pre_flat {k : ℕ} (hk : k < count N b) : pre b (flat N b k) = k + 1 :=
  (flat_spec N b hk).2

/-- The listed positions are strictly increasing. -/
theorem flat_strictMono {j k : ℕ} (hjk : j < k) (hk : k < count N b) :
    flat N b j < flat N b k := by
  have hj : j < count N b := by omega
  apply (lt_flat_iff N b k (flat N b j)).mpr
  refine ⟨flat_lt N b hj, ?_⟩
  rw [pre_flat N b hj]
  omega

/-- A true position is listed at the index one below its prefix count. -/
theorem flat_pre {i : ℕ} (hi : i < N) (hb : b i = true) : flat N b (pre b i - 1) = i := by
  have hpos := pre_pos b hb
  have hc := pre_le_count N b hi
  have hk : pre b i - 1 < count N b := by omega
  have hbp := b_flat N b hk
  have hpp := pre_flat N b hk
  rcases Nat.lt_trichotomy (flat N b (pre b i - 1)) i with h | h | h
  · have := pre_lt_of_lt b h hb
    omega
  · exact h
  · have := pre_lt_of_lt b h hbp
    omega

/-- Summing over the listed positions (the first count entries of the list, the rest
    contributing nothing) is the masked sum over all positions. -/
theorem sum_flat {M : Type*} [AddCommMonoid M] (f : ℕ → M) :
    ∑ k ∈ Finset.range N, (if k < count N b then f (flat N b k) else 0)
      = ∑ i ∈ Finset.range N, (if b i = true then f i else 0) := by
  rw [← Finset.sum_filter, ← Finset.sum_filter]
  apply Finset.sum_nbij' (fun k => flat N b k) (fun i => pre b i - 1)
  · intro k hk
    rw [Finset.mem_filter, Finset.mem_range] at hk
    rw [Finset.mem_filter, Finset.mem_range]
    exact ⟨flat_lt N b hk.2, b_flat N b hk.2⟩
  · intro i hi
    rw [Finset.mem_filter, Finset.mem_range] at hi
    rw [Finset.mem_filter, Finset.mem_range]
    have hpos := pre_pos b hi.2
    have hc := pre_le_count N b hi.1
    have hle := pre_le b i
    exact ⟨by omega, by omega⟩
  · intro k hk
    rw [Finset.mem_filter, Finset.mem_range] at hk
    show pre b (flat N b k) - 1 = k
    rw [pre_flat N b hk.2]
    omega
  · intro i hi
    rw [Finset.mem_filter, Finset.mem_range] at hi
    exact flat_pre N b hi.1 hi.2
  · intro k _
    rfl

end NonzeroCount
-- ==== Proof.PairCount.lean ====
/-
  Where the strict upper triangle's entries sit, counted.

  Read row by row, a 27 × 27 matrix has position q at row q / 27 and column q % 27; the strict upper triangle is
  the positions with row < column. The c-th pair i < j in lexicographic order sits at position 27 i + j, and
  exactly c + 1 positions of the triangle are at or before it. So the enumeration of the triangle's positions in
  increasing order — what a running count followed by a count of the counts computes — lists position
  27 (pairL c) + pairR c at place c, and dividing by 27 recovers the pair.
-/
import proofs.«151987_j39891656245395_2_alg».proof.Proof.Spec
import proofs.«151987_j39891656245395_2_alg».proof.Proof.LibNonzeroCount

namespace Cert.Spec

/-- Position q (row-major in 27 columns) lies strictly above the diagonal. -/
def triu (q : ℕ) : Bool := decide (q / 27 < q % 27)

/-- The number of triangle positions at or before q, by recursion on q. -/
def upTo : ℕ → ℕ
  | 0 => if triu 0 then 1 else 0
  | q + 1 => upTo q + (if triu (q + 1) then 1 else 0)

theorem pre_eq_upTo (q : ℕ) : NonzeroCount.pre triu q = upTo q := by
  induction q with
  | zero => rw [NonzeroCount.pre_zero]; rfl
  | succ q ih => rw [NonzeroCount.pre_succ, ih]; rfl

set_option maxRecDepth 100000 in
/-- Pair c is a pair i < j below 27, and c + 1 triangle positions are at or before 27 i + j (all 351 cases evaluated). -/
theorem pair_upTo : ∀ c : Fin 351, pairL c.val < pairR c.val ∧ pairR c.val < 27
    ∧ upTo (27 * pairL c.val + pairR c.val) = c.val + 1 := by
  decide +kernel

/-- Pair c is a pair i < j below 27, it lies in the triangle, and c + 1 triangle positions are at or before 27 i + j. -/
theorem pair_facts (c : Fin 351) : pairL c.val < pairR c.val ∧ pairR c.val < 27
    ∧ NonzeroCount.pre triu (27 * pairL c.val + pairR c.val) = c.val + 1 := by
  rw [pre_eq_upTo]; exact pair_upTo c

theorem pairL_lt (c : Fin 351) : pairL c.val < 27 := by
  have := pair_facts c; omega

theorem pairR_lt (c : Fin 351) : pairR c.val < 27 := (pair_facts c).2.1

theorem triu_pair (c : Fin 351) : triu (27 * pairL c.val + pairR c.val) = true := by
  have h := pair_facts c
  unfold triu
  rw [decide_eq_true_eq]
  have h1 : (27 * pairL c.val + pairR c.val) / 27 = pairL c.val := by omega
  have h2 : (27 * pairL c.val + pairR c.val) % 27 = pairR c.val := by omega
  rw [h1, h2]; exact h.1

/-- The c-th triangle position in increasing order is 27 (pairL c) + pairR c. -/
theorem flat_eq (c : Fin 351) : NonzeroCount.flat 729 triu c.val = 27 * pairL c.val + pairR c.val := by
  have h := pair_facts c
  have hlt : 27 * pairL c.val + pairR c.val < 729 := by omega
  have := NonzeroCount.flat_pre 729 triu hlt (triu_pair c)
  rw [h.2.2] at this
  simpa using this

theorem flat_div (c : Fin 351) : NonzeroCount.flat 729 triu c.val / 27 % 27 = pairL c.val := by
  rw [flat_eq]; have := pair_facts c; omega

theorem flat_mod (c : Fin 351) : NonzeroCount.flat 729 triu c.val / 1 % 27 = pairR c.val := by
  rw [flat_eq]; have := pair_facts c; omega

theorem flat_lt (c : Fin 351) : NonzeroCount.flat 729 triu c.val < 729 := by
  rw [flat_eq]; have := pair_facts c; omega

end Cert.Spec
-- ==== Proof.LibIntDivMod.lean ====
/- Floor division and remainder of a nonnegative 32-bit word by a positive constant, in the form
   the two are computed from the truncating division and remainder with a sign correction.

   For a word p with 0 ≤ p < 2^31 and a divisor word d with 0 < d < 2^31 the truncating signed
   quotient and remainder are the natural ones, p / d and p % d: both operands have a clear sign
   bit, so the signed operations are the unsigned ones.  The correction is taken only when the
   operands' signs differ and the remainder is not zero; here the signs agree unless p = 0, and
   then the remainder is zero, so the correction is never taken and the results are the words of
   p / d and p % d.  Two further facts on such p: the signed maximum with zero is p, and a
   select on "p is negative" takes its second branch. -/
import Idealize.ShloMosaic.PureOps.Vector
import Mathlib.Data.BitVec

namespace IntDivMod
open Idealize.ShloMosaic

/-- A word below 2^31 has a clear sign bit. -/
theorem msb_false {p : BitVec 32} (hp : p.toNat < 2 ^ 31) : p.msb = false := by
  rw [BitVec.msb_eq_false_iff_two_mul_lt]; omega

/-- A word below 2^31 is not signed-below zero. -/
theorem slt_zero_false {p : BitVec 32} (hp : p.toNat < 2 ^ 31) : p.slt 0#32 = false := by
  rw [BitVec.slt_eq_decide, decide_eq_false_iff_not]
  rw [BitVec.toInt_eq_toNat_of_lt (by omega)]
  have h0 : (0#32 : BitVec 32).toInt = 0 := by decide
  rw [h0]; omega

/-- The comparison "p is signed-below zero" is the zero bit for a word below 2^31. -/
theorem cmpi_slt_zero {p : BitVec 32} (hp : p.toNat < 2 ^ 31) : IntOp.cmpi .slt p 0#32 = 0#1 := by
  show BitVec.ofBool (p.slt 0#32) = 0#1
  rw [slt_zero_false hp]; rfl

/-- A select on the zero bit takes its second branch. -/
theorem select_zero {α : Type} (a b : α) : Scalar.select 0#1 a b = b := by
  unfold Scalar.select; rw [if_neg (by decide)]

/-- A divisor word with 0 < d < 2^31 is not at the signed division's corner (zero divisor, or the
    least integer over minus one). -/
theorem not_corner (p : BitVec 32) {d : BitVec 32} {D : ℕ} (hD : d.toNat = D) (hD0 : 0 < D) (hD31 : D < 2 ^ 31) :
    ¬ IntOp.SDivCorner p d := by
  unfold IntOp.SDivCorner
  rintro (h | ⟨_, h⟩)
  · rw [h] at hD; simp at hD; omega
  · rw [h] at hD
    have : (-1 : BitVec 32).toNat = 4294967295 := by decide
    rw [this] at hD; omega

/-- The truncating signed quotient of p in [0, 2^31) by d in (0, 2^31) is the word of p / d. -/
theorem divsi_eq (u : ArithUnit) {p d : BitVec 32} {D : ℕ} (hp : p.toNat < 2 ^ 31) (hD : d.toNat = D)
    (hD0 : 0 < D) (hD31 : D < 2 ^ 31) : IntOp.divsi u p d = BitVec.ofNat 32 (p.toNat / D) := by
  unfold IntOp.divsi
  rw [if_neg (not_corner p hD hD0 hD31)]
  have hpm := msb_false hp
  have hdm : d.msb = false := msb_false (by omega)
  rw [BitVec.sdiv_eq, hpm, hdm]
  apply BitVec.eq_of_toNat_eq
  show (p / d).toNat = _
  rw [BitVec.toNat_udiv, hD, BitVec.toNat_ofNat]
  have hlt : p.toNat / D < 2 ^ 32 := lt_of_le_of_lt (Nat.div_le_self _ _) (by omega)
  exact (Nat.mod_eq_of_lt hlt).symm

/-- The truncating signed remainder of p in [0, 2^31) by d in (0, 2^31) is the word of p % d. -/
theorem remsi_eq (u : ArithUnit) {p d : BitVec 32} {D : ℕ} (hp : p.toNat < 2 ^ 31) (hD : d.toNat = D)
    (hD0 : 0 < D) (hD31 : D < 2 ^ 31) : IntOp.remsi u p d = BitVec.ofNat 32 (p.toNat % D) := by
  unfold IntOp.remsi
  rw [if_neg (not_corner p hD hD0 hD31)]
  have hpm := msb_false hp
  have hdm : d.msb = false := msb_false (by omega)
  rw [BitVec.srem_eq, hpm, hdm]
  apply BitVec.eq_of_toNat_eq
  show (p % d).toNat = _
  rw [BitVec.toNat_umod, hD, BitVec.toNat_ofNat]
  have hlt : p.toNat % D < 2 ^ 32 := lt_trans (Nat.mod_lt _ hD0) (by omega)
  exact (Nat.mod_eq_of_lt hlt).symm

/-- Floor division as it is computed from the truncating operations: the quotient, less one when
    the operands' signs differ and the remainder is not zero.  The sign of a word is 0 for zero,
    else -1 when the sign bit is set, else 1.  For p in [0, 2^31) and d in (0, 2^31) the result is
    the word of p / d. -/
theorem floor_divide_eq (u : ArithUnit) {p d : BitVec 32} {D : ℕ} (hp : p.toNat < 2 ^ 31) (hD : d.toNat = D)
    (hD0 : 0 < D) (hD31 : D < 2 ^ 31) :
    Scalar.select
        (IntOp.andi
          (IntOp.cmpi .ne (if p = 0 then (0 : BitVec 32) else if p.msb then -1 else 1)
            (if d = 0 then (0 : BitVec 32) else if d.msb then -1 else 1))
          (IntOp.cmpi .ne (IntOp.remsi u p d) 0#32))
        (IntOp.subi (IntOp.divsi u p d) 1#32) (IntOp.divsi u p d)
      = BitVec.ofNat 32 (p.toNat / D) := by
  have hd0 : d ≠ 0 := by
    intro h; rw [h] at hD; simp at hD; omega
  have hdm : d.msb = false := msb_false (by omega)
  have hc : IntOp.andi
          (IntOp.cmpi .ne (if p = 0 then (0 : BitVec 32) else if p.msb then -1 else 1)
            (if d = 0 then (0 : BitVec 32) else if d.msb then -1 else 1))
          (IntOp.cmpi .ne (IntOp.remsi u p d) 0#32) = 0#1 := by
    rw [if_neg hd0, hdm]
    by_cases h0 : p = 0
    · rw [remsi_eq u hp hD hD0 hD31, h0]
      have : (BitVec.ofNat 32 ((0 : BitVec 32).toNat % D)) = 0#32 := by simp
      rw [this]
      have e : IntOp.cmpi .ne (0#32 : BitVec 32) 0#32 = 0#1 := by decide
      rw [e]; unfold IntOp.andi; exact BitVec.and_zero
    · rw [if_neg h0, msb_false hp]
      have e : IntOp.cmpi .ne (if false = true then (-1 : BitVec 32) else 1) (if false = true then (-1 : BitVec 32) else 1) = 0#1 := by
        decide
      rw [e]; unfold IntOp.andi; exact BitVec.zero_and
  rw [hc, select_zero, divsi_eq u hp hD hD0 hD31]

/-- The divisor as the remainder computation guards it (one in place of a zero divisor) is the
    divisor itself when it is not zero. -/
theorem guard_divisor {d : BitVec 32} {D : ℕ} (hD : d.toNat = D) (hD0 : 0 < D) :
    Scalar.select (IntOp.cmpi .eq d 0#32) 1#32 d = d := by
  have hd0 : d ≠ 0 := by
    intro h; rw [h] at hD; simp at hD; omega
  have e : IntOp.cmpi .eq d 0#32 = 0#1 := by
    show BitVec.ofBool (d == 0#32) = 0#1
    rw [show (d == 0#32) = false from by simpa using hd0]; rfl
  rw [e, select_zero]

/-- The remainder as it is computed from the truncating remainder r = p rem d: r + d when r's
    sign differs from d's and r is not zero, else r.  For p in [0, 2^31) and d in (0, 2^31) the
    result is the word of p % d. -/
theorem remainder_eq (u : ArithUnit) {p d : BitVec 32} {D : ℕ} (hp : p.toNat < 2 ^ 31) (hD : d.toNat = D)
    (hD0 : 0 < D) (hD31 : D < 2 ^ 31) :
    Scalar.select
        (IntOp.andi
          (IntOp.cmpi .ne (IntOp.cmpi .slt (IntOp.remsi u p d) 0#32) (IntOp.cmpi .slt d 0#32))
          (IntOp.cmpi .ne (IntOp.remsi u p d) 0#32))
        (IntOp.addi (IntOp.remsi u p d) d) (IntOp.remsi u p d)
      = BitVec.ofNat 32 (p.toNat % D) := by
  have hr := remsi_eq u hp hD hD0 hD31
  have hrlt : (BitVec.ofNat 32 (p.toNat % D)).toNat < 2 ^ 31 := by
    rw [BitVec.toNat_ofNat]
    have : p.toNat % D < D := Nat.mod_lt _ hD0
    omega
  rw [hr, cmpi_slt_zero hrlt, cmpi_slt_zero (show d.toNat < 2 ^ 31 by omega)]
  have e : IntOp.cmpi .ne (0#1 : BitVec 1) 0#1 = 0#1 := by decide
  rw [e]
  have hz : IntOp.andi (0#1 : BitVec 1) (IntOp.cmpi .ne (BitVec.ofNat 32 (p.toNat % D)) 0#32) = 0#1 := by
    unfold IntOp.andi; exact BitVec.zero_and
  rw [hz, select_zero]

/-- The same with the guarded divisor in place, as the whole computation has it. -/
theorem remainder_guarded_eq (u : ArithUnit) {p d : BitVec 32} {D : ℕ} (hp : p.toNat < 2 ^ 31) (hD : d.toNat = D)
    (hD0 : 0 < D) (hD31 : D < 2 ^ 31) :
    Scalar.select
        (IntOp.andi
          (IntOp.cmpi .ne (IntOp.cmpi .slt (IntOp.remsi u p (Scalar.select (IntOp.cmpi .eq d 0#32) 1#32 d)) 0#32)
            (IntOp.cmpi .slt (Scalar.select (IntOp.cmpi .eq d 0#32) 1#32 d) 0#32))
          (IntOp.cmpi .ne (IntOp.remsi u p (Scalar.select (IntOp.cmpi .eq d 0#32) 1#32 d)) 0#32))
        (IntOp.addi (IntOp.remsi u p (Scalar.select (IntOp.cmpi .eq d 0#32) 1#32 d))
          (Scalar.select (IntOp.cmpi .eq d 0#32) 1#32 d))
        (IntOp.remsi u p (Scalar.select (IntOp.cmpi .eq d 0#32) 1#32 d))
      = BitVec.ofNat 32 (p.toNat % D) := by
  rw [guard_divisor hD hD0]
  exact remainder_eq u hp hD hD0 hD31

/-- The signed maximum of zero and a word in [0, 2^31) is that word. -/
theorem maxsi_zero {p : BitVec 32} (hp : p.toNat < 2 ^ 31) : IntOp.maxsi 0#32 p = p := by
  unfold IntOp.maxsi
  rw [slt_zero_false hp]
  rfl

/-- The wrap of a negative position (add the length when the position is signed-below zero)
    leaves a word in [0, 2^31) as it is. -/
theorem wrap_eq {p : BitVec 32} (hp : p.toNat < 2 ^ 31) (N : BitVec 32) :
    Scalar.select (IntOp.cmpi .slt p 0#32) (IntOp.addi p N) p = p := by
  rw [cmpi_slt_zero hp, select_zero]

/-- The word of a natural number below 2^31 is below 2^31 and reads back as that number. -/
theorem toNat_ofNat_lt {n : ℕ} (hn : n < 2 ^ 31) : (BitVec.ofNat 32 n).toNat = n := by
  rw [BitVec.toNat_ofNat]; omega

end IntDivMod
-- ==== Proof.Words.lean ====
/-
  Small facts about 32-bit words and the two float patterns the triangular mask is built from.
-/
import Idealize.ShloMosaic.PureOps.Ideal
import Idealize.ShloMosaic.PureOps.Ideal.Laws
import Idealize.ShloMosaic.Lib.ValueIdx
import proofs.«151987_j39891656245395_2_alg».proof.Proof.LibIntDivMod

namespace Cert.Words

open Idealize.ShloMosaic

/-- Below 27, the signed comparison "row + 0 ≥ column" of the two position words is the comparison of the numbers. -/
theorem sge_small : ∀ r c : Fin 27,
    IntOp.cmpi .sge (IntOp.addi (BitVec.ofNat 32 r.val) 0#32) (BitVec.ofNat 32 c.val)
      = if c.val ≤ r.val then 1#1 else 0#1 := by
  decide +kernel

/-- The pattern 0x3F800000 denotes the real number one. -/
theorem ofBits_one_f32 : Ideal.ofBits .f32 0x3F800000#32 = 1 := by
  simp [Ideal.ofBits, Ideal.ieee]
  first
    | (rw [← EReal.coe_mul]; norm_num)
    | (norm_cast; norm_num)
    | (exact_mod_cast (by norm_num : (8388608 : ℝ) * (1 / 8388608) = 1))

/-- One differs from zero, zero does not: the two values of the mask's comparison against zero. -/
theorem une_one_zero : FloatOps.cmpf (F := Ideal) (φ := .f32) .une (Ideal.ofBits .f32 0x3F800000#32) (Ideal.ofBits .f32 0x00000000#32) = 1#1 := by
  rw [Ideal.cmpf_def, ofBits_one_f32, Ideal.ofBits_zero_f32]
  simp [Ideal.cmp]

theorem une_zero_zero : FloatOps.cmpf (F := Ideal) (φ := .f32) .une (Ideal.ofBits .f32 0x00000000#32) (Ideal.ofBits .f32 0x00000000#32) = 0#1 := by
  rw [Ideal.cmpf_def]
  simp [Ideal.cmp]

/-- A word that is a number below 2^31, read signed, is that number. -/
theorem toInt_toNat_ofNat {n : ℕ} (hn : n < 2 ^ 31) : (BitVec.ofNat 32 n).toInt.toNat = n := by
  have h := IntDivMod.toNat_ofNat_lt hn
  rw [BitVec.toInt_eq_toNat_of_lt (by omega), h]
  simp

end Cert.Words
-- ==== Proof.LibIntCumsum.lean ====
/- Integer prefix sums and totals, read at an index.

   A window sum over a one-axis array whose window is the whole axis, padded below by the axis's
   length less one, adds at result position j exactly the entries 0 … j: the window at j covers the
   padded positions j … j + n - 1, of which those from n - 1 on are entries, entry number
   (position - (n - 1)).  A left fold by two's-complement addition is the word of the sum of the
   entries' natural values, so the result word is the word of that prefix sum.  A reduction by
   addition over every axis is, in the same way, the word of the sum of all entries, and over an
   array of widened one-bit words the word of the number of ones. -/
import Idealize.ShloMosaic.PureOps.Reduce
import Idealize.ShloMosaic.Lib.IndicatorCount
import Mathlib.Algebra.BigOperators.Fin

namespace IntCumsum
open Idealize.ShloMosaic

/-- A left fold by word addition over a list is the starting word plus the word of the sum of the
    entries' natural values. -/
theorem foldl_addi {ι : Type} {w : ℕ} (c : ι → BitVec w) (l : List ι) (r : BitVec w) :
    l.foldl (fun r n => IntOp.addi r (c n)) r = r + BitVec.ofNat w ((l.map fun n => (c n).toNat).sum) := by
  induction l generalizing r with
  | nil => simp
  | cons a l ih =>
    rw [List.foldl_cons, ih, List.map_cons, List.sum_cons, BitVec.ofNat_add, BitVec.ofNat_toNat, BitVec.setWidth_eq,
      ← BitVec.add_assoc]
    rfl

/-- A fold by word addition over a finite set is the starting word plus the word of the sum of the
    entries' natural values. -/
theorem fold_addi {ι : Type} {w : ℕ} (S : Finset ι) (c : ι → BitVec w) (r : BitVec w) :
    S.fold IntOp.addi r c = r + BitVec.ofNat w (∑ i ∈ S, (c i).toNat) := by
  classical
  induction S using Finset.induction_on with
  | empty => simp
  | insert a S ha ih =>
    rw [Finset.fold_insert ha, ih, Finset.sum_insert ha, BitVec.ofNat_add, BitVec.ofNat_toNat, BitVec.setWidth_eq]
    show c a + (r + _) = r + (c a + _)
    rw [← BitVec.add_assoc, ← BitVec.add_assoc, BitVec.add_comm (c a) r]

/-- Positions j0 … j0 + a + c - 1 of a padded axis whose first lo = j0 + a positions are padding:
    the first a of them are padding and contribute nothing, the next c are entries 0 … c - 1. -/
theorem sum_range_shift (G : ℕ → ℕ) (j0 a c lo N : ℕ) (hlo : lo = j0 + a) (hc : c ≤ N) :
    ∑ k ∈ Finset.range (a + c), (if lo ≤ j0 + k ∧ j0 + k - lo < N then G (j0 + k - lo) else 0)
      = ∑ i ∈ Finset.range c, G i := by
  rw [Finset.sum_range_add]
  have h1 : ∑ k ∈ Finset.range a, (if lo ≤ j0 + k ∧ j0 + k - lo < N then G (j0 + k - lo) else 0) = 0 := by
    apply Finset.sum_eq_zero
    intro k hk
    rw [Finset.mem_range] at hk
    rw [if_neg]
    omega
  rw [h1, Nat.zero_add]
  apply Finset.sum_congr rfl
  intro i hi
  rw [Finset.mem_range] at hi
  rw [if_pos (by omega)]
  congr 1
  omega

/-- The window sum that a cumulative sum along one axis is: over a one-axis array with entries
    g 0, g 1, …, the window the whole axis (window 0 = d 0), stride one, padded below by the
    axis's length less one (lo 0 + 1 = d 0), from the initial word zero, the result at position j is
    the word of g 0 + … + g j, the entries read as natural numbers.  The extents are general: the
    window, stride and padding are functions on the one axis with their values given by equations,
    the shape fact is an argument. -/
theorem reduceWindow_cumsum {w : ℕ} {d d' : Fin 1 → ℕ} {u : Shape} (window strides lo hi : Fin 1 → ℕ)
    (x : (⟨1, d⟩ : Shape).Idx → BitVec w) (init : u.Idx → BitVec w)
    (h : (⟨1, d⟩ : Shape).ReduceWindows window strides lo hi ⟨1, d'⟩) (hu : 0 < u.numel)
    (g : ℕ → BitVec w) (hx : ∀ i, x i = g (i 0).val)
    (hinit : init (Shape.Idx.first hu) = 0#w)
    (hw : window 0 = d 0) (hs : strides 0 = 1) (hlo : lo 0 + 1 = d 0)
    (j : (⟨1, d'⟩ : Shape).Idx) (hj : (j 0).val < d 0) :
    Host.reduceWindow IntOp.addi window strides lo hi x init h hu j
      = BitVec.ofNat w (∑ i ∈ Finset.range ((j 0).val + 1), (g i).toNat) := by
  unfold Host.reduceWindow
  dsimp only
  rw [foldl_addi, hinit, BitVec.zero_add, ← Fin.sum_univ_def]
  congr 1
  have hrm : ∀ n : Fin (⟨1, window⟩ : Shape).numel,
      (((⟨1, window⟩ : Shape).rowMajor.symm n) 0).val = n.val := by
    intro n
    have e := Shape.rowMajor_val_one ((⟨1, window⟩ : Shape).rowMajor.symm n)
    rw [Equiv.apply_symm_apply] at e
    exact e.symm
  trans (∑ n : Fin (⟨1, window⟩ : Shape).numel,
      (fun k : ℕ => if lo 0 ≤ (j 0).val + k ∧ (j 0).val + k - lo 0 < d 0
        then (g ((j 0).val + k - lo 0)).toNat else 0) n.val)
  · apply Finset.sum_congr rfl
    intro n _
    have hn := hrm n
    split
    · next hin =>
      have h0 : lo 0 ≤ (j 0).val * strides 0 + (((⟨1, window⟩ : Shape).rowMajor.symm n) 0).val
          ∧ (j 0).val * strides 0 + (((⟨1, window⟩ : Shape).rowMajor.symm n) 0).val - lo 0 < d 0 := hin 0
      rw [hn, hs, Nat.mul_one] at h0
      rw [hx]
      show (g ((j 0).val * strides 0 + (((⟨1, window⟩ : Shape).rowMajor.symm n) 0).val - lo 0)).toNat = _
      rw [hn, hs, Nat.mul_one]
      show _ = if lo 0 ≤ (j 0).val + n.val ∧ (j 0).val + n.val - lo 0 < d 0
        then (g ((j 0).val + n.val - lo 0)).toNat else 0
      rw [if_pos h0]
    · next hin =>
      have hc : ¬ (lo 0 ≤ (j 0).val + n.val ∧ (j 0).val + n.val - lo 0 < d 0) := by
        intro hc
        apply hin
        intro a
        have ha : a = 0 := Subsingleton.elim _ _
        subst ha
        show lo 0 ≤ (j 0).val * strides 0 + (((⟨1, window⟩ : Shape).rowMajor.symm n) 0).val
          ∧ (j 0).val * strides 0 + (((⟨1, window⟩ : Shape).rowMajor.symm n) 0).val - lo 0 < d 0
        rw [hn, hs, Nat.mul_one]
        exact hc
      show (0#w).toNat = if lo 0 ≤ (j 0).val + n.val ∧ (j 0).val + n.val - lo 0 < d 0
        then (g ((j 0).val + n.val - lo 0)).toNat else 0
      rw [if_neg hc]
      rfl
  · rw [Fin.sum_univ_eq_sum_range (fun k : ℕ => if lo 0 ≤ (j 0).val + k ∧ (j 0).val + k - lo 0 < d 0
        then (g ((j 0).val + k - lo 0)).toNat else 0)]
    have hW : (⟨1, window⟩ : Shape).numel = d 0 := by
      show ∏ a : Fin 1, window a = d 0
      rw [Fin.prod_univ_one]
      exact hw
    rw [hW]
    have e : d 0 = (lo 0 - (j 0).val) + ((j 0).val + 1) := by omega
    have key := sum_range_shift (fun i => (g i).toNat) (j 0).val (lo 0 - (j 0).val) ((j 0).val + 1) (lo 0) (d 0)
      (by omega) (by omega)
    rw [← e] at key
    exact key

/-- A sum over a shape's indices is the sum over its row-major positions 0 … numel - 1. -/
theorem sum_idx_eq_sum_range (s : Shape) (f : s.Idx → ℕ) :
    ∑ i : s.Idx, f i
      = ∑ k ∈ Finset.range s.numel, if hk : k < s.numel then f (s.rowMajor.symm ⟨k, hk⟩) else 0 := by
  rw [← Equiv.sum_comp s.rowMajor.symm f,
    ← Fin.sum_univ_eq_sum_range (fun k => if hk : k < s.numel then f (s.rowMajor.symm ⟨k, hk⟩) else 0)]
  apply Finset.sum_congr rfl
  intro n _
  rw [dif_pos n.isLt]

/-- A reduction by word addition over every axis (the result has one index): the initial word
    plus the word of the sum of all entries' natural values. -/
theorem reduce_all_addi {s t u : Shape} {axes : List (Fin s.rank)} {w : ℕ} [Subsingleton t.Idx]
    (x : s.Idx → BitVec w) (init : u.Idx → BitVec w) (h : s.ReducesTo axes t) (hu : 0 < u.numel) (j : t.Idx) :
    Host.reduce IntOp.addi x init h hu j
      = init (Shape.Idx.first hu) + BitVec.ofNat w (∑ i : s.Idx, (x i).toNat) := by
  rw [Host.reduce_eq_fold, fold_addi]
  congr 2
  exact Finset.sum_congr (Finset.filter_true_of_mem (fun i _ => Subsingleton.elim _ _)) (fun _ _ => rfl)

/-- The same with the entries listed in row-major order. -/
theorem reduce_all_addi_range {s t u : Shape} {axes : List (Fin s.rank)} {w : ℕ} [Subsingleton t.Idx]
    (x : s.Idx → BitVec w) (init : u.Idx → BitVec w) (h : s.ReducesTo axes t) (hu : 0 < u.numel) (j : t.Idx) :
    Host.reduce IntOp.addi x init h hu j
      = init (Shape.Idx.first hu) + BitVec.ofNat w (∑ k ∈ Finset.range s.numel,
          if hk : k < s.numel then (x (s.rowMajor.symm ⟨k, hk⟩)).toNat else 0) := by
  rw [reduce_all_addi, sum_idx_eq_sum_range s (fun i => (x i).toNat)]

/-- The total count: a reduction by word addition over every axis of one-bit words widened to w
    bits, from the initial word zero, is the word of the number of ones. -/
theorem reduce_all_addi_indicator {s t u : Shape} {axes : List (Fin s.rank)} {w : ℕ} [Subsingleton t.Idx]
    (p : s.Idx → BitVec 1) (init : u.Idx → BitVec w) (h : s.ReducesTo axes t) (hu : 0 < u.numel)
    (hinit : init (Shape.Idx.first hu) = 0#w) (j : t.Idx) :
    Host.reduce IntOp.addi (fun i => (p i).setWidth w) init h hu j
      = BitVec.ofNat w (Finset.univ.filter fun i => p i = 1#1).card := by
  rw [Host.reduce_eq_fold, hinit,
    Finset.filter_true_of_mem (s := Finset.univ) (fun i _ => (Subsingleton.elim _ _ : h.drop i = j))]
  exact IndicatorCount.fold_addi_setWidth_eq_card p Finset.univ

/-- The number of indices of a shape with a property is the number of row-major positions
    0 … numel - 1 whose index has it. -/
theorem card_filter_idx_eq_range (s : Shape) (P : s.Idx → Prop) [DecidablePred P] :
    (Finset.univ.filter fun i => P i).card
      = ((Finset.range s.numel).filter fun k => ∃ hk : k < s.numel, P (s.rowMajor.symm ⟨k, hk⟩)).card := by
  rw [Finset.card_filter, Finset.card_filter, sum_idx_eq_sum_range s (fun i => if P i then 1 else 0)]
  apply Finset.sum_congr rfl
  intro k hk
  rw [Finset.mem_range] at hk
  rw [dif_pos hk]
  by_cases hP : P (s.rowMajor.symm ⟨k, hk⟩)
  · rw [if_pos hP, if_pos ⟨hk, hP⟩]
  · rw [if_neg hP, if_neg (fun ⟨_, hq⟩ => hP hq)]

end IntCumsum
-- ==== Proof.LibIntBincount.lean ====
/- A scatter by addition, read at an index; and the count it computes ("bincount") when ones are
   scattered into zeros along one axis.

   The scatter is the left fold, over the update positions in row-major order, of the step that
   adds an update into the operand element its result index names, and leaves the operand alone
   when the update has no result index.  Read at one operand index v, the fold adds exactly the
   updates whose result index is v, so the word there is the operand's word plus the word of the
   sum of those updates' natural values.

   For an operand with one axis, scatter indices with two axes (the second the index vector's,
   of length one) and updates with one axis, every operand axis inserted and no update window
   axes, update position e has the result index whose coordinate is the index word at (e, 0)
   read as a SIGNED integer, provided that integer lies in [0, length of the operand); it is not
   clamped, and otherwise the update is dropped.  Scattering ones into zeros therefore leaves at
   v the word of the number of update positions whose index word, read signed, equals v. -/
import Idealize.ShloMosaic.PureOps.Reduce
import Mathlib.Algebra.BigOperators.Fin

namespace IntBincount
open Idealize.ShloMosaic

section General
variable {s si u : Shape} {w w' : ℕ}

/-- A scatter by word addition, read at operand index v: the operand's word plus the word of the
    sum, over the update positions in row-major order, of the natural values of the updates whose
    result index is v. -/
theorem scatter_addi_list (d : ScatterDims s si u) (x : s.Idx → BitVec w) (idx : IVec si w')
    (upd : u.Idx → BitVec w) (v : s.Idx) :
    Host.scatter d IntOp.addi x idx upd v
      = x v + BitVec.ofNat w (((List.finRange u.numel).map fun n =>
          if d.resultIdx? (u.rowMajor.symm n) idx = some v then (upd (u.rowMajor.symm n)).toNat else 0).sum) := by
  unfold Host.scatter
  generalize List.finRange u.numel = l
  induction l generalizing x with
  | nil => simp
  | cons a l ih =>
    rw [List.foldl_cons, ih, List.map_cons, List.sum_cons]
    rcases hres : d.resultIdx? (u.rowMajor.symm a) idx with _ | i
    · simp only [reduceCtorEq, if_false, Nat.zero_add]
    · by_cases hv : v = i
      · subst hv
        simp only [if_true]
        rw [BitVec.ofNat_add, BitVec.ofNat_toNat, BitVec.setWidth_eq, ← BitVec.add_assoc]
        rfl
      · have hne : ¬ (some i = some v) := fun h => hv (Option.some.inj h).symm
        simp only [if_neg hv, if_neg hne, Nat.zero_add]

/-- The same as a sum over the update indices. -/
theorem scatter_addi_apply (d : ScatterDims s si u) (x : s.Idx → BitVec w) (idx : IVec si w')
    (upd : u.Idx → BitVec w) (v : s.Idx) :
    Host.scatter d IntOp.addi x idx upd v
      = x v + BitVec.ofNat w (∑ e : u.Idx, if d.resultIdx? e idx = some v then (upd e).toNat else 0) := by
  rw [scatter_addi_list, ← Fin.sum_univ_def,
    Equiv.sum_comp u.rowMajor.symm (fun e => if d.resultIdx? e idx = some v then (upd e).toNat else 0)]

/-- Ones scattered by addition into zeros, at 32 bits: the word of the number of update indices
    whose result index is v. -/
theorem scatter_addi_count (d : ScatterDims s si u) (x : s.Idx → BitVec 32) (idx : IVec si w')
    (upd : u.Idx → BitVec 32) (hx : ∀ i, x i = 0#32) (hupd : ∀ e, upd e = 1#32) (v : s.Idx) :
    Host.scatter d IntOp.addi x idx upd v
      = BitVec.ofNat 32 (Finset.univ.filter fun e : u.Idx => d.resultIdx? e idx = some v).card := by
  rw [scatter_addi_apply, hx, BitVec.zero_add, Finset.card_filter]
  congr 1
  apply Finset.sum_congr rfl
  intro e _
  rw [hupd]
  rfl

end General

section OneAxis
variable {w' : ℕ} {ds du : Fin 1 → ℕ} {dsi : Fin 2 → ℕ}

/-- The scatter-indices index at which update position e reads its index word: (e, 0). -/
theorem siIdx_val (d : ScatterDims ⟨1, ds⟩ ⟨2, dsi⟩ ⟨1, du⟩)
    (h1 : d.updateWindowDims = []) (h2 : d.insertedWindowDims = [0]) (h3 : d.scatterDimsToOperandDims = [0])
    (h4 : d.indexVectorDim = 1) (e : (⟨1, du⟩ : Shape).Idx) (c : Fin d.scatterDimsToOperandDims.length) (b : Fin 2) :
    (d.siIdx e c b).val = if b = 0 then (e 0).val else 0 := by
  obtain ⟨uw, iw, sd, iv, wf⟩ := d
  simp only at h1 h2 h3 h4
  subst h1 h2 h3 h4
  have hc : c.val = 0 := by
    have hlt := c.isLt
    change c.val < 1 at hlt
    omega
  fin_cases b
  · simp [ScatterDims.siIdx, ScatterDims.siCoord]
    exact congrArg (fun k => (e k).val) (Subsingleton.elim _ _)
  · simp [ScatterDims.siIdx, hc]

/-- The start of update position e's window on the one operand axis, plus its window coordinate
    (zero: the axis is inserted), is the index word at (e, 0) read signed. -/
theorem start_add_window (d : ScatterDims ⟨1, ds⟩ ⟨2, dsi⟩ ⟨1, du⟩)
    (h1 : d.updateWindowDims = []) (h2 : d.insertedWindowDims = [0]) (h3 : d.scatterDimsToOperandDims = [0])
    (h4 : d.indexVectorDim = 1) (idx : IVec ⟨2, dsi⟩ w') (e : (⟨1, du⟩ : Shape).Idx) :
    ∃ c : Fin d.scatterDimsToOperandDims.length, d.start e idx 0 + d.window e 0 = (idx (d.siIdx e c)).toInt := by
  obtain ⟨uw, iw, sd, iv, wf⟩ := d
  simp only at h1 h2 h3 h4
  subst h1 h2 h3 h4
  refine ⟨⟨0, (Nat.zero_lt_one : (0 : ℕ) < 1)⟩, ?_⟩
  simp [ScatterDims.start, ScatterDims.window, ScatterDims.sKept, Shape.kept] <;> rfl

/-- Update position e has result index v exactly when the index word at (e, 0), read as a signed
    integer, is v's coordinate: the word is not clamped, and a word outside [0, length) gives no
    result index at all.  The index words are given as a function gi of the first coordinate. -/
theorem resultIdx?_eq_some_iff (d : ScatterDims ⟨1, ds⟩ ⟨2, dsi⟩ ⟨1, du⟩)
    (h1 : d.updateWindowDims = []) (h2 : d.insertedWindowDims = [0]) (h3 : d.scatterDimsToOperandDims = [0])
    (h4 : d.indexVectorDim = 1) (idx : IVec ⟨2, dsi⟩ w') (gi : ℕ → BitVec w') (hidx : ∀ k, idx k = gi (k 0).val)
    (e : (⟨1, du⟩ : Shape).Idx) (v : (⟨1, ds⟩ : Shape).Idx) :
    d.resultIdx? e idx = some v ↔ (gi (e 0).val).toInt = ((v 0).val : ℤ) := by
  obtain ⟨c, hz⟩ := start_add_window d h1 h2 h3 h4 idx e
  have hk : idx (d.siIdx e c) = gi (e 0).val := by
    rw [hidx, siIdx_val d h1 h2 h3 h4 e c 0, if_pos rfl]
  rw [hk] at hz
  have hvlt : (v 0).val < ds 0 := (v 0).isLt
  unfold ScatterDims.resultIdx?
  split
  · next h =>
    have h0 := h 0
    rw [hz] at h0
    constructor
    · intro hs
      have hv := congrArg Fin.val (congrFun (Option.some.inj hs) 0)
      have hv' : (d.start e idx 0 + d.window e 0).toNat = (v 0).val := hv
      rw [hz] at hv'
      omega
    · intro hzv
      congr 1
      funext a
      have ha : a = 0 := Subsingleton.elim _ _
      subst ha
      apply Fin.ext
      show (d.start e idx 0 + d.window e 0).toNat = (v 0).val
      rw [hz]
      omega
  · next h =>
    constructor
    · intro hs
      exact absurd hs (by simp)
    · intro hzv
      exfalso
      apply h
      intro a
      have ha : a = 0 := Subsingleton.elim _ _
      subst ha
      rw [hz]
      show 0 ≤ (gi (e 0).val).toInt ∧ (gi (e 0).val).toInt < ((ds 0 : ℕ) : ℤ)
      omega

/-- The count: ones scattered by addition into zeros along one axis leave at v the word of the
    number of update positions k below the updates' length whose index word gi k, read as a signed
    integer, equals v's coordinate. -/
theorem scatter_bincount (d : ScatterDims ⟨1, ds⟩ ⟨2, dsi⟩ ⟨1, du⟩)
    (h1 : d.updateWindowDims = []) (h2 : d.insertedWindowDims = [0]) (h3 : d.scatterDimsToOperandDims = [0])
    (h4 : d.indexVectorDim = 1) (x : (⟨1, ds⟩ : Shape).Idx → BitVec 32) (idx : IVec ⟨2, dsi⟩ w')
    (upd : (⟨1, du⟩ : Shape).Idx → BitVec 32) (hx : ∀ i, x i = 0#32) (hupd : ∀ e, upd e = 1#32)
    (gi : ℕ → BitVec w') (hidx : ∀ k, idx k = gi (k 0).val) (v : (⟨1, ds⟩ : Shape).Idx) :
    Host.scatter d IntOp.addi x idx upd v
      = BitVec.ofNat 32 ((Finset.range (du 0)).filter fun k => (gi k).toInt = ((v 0).val : ℤ)).card := by
  rw [scatter_addi_list, hx, BitVec.zero_add, ← Fin.sum_univ_def, Finset.card_filter]
  congr 1
  have hrm : ∀ n : Fin (⟨1, du⟩ : Shape).numel, (((⟨1, du⟩ : Shape).rowMajor.symm n) 0).val = n.val := by
    intro n
    have e := Shape.rowMajor_val_one ((⟨1, du⟩ : Shape).rowMajor.symm n)
    rw [Equiv.apply_symm_apply] at e
    exact e.symm
  have hU : (⟨1, du⟩ : Shape).numel = du 0 := by
    show ∏ a : Fin 1, du a = du 0
    rw [Fin.prod_univ_one]
  trans (∑ n : Fin (⟨1, du⟩ : Shape).numel,
      (fun k : ℕ => if (gi k).toInt = ((v 0).val : ℤ) then 1 else 0) n.val)
  · apply Finset.sum_congr rfl
    intro n _
    rw [hupd]
    have hiff := resultIdx?_eq_some_iff d h1 h2 h3 h4 idx gi hidx ((⟨1, du⟩ : Shape).rowMajor.symm n) v
    rw [hrm n] at hiff
    by_cases hc : (gi n.val).toInt = ((v 0).val : ℤ)
    · rw [if_pos (hiff.mpr hc)]
      show (1#32 : BitVec 32).toNat = if (gi n.val).toInt = ((v 0).val : ℤ) then 1 else 0
      rw [if_pos hc]
      rfl
    · rw [if_neg (fun hr => hc (hiff.mp hr))]
      show 0 = if (gi n.val).toInt = ((v 0).val : ℤ) then 1 else 0
      rw [if_neg hc]
  · rw [Fin.sum_univ_eq_sum_range (fun k : ℕ => if (gi k).toInt = ((v 0).val : ℤ) then 1 else 0), hU]

/-- The same when the index words below the updates' length are natural numbers below 2^31: the
    signed reading is the natural one. -/
theorem scatter_bincount_nat (d : ScatterDims ⟨1, ds⟩ ⟨2, dsi⟩ ⟨1, du⟩)
    (h1 : d.updateWindowDims = []) (h2 : d.insertedWindowDims = [0]) (h3 : d.scatterDimsToOperandDims = [0])
    (h4 : d.indexVectorDim = 1) (x : (⟨1, ds⟩ : Shape).Idx → BitVec 32) (idx : IVec ⟨2, dsi⟩ 32)
    (upd : (⟨1, du⟩ : Shape).Idx → BitVec 32) (hx : ∀ i, x i = 0#32) (hupd : ∀ e, upd e = 1#32)
    (gi : ℕ → BitVec 32) (hidx : ∀ k, idx k = gi (k 0).val) (hsmall : ∀ k, k < du 0 → (gi k).toNat < 2 ^ 31)
    (v : (⟨1, ds⟩ : Shape).Idx) :
    Host.scatter d IntOp.addi x idx upd v
      = BitVec.ofNat 32 ((Finset.range (du 0)).filter fun k => (gi k).toNat = (v 0).val).card := by
  rw [scatter_bincount d h1 h2 h3 h4 x idx upd hx hupd gi hidx v]
  congr 2
  apply Finset.filter_congr
  intro k hk
  rw [Finset.mem_range] at hk
  have hs := hsmall k hk
  rw [BitVec.toInt_eq_toNat_of_lt (by omega)]
  omega

end OneAxis

end IntBincount
-- ==== Proof.RefIndex.lean ====
/-
  The index table of the reference, read entry by entry.

  The reference lists the strict upper triangle of a 27 × 27 matrix the way `jnp.nonzero` does. The mask is
  flattened row by row to 729 bits; a running sum gives, at each position, how many triangle positions are at or before
  it; a count of how many positions carry each running-sum value (ones scattered by addition, at the running sums as
  indices) followed by a second running sum gives, at place k, the number of positions whose running sum is at most
  k — which is the k-th triangle position in increasing order. Floor division and remainder by 27 split that position
  into its row and column. Every word on the way is a small natural number, so the signed reading, the clamps against
  zero and the wraps of negative indices change nothing. Entry c of the table is therefore the c-th pair i < j.
-/
import proofs.«151987_j39891656245395_2_alg».proof.Proof.RefStageDefs
import proofs.«151987_j39891656245395_2_alg».proof.Proof.PairCount
import proofs.«151987_j39891656245395_2_alg».proof.Proof.Words
import proofs.«151987_j39891656245395_2_alg».proof.Proof.LibIntCumsum
import proofs.«151987_j39891656245395_2_alg».proof.Proof.LibIntBincount
import proofs.«151987_j39891656245395_2_alg».proof.Proof.LibIntDivMod
import Idealize.ShloMosaic.Lib.Pipeline.Value
import Idealize.ShloMosaic.Lib.ValueIdx

noncomputable section

namespace Cert.ReferenceIdeal.Index

open Cert.ReferenceIdeal Cert.ReferenceIdeal.Gen Cert.ReferenceIdeal.Stages Idealize.ShloMosaic Idealize.ShloMosaic.ValueIdx Cert.Spec

/-! ## The mask -/

/-- The mask is set exactly strictly above the diagonal. -/
theorem mask_apply (r c : Fin 27) : s_main_v6 (ix2 r c) = if r.val < c.val then 1#1 else 0#1 := by
  show FloatOps.cmpf (F := Ideal) (φ := .f32) .une
      (Scalar.select (IntOp.cmpi .sge (IntOp.addi (BitVec.ofNat 32 r.val) 0#32) (BitVec.ofNat 32 c.val))
        (Ideal.ofBits .f32 0x00000000#32) (Ideal.ofBits .f32 0x3F800000#32))
      (Ideal.ofBits .f32 0x00000000#32) = _
  rw [Words.sge_small]
  by_cases h : c.val ≤ r.val
  · rw [if_pos h, if_neg (by omega), select_one]; exact Words.une_zero_zero
  · rw [if_neg h, if_pos (by omega), select_zero]; exact Words.une_one_zero

/-- Bit q of the flattened mask, as a 32-bit word. -/
def maskWord (q : ℕ) : BitVec 32 := if triu q then 1#32 else 0#32

/-- The flattened, widened mask at position q is `maskWord q`. -/
theorem flatMask_apply (i : S729.Idx) : s_main_call1_v1 i = maskWord (i 0).val := by
  have hq : (i 0).val < 729 := (i 0).isLt
  show (shapeCast S729 s_main_v6 shapeCasts_S27x27_S729 i).setWidth 32 = _
  rw [shapeCast_apply s_main_v6 shapeCasts_S27x27_S729 i
    (ix2 (⟨(i 0).val / 27, by omega⟩ : Fin 27) (⟨(i 0).val % 27, Nat.mod_lt _ (by norm_num)⟩ : Fin 27)) (by
      rw [Shape.rowMajor_val_two, Shape.rowMajor_val_one]
      show (i 0).val / 27 * 27 + (i 0).val % 27 = (i 0).val
      omega)]
  rw [mask_apply]
  unfold maskWord triu
  by_cases h : (i 0).val / 27 < (i 0).val % 27
  · rw [if_pos h, if_pos (by simpa using h)]; rfl
  · rw [if_neg h, if_neg (by simpa using h)]; rfl

/-! ## The first running sum, its clip and its wrap -/

theorem sum_maskWord (q : ℕ) : ∑ i ∈ Finset.range (q + 1), (maskWord i).toNat = NonzeroCount.pre triu q := by
  unfold NonzeroCount.pre
  rw [Finset.card_filter]
  refine Finset.sum_congr rfl fun i _ => ?_
  unfold maskWord
  split <;> rfl

/-- Position q of the running sum holds the number of triangle positions at or before q. -/
theorem cs_apply (j : S729.Idx) : s_main_v7 j = BitVec.ofNat 32 (NonzeroCount.pre triu (j 0).val) := by
  have h := IntCumsum.reduceWindow_cumsum (w := 32) (d := ![729]) (d' := ![729]) (u := S_) ![729] ![1] ![728] ![0]
    s_main_call1_v1 s_main_call1_call0_v0 reduceWindows_S729_S729_w729s1p728_0 h_S_ maskWord flatMask_apply rfl rfl rfl rfl j (j 0).isLt
  rw [sum_maskWord] at h
  exact h

theorem pre_lt (q : ℕ) (hq : q < 729) : NonzeroCount.pre triu q < 2 ^ 31 := by
  have := NonzeroCount.pre_le triu q; omega

theorem pre_word_lt (q : ℕ) (hq : q < 729) : (BitVec.ofNat 32 (NonzeroCount.pre triu q)).toNat < 2 ^ 31 := by
  rw [IntDivMod.toNat_ofNat_lt (pre_lt q hq)]; exact pre_lt q hq

/-- Clipped at zero and wrapped, the running sum is unchanged: its words are small natural numbers. -/
theorem wrapped_apply (j : S729.Idx) : s_main_v14 j = BitVec.ofNat 32 (NonzeroCount.pre triu (j 0).val) := by
  have hq : (j 0).val < 729 := (j 0).isLt
  show Scalar.select (IntOp.cmpi .slt (IntOp.maxsi 0#32 (s_main_v7 j)) 0#32)
      (IntOp.addi (IntOp.maxsi 0#32 (s_main_v7 j)) 351#32) (IntOp.maxsi 0#32 (s_main_v7 j)) = _
  rw [cs_apply, IntDivMod.maxsi_zero (pre_word_lt _ hq), IntDivMod.wrap_eq (pre_word_lt _ hq)]

/-! ## The count of the running-sum values, and the second running sum -/

/-- The index column of the scatter holds the running sums. -/
theorem column_apply (k : S729x1.Idx) : s_main_v15 k = BitVec.ofNat 32 (NonzeroCount.pre triu (k 0).val) := by
  show broadcastInDim S729x1 ![0] bcast_S729_S729x1_0 s_main_v14 k = _
  rw [broadcastInDim_apply ![0] bcast_S729_S729x1_0 s_main_v14 k (ix1 (⟨(k 0).val, (k 0).isLt⟩ : Fin 729)) (fun a => by
    match a with
    | ⟨0, _⟩ => rfl)]
  exact wrapped_apply (ix1 (⟨(k 0).val, (k 0).isLt⟩ : Fin 729))

/-- Place v of the count holds the number of positions whose running sum is v. -/
theorem bin_apply (v : S351.Idx) : s_main_v17 v = BitVec.ofNat 32 (NonzeroCount.bin 729 triu (v 0).val) := by
  have h := IntBincount.scatter_bincount_nat (ds := ![351]) (dsi := ![729, 1]) (du := ![729])
    scatter_S351_S729x1_S729_n_0_0_1 rfl rfl rfl rfl s_main_v8 s_main_v15 s_main_v16 (fun _ => rfl) (fun _ => rfl)
    (fun k => BitVec.ofNat 32 (NonzeroCount.pre triu k)) column_apply (fun k hk => pre_word_lt k hk) v
  refine h.trans (congrArg (BitVec.ofNat 32) ?_)
  show (Finset.filter (fun k => (BitVec.ofNat 32 (NonzeroCount.pre triu k)).toNat = (v 0).val) (Finset.range 729)).card
    = NonzeroCount.bin 729 triu (v 0).val
  unfold NonzeroCount.bin
  refine congrArg Finset.card (Finset.filter_congr fun k hk => ?_)
  rw [Finset.mem_range] at hk
  rw [IntDivMod.toNat_ofNat_lt (pre_lt k hk)]

theorem bin_le (v : ℕ) : NonzeroCount.bin 729 triu v ≤ 729 := by
  unfold NonzeroCount.bin
  exact (Finset.card_filter_le _ _).trans (by rw [Finset.card_range])

/-- Place k of the second running sum holds the k-th triangle position in increasing order. -/
theorem flat_apply (k : S351.Idx) : s_main_v18 k = BitVec.ofNat 32 (NonzeroCount.flat 729 triu (k 0).val) := by
  have h := IntCumsum.reduceWindow_cumsum (w := 32) (d := ![351]) (d' := ![351]) (u := S_) ![351] ![1] ![350] ![0]
    s_main_v17 s_main_call3_call0_v0 reduceWindows_S351_S351_w351s1p350_0 h_S_
    (fun v => BitVec.ofNat 32 (NonzeroCount.bin 729 triu v)) bin_apply rfl rfl rfl rfl k (k 0).isLt
  refine h.trans ?_
  congr 1
  rw [← NonzeroCount.sum_bin]
  refine Finset.sum_congr rfl fun v _ => ?_
  exact IntDivMod.toNat_ofNat_lt (by have := bin_le v; omega)

theorem flat_lt' (k : ℕ) : NonzeroCount.flat 729 triu k < 2 ^ 31 := by
  have := NonzeroCount.flat_le 729 triu k; omega

/-! ## Row and column of the position -/

theorem ofNat_lt {n : ℕ} (hn : n < 2 ^ 31) : (BitVec.ofNat 32 n).toNat < 2 ^ 31 := by
  rw [IntDivMod.toNat_ofNat_lt hn]; exact hn

/-- The floor division of the position by 27. -/
theorem quot27_apply (k : S351.Idx) : s_main_v19 k = BitVec.ofNat 32 (NonzeroCount.flat 729 triu (k 0).val / 27) := by
  refine (IntDivMod.floor_divide_eq .host (p := s_main_v18 k) (d := 27#32) (D := 27) ?_ rfl (by norm_num) (by norm_num)).trans ?_
  · rw [flat_apply]; exact ofNat_lt (flat_lt' _)
  · rw [flat_apply, IntDivMod.toNat_ofNat_lt (flat_lt' _)]

/-- Its remainder by 27: the row. -/
theorem row_apply (k : S351.Idx) : s_main_v20 k = BitVec.ofNat 32 (NonzeroCount.flat 729 triu (k 0).val / 27 % 27) := by
  have hs : NonzeroCount.flat 729 triu (k 0).val / 27 < 2 ^ 31 := by have := flat_lt' (k 0).val; omega
  refine (IntDivMod.remainder_guarded_eq .host (p := s_main_v19 k) (d := 27#32) (D := 27) ?_ rfl (by norm_num) (by norm_num)).trans ?_
  · rw [quot27_apply]; exact ofNat_lt hs
  · rw [quot27_apply, IntDivMod.toNat_ofNat_lt hs]

/-- The floor division of the position by 1. -/
theorem quot1_apply (k : S351.Idx) : s_main_v21 k = BitVec.ofNat 32 (NonzeroCount.flat 729 triu (k 0).val / 1) := by
  refine (IntDivMod.floor_divide_eq .host (p := s_main_v18 k) (d := 1#32) (D := 1) ?_ rfl (by norm_num) (by norm_num)).trans ?_
  · rw [flat_apply]; exact ofNat_lt (flat_lt' _)
  · rw [flat_apply, IntDivMod.toNat_ofNat_lt (flat_lt' _)]

/-- Its remainder by 27: the column. -/
theorem col_apply (k : S351.Idx) : s_main_v22 k = BitVec.ofNat 32 (NonzeroCount.flat 729 triu (k 0).val / 1 % 27) := by
  have hs : NonzeroCount.flat 729 triu (k 0).val / 1 < 2 ^ 31 := by have := flat_lt' (k 0).val; omega
  refine (IntDivMod.remainder_guarded_eq .host (p := s_main_v21 k) (d := 27#32) (D := 27) ?_ rfl (by norm_num) (by norm_num)).trans ?_
  · rw [quot1_apply]; exact ofNat_lt hs
  · rw [quot1_apply, IntDivMod.toNat_ofNat_lt hs]

/-- The wrap of a negative row index leaves the row. -/
theorem rowWrapped_apply (k : S351.Idx) : s_main_v27 k = BitVec.ofNat 32 (NonzeroCount.flat 729 triu (k 0).val / 27 % 27) := by
  show Scalar.select (IntOp.cmpi .slt (s_main_v20 k) 0#32) (IntOp.addi (s_main_v20 k) 27#32) (s_main_v20 k) = _
  rw [row_apply, IntDivMod.wrap_eq (ofNat_lt (by have := Nat.mod_lt (NonzeroCount.flat 729 triu (k 0).val / 27) (by norm_num : 0 < 27); omega))]

/-- The wrap of a negative column index leaves the column. -/
theorem colWrapped_apply (k : S351.Idx) : s_main_v32 k = BitVec.ofNat 32 (NonzeroCount.flat 729 triu (k 0).val / 1 % 27) := by
  show Scalar.select (IntOp.cmpi .slt (s_main_v22 k) 0#32) (IntOp.addi (s_main_v22 k) 27#32) (s_main_v22 k) = _
  rw [col_apply, IntDivMod.wrap_eq (ofNat_lt (by have := Nat.mod_lt (NonzeroCount.flat 729 triu (k 0).val / 1) (by norm_num : 0 < 27); omega))]

/-! ## The table -/

/-- Entry (c, 0) of the index table is the smaller member of pair c. -/
theorem table_left (c : Fin 351) : s_main_v35 (ix2 c (0 : Fin 2)) = BitVec.ofNat 32 (pairL c.val) := by
  show concatenate S351x2 1 [⟨S351x1, s_main_v33⟩, ⟨S351x1, s_main_v34⟩] concatenates_S351x1_S351x1_S351x2_d1 (ix2 c (0 : Fin 2)) = _
  rw [concatenate_pair_apply_left 1 s_main_v33 s_main_v34 concatenates_S351x1_S351x1_S351x2_d1 (ix2 c (0 : Fin 2)) rfl
    (ix2 c (0 : Fin 1)) (fun b => by
      match b with
      | ⟨0, _⟩ => rfl
      | ⟨1, _⟩ => rfl)]
  show broadcastInDim S351x1 ![0] bcast_S351_S351x1_0 s_main_v27 (ix2 c (0 : Fin 1)) = _
  rw [broadcastInDim_apply ![0] bcast_S351_S351x1_0 s_main_v27 (ix2 c (0 : Fin 1)) (ix1 c) (fun a => by
    match a with
    | ⟨0, _⟩ => rfl)]
  rw [rowWrapped_apply]
  show BitVec.ofNat 32 (NonzeroCount.flat 729 triu c.val / 27 % 27) = _
  rw [flat_div]

/-- Entry (c, 1) of the index table is the larger member of pair c. -/
theorem table_right (c : Fin 351) : s_main_v35 (ix2 c (1 : Fin 2)) = BitVec.ofNat 32 (pairR c.val) := by
  show concatenate S351x2 1 [⟨S351x1, s_main_v33⟩, ⟨S351x1, s_main_v34⟩] concatenates_S351x1_S351x1_S351x2_d1 (ix2 c (1 : Fin 2)) = _
  rw [concatenate_pair_apply_right 1 s_main_v33 s_main_v34 concatenates_S351x1_S351x1_S351x2_d1 (ix2 c (1 : Fin 2)) rfl rfl
    (ix2 c (0 : Fin 1)) (fun b hb => by
      match b with
      | ⟨0, _⟩ => rfl
      | ⟨1, _⟩ => exact absurd rfl hb) rfl]
  show broadcastInDim S351x1 ![0] bcast_S351_S351x1_0 s_main_v32 (ix2 c (0 : Fin 1)) = _
  rw [broadcastInDim_apply ![0] bcast_S351_S351x1_0 s_main_v32 (ix2 c (0 : Fin 1)) (ix1 c) (fun a => by
    match a with
    | ⟨0, _⟩ => rfl)]
  rw [colWrapped_apply]
  show BitVec.ofNat 32 (NonzeroCount.flat 729 triu c.val / 1 % 27) = _
  rw [flat_mod]

end Cert.ReferenceIdeal.Index

end
-- ==== Proof.LibPointGather.lean ====
/-
  A gather at a full index vector, read at an index.

  `x[i0, i1, i2, i3]` of a rank-4 array at four integer arrays of one shape `[a, b, c, d]` lowers to a
  `stablehlo.gather` whose start indices are the four arrays joined along a new last axis, `[a, b, c, d, 4]`
  (index vector on axis 4, all four operand axes collapsed and named in order by the start index map, slice sizes
  `[1, 1, 1, 1]`): result entry `(p, q, r, s)` is the operand's at the four words `idx[p, q, r, s, ·]`, each read as
  a signed integer and clamped into its axis, `[0, n − 1]`, as the gather clamps every start index.

  The same indexing of a rank-5 array `[n0, n1, n2, n3, C]` keeps the trailing axis whole (offset axis 4, slice sizes
  `[1, 1, 1, 1, C]`): result entry `(p, q, r, s, e)` is the operand's at the same four clamped words and `e`.
-/
import Idealize.ShloMosaic.PureOps.ShapeOps
import Idealize.ShloMosaic.Lib.ValueIdx

noncomputable section

namespace Idealize.ShloMosaic.PointGather

open Idealize.ShloMosaic Idealize.ShloMosaic.ValueIdx

variable {α : Type}

/-- The coordinate a start-index word names on an axis of extent `N`: read signed, clamped into `[0, N − 1]`. -/
def clampAx (N : Nat) (hN : 0 < N) {w : Nat} (v : BitVec w) : Fin N := ⟨min v.toInt.toNat (N - 1), by omega⟩

/-- Dimension numbers of the point gather: operand `[n0, n1, n2, n3]`, start indices `[a, b, c, d, 4]`, result
    `[a, b, c, d]`. -/
abbrev pointDims (n0 n1 n2 n3 a b c d : Nat)
    (wf : GatherDims.WF ⟨4, ![n0, n1, n2, n3]⟩ ⟨5, ![a, b, c, d, 4]⟩ ⟨4, ![a, b, c, d]⟩ [] [0, 1, 2, 3] [] [0, 1, 2, 3] [] 4 ![1, 1, 1, 1]) :
    GatherDims ⟨4, ![n0, n1, n2, n3]⟩ ⟨5, ![a, b, c, d, 4]⟩ ⟨4, ![a, b, c, d]⟩ where
  offsetDims := []
  collapsedSliceDims := [0, 1, 2, 3]
  operandBatchingDims := []
  startIndicesBatchingDims := []
  startIndexMap := [0, 1, 2, 3]
  indexVectorDim := 4
  sliceSizes := ![1, 1, 1, 1]
  wf := wf

/-- Dimension numbers of the point gather that keeps a trailing axis: operand `[n0, n1, n2, n3, C]`, start indices
    `[a, b, c, d, 4]`, result `[a, b, c, d, C]`. -/
abbrev pointRowDims (n0 n1 n2 n3 C a b c d : Nat)
    (wf : GatherDims.WF ⟨5, ![n0, n1, n2, n3, C]⟩ ⟨5, ![a, b, c, d, 4]⟩ ⟨5, ![a, b, c, d, C]⟩ [4] [0, 1, 2, 3] [] [0, 1, 2, 3] [] 4 ![1, 1, 1, 1, C]) :
    GatherDims ⟨5, ![n0, n1, n2, n3, C]⟩ ⟨5, ![a, b, c, d, 4]⟩ ⟨5, ![a, b, c, d, C]⟩ where
  offsetDims := [4]
  collapsedSliceDims := [0, 1, 2, 3]
  operandBatchingDims := []
  startIndicesBatchingDims := []
  startIndexMap := [0, 1, 2, 3]
  indexVectorDim := 4
  sliceSizes := ![1, 1, 1, 1, C]
  wf := wf

/-- THE POINT GATHER AT `(p, q, r, s)`: the operand at the four clamped index words of that entry. -/
theorem gather_point_apply {n0 n1 n2 n3 a b c d w : Nat} (h0 : 0 < n0) (h1 : 0 < n1) (h2 : 0 < n2) (h3 : 0 < n3)
    (wf : GatherDims.WF ⟨4, ![n0, n1, n2, n3]⟩ ⟨5, ![a, b, c, d, 4]⟩ ⟨4, ![a, b, c, d]⟩ [] [0, 1, 2, 3] [] [0, 1, 2, 3] [] 4 ![1, 1, 1, 1])
    (x : (⟨4, ![n0, n1, n2, n3]⟩ : Shape).Idx → α) (idx : IVec ⟨5, ![a, b, c, d, 4]⟩ w)
    (p : Fin a) (q : Fin b) (r : Fin c) (s : Fin d) :
    Host.gather (pointDims n0 n1 n2 n3 a b c d wf) x idx (ix4 p q r s)
      = x (ix4 (clampAx n0 h0 (idx (ix5 p q r s 0))) (clampAx n1 h1 (idx (ix5 p q r s 1)))
          (clampAx n2 h2 (idx (ix5 p q r s 2))) (clampAx n3 h3 (idx (ix5 p q r s 3)))) := by
  unfold Host.gather
  congr 1
  funext ax
  match ax with
  | ⟨0, _⟩ =>
    -- axis 0: collapsed and named by the start index map; the clamped start alone
    refine Fin.ext ?_
    show (pointDims n0 n1 n2 n3 a b c d wf).start (ix4 p q r s) idx 0 + (pointDims n0 n1 n2 n3 a b c d wf).batchCoord (ix4 p q r s) 0 + (pointDims n0 n1 n2 n3 a b c d wf).offCoord (ix4 p q r s) 0 = _
    rw [GatherDims.batchCoord_eq_zero _ _ _ List.not_mem_nil,
      GatherDims.offCoord_eq_zero _ _ _ (fun h => ((GatherDims.mem_sKept _ _).mp h).1
        (by decide : (0 : Fin 4) ∈ ([0, 1, 2, 3] : List (Fin 4))))]
    simp only [Nat.add_zero]
    unfold GatherDims.start
    rw [dif_pos (show (0 : Fin 4) ∈ (pointDims n0 n1 n2 n3 a b c d wf).startIndexMap from
      (by decide : (0 : Fin 4) ∈ ([0, 1, 2, 3] : List (Fin 4))))]
    have hsi : (pointDims n0 n1 n2 n3 a b c d wf).siIdx (ix4 p q r s) ⟨List.idxOf (0 : Fin 4) (pointDims n0 n1 n2 n3 a b c d wf).startIndexMap,
        List.idxOf_lt_length_iff.2 (by decide : (0 : Fin 4) ∈ ([0, 1, 2, 3] : List (Fin 4)))⟩ = ix5 p q r s 0 := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl
  | ⟨1, _⟩ =>
    -- axis 1: collapsed and named by the start index map; the clamped start alone
    refine Fin.ext ?_
    show (pointDims n0 n1 n2 n3 a b c d wf).start (ix4 p q r s) idx 1 + (pointDims n0 n1 n2 n3 a b c d wf).batchCoord (ix4 p q r s) 1 + (pointDims n0 n1 n2 n3 a b c d wf).offCoord (ix4 p q r s) 1 = _
    rw [GatherDims.batchCoord_eq_zero _ _ _ List.not_mem_nil,
      GatherDims.offCoord_eq_zero _ _ _ (fun h => ((GatherDims.mem_sKept _ _).mp h).1
        (by decide : (1 : Fin 4) ∈ ([0, 1, 2, 3] : List (Fin 4))))]
    simp only [Nat.add_zero]
    unfold GatherDims.start
    rw [dif_pos (show (1 : Fin 4) ∈ (pointDims n0 n1 n2 n3 a b c d wf).startIndexMap from
      (by decide : (1 : Fin 4) ∈ ([0, 1, 2, 3] : List (Fin 4))))]
    have hsi : (pointDims n0 n1 n2 n3 a b c d wf).siIdx (ix4 p q r s) ⟨List.idxOf (1 : Fin 4) (pointDims n0 n1 n2 n3 a b c d wf).startIndexMap,
        List.idxOf_lt_length_iff.2 (by decide : (1 : Fin 4) ∈ ([0, 1, 2, 3] : List (Fin 4)))⟩ = ix5 p q r s 1 := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl
  | ⟨2, _⟩ =>
    -- axis 2: collapsed and named by the start index map; the clamped start alone
    refine Fin.ext ?_
    show (pointDims n0 n1 n2 n3 a b c d wf).start (ix4 p q r s) idx 2 + (pointDims n0 n1 n2 n3 a b c d wf).batchCoord (ix4 p q r s) 2 + (pointDims n0 n1 n2 n3 a b c d wf).offCoord (ix4 p q r s) 2 = _
    rw [GatherDims.batchCoord_eq_zero _ _ _ List.not_mem_nil,
      GatherDims.offCoord_eq_zero _ _ _ (fun h => ((GatherDims.mem_sKept _ _).mp h).1
        (by decide : (2 : Fin 4) ∈ ([0, 1, 2, 3] : List (Fin 4))))]
    simp only [Nat.add_zero]
    unfold GatherDims.start
    rw [dif_pos (show (2 : Fin 4) ∈ (pointDims n0 n1 n2 n3 a b c d wf).startIndexMap from
      (by decide : (2 : Fin 4) ∈ ([0, 1, 2, 3] : List (Fin 4))))]
    have hsi : (pointDims n0 n1 n2 n3 a b c d wf).siIdx (ix4 p q r s) ⟨List.idxOf (2 : Fin 4) (pointDims n0 n1 n2 n3 a b c d wf).startIndexMap,
        List.idxOf_lt_length_iff.2 (by decide : (2 : Fin 4) ∈ ([0, 1, 2, 3] : List (Fin 4)))⟩ = ix5 p q r s 2 := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl
  | ⟨3, _⟩ =>
    -- axis 3: collapsed and named by the start index map; the clamped start alone
    refine Fin.ext ?_
    show (pointDims n0 n1 n2 n3 a b c d wf).start (ix4 p q r s) idx 3 + (pointDims n0 n1 n2 n3 a b c d wf).batchCoord (ix4 p q r s) 3 + (pointDims n0 n1 n2 n3 a b c d wf).offCoord (ix4 p q r s) 3 = _
    rw [GatherDims.batchCoord_eq_zero _ _ _ List.not_mem_nil,
      GatherDims.offCoord_eq_zero _ _ _ (fun h => ((GatherDims.mem_sKept _ _).mp h).1
        (by decide : (3 : Fin 4) ∈ ([0, 1, 2, 3] : List (Fin 4))))]
    simp only [Nat.add_zero]
    unfold GatherDims.start
    rw [dif_pos (show (3 : Fin 4) ∈ (pointDims n0 n1 n2 n3 a b c d wf).startIndexMap from
      (by decide : (3 : Fin 4) ∈ ([0, 1, 2, 3] : List (Fin 4))))]
    have hsi : (pointDims n0 n1 n2 n3 a b c d wf).siIdx (ix4 p q r s) ⟨List.idxOf (3 : Fin 4) (pointDims n0 n1 n2 n3 a b c d wf).startIndexMap,
        List.idxOf_lt_length_iff.2 (by decide : (3 : Fin 4) ∈ ([0, 1, 2, 3] : List (Fin 4)))⟩ = ix5 p q r s 3 := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl

/-- THE POINT GATHER KEEPING THE LAST AXIS AT `(p, q, r, s, e)`: the operand at the four clamped index words and `e`. -/
theorem gather_pointRow_apply {n0 n1 n2 n3 C a b c d w : Nat} (h0 : 0 < n0) (h1 : 0 < n1) (h2 : 0 < n2) (h3 : 0 < n3)
    (wf : GatherDims.WF ⟨5, ![n0, n1, n2, n3, C]⟩ ⟨5, ![a, b, c, d, 4]⟩ ⟨5, ![a, b, c, d, C]⟩ [4] [0, 1, 2, 3] [] [0, 1, 2, 3] [] 4 ![1, 1, 1, 1, C])
    (x : (⟨5, ![n0, n1, n2, n3, C]⟩ : Shape).Idx → α) (idx : IVec ⟨5, ![a, b, c, d, 4]⟩ w)
    (p : Fin a) (q : Fin b) (r : Fin c) (s : Fin d) (e : Fin C) :
    Host.gather (pointRowDims n0 n1 n2 n3 C a b c d wf) x idx (ix5 p q r s e)
      = x (ix5 (clampAx n0 h0 (idx (ix5 p q r s 0))) (clampAx n1 h1 (idx (ix5 p q r s 1)))
          (clampAx n2 h2 (idx (ix5 p q r s 2))) (clampAx n3 h3 (idx (ix5 p q r s 3))) e) := by
  unfold Host.gather
  congr 1
  funext ax
  match ax with
  | ⟨0, _⟩ =>
    -- axis 0: collapsed and named by the start index map; the clamped start alone
    refine Fin.ext ?_
    show (pointRowDims n0 n1 n2 n3 C a b c d wf).start (ix5 p q r s e) idx 0 + (pointRowDims n0 n1 n2 n3 C a b c d wf).batchCoord (ix5 p q r s e) 0 + (pointRowDims n0 n1 n2 n3 C a b c d wf).offCoord (ix5 p q r s e) 0 = _
    rw [GatherDims.batchCoord_eq_zero _ _ _ List.not_mem_nil,
      GatherDims.offCoord_eq_zero _ _ _ (fun h => ((GatherDims.mem_sKept _ _).mp h).1
        (by decide : (0 : Fin 5) ∈ ([0, 1, 2, 3] : List (Fin 5))))]
    simp only [Nat.add_zero]
    unfold GatherDims.start
    rw [dif_pos (show (0 : Fin 5) ∈ (pointRowDims n0 n1 n2 n3 C a b c d wf).startIndexMap from
      (by decide : (0 : Fin 5) ∈ ([0, 1, 2, 3] : List (Fin 5))))]
    have hsi : (pointRowDims n0 n1 n2 n3 C a b c d wf).siIdx (ix5 p q r s e) ⟨List.idxOf (0 : Fin 5) (pointRowDims n0 n1 n2 n3 C a b c d wf).startIndexMap,
        List.idxOf_lt_length_iff.2 (by decide : (0 : Fin 5) ∈ ([0, 1, 2, 3] : List (Fin 5)))⟩ = ix5 p q r s 0 := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl
  | ⟨1, _⟩ =>
    -- axis 1: collapsed and named by the start index map; the clamped start alone
    refine Fin.ext ?_
    show (pointRowDims n0 n1 n2 n3 C a b c d wf).start (ix5 p q r s e) idx 1 + (pointRowDims n0 n1 n2 n3 C a b c d wf).batchCoord (ix5 p q r s e) 1 + (pointRowDims n0 n1 n2 n3 C a b c d wf).offCoord (ix5 p q r s e) 1 = _
    rw [GatherDims.batchCoord_eq_zero _ _ _ List.not_mem_nil,
      GatherDims.offCoord_eq_zero _ _ _ (fun h => ((GatherDims.mem_sKept _ _).mp h).1
        (by decide : (1 : Fin 5) ∈ ([0, 1, 2, 3] : List (Fin 5))))]
    simp only [Nat.add_zero]
    unfold GatherDims.start
    rw [dif_pos (show (1 : Fin 5) ∈ (pointRowDims n0 n1 n2 n3 C a b c d wf).startIndexMap from
      (by decide : (1 : Fin 5) ∈ ([0, 1, 2, 3] : List (Fin 5))))]
    have hsi : (pointRowDims n0 n1 n2 n3 C a b c d wf).siIdx (ix5 p q r s e) ⟨List.idxOf (1 : Fin 5) (pointRowDims n0 n1 n2 n3 C a b c d wf).startIndexMap,
        List.idxOf_lt_length_iff.2 (by decide : (1 : Fin 5) ∈ ([0, 1, 2, 3] : List (Fin 5)))⟩ = ix5 p q r s 1 := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl
  | ⟨2, _⟩ =>
    -- axis 2: collapsed and named by the start index map; the clamped start alone
    refine Fin.ext ?_
    show (pointRowDims n0 n1 n2 n3 C a b c d wf).start (ix5 p q r s e) idx 2 + (pointRowDims n0 n1 n2 n3 C a b c d wf).batchCoord (ix5 p q r s e) 2 + (pointRowDims n0 n1 n2 n3 C a b c d wf).offCoord (ix5 p q r s e) 2 = _
    rw [GatherDims.batchCoord_eq_zero _ _ _ List.not_mem_nil,
      GatherDims.offCoord_eq_zero _ _ _ (fun h => ((GatherDims.mem_sKept _ _).mp h).1
        (by decide : (2 : Fin 5) ∈ ([0, 1, 2, 3] : List (Fin 5))))]
    simp only [Nat.add_zero]
    unfold GatherDims.start
    rw [dif_pos (show (2 : Fin 5) ∈ (pointRowDims n0 n1 n2 n3 C a b c d wf).startIndexMap from
      (by decide : (2 : Fin 5) ∈ ([0, 1, 2, 3] : List (Fin 5))))]
    have hsi : (pointRowDims n0 n1 n2 n3 C a b c d wf).siIdx (ix5 p q r s e) ⟨List.idxOf (2 : Fin 5) (pointRowDims n0 n1 n2 n3 C a b c d wf).startIndexMap,
        List.idxOf_lt_length_iff.2 (by decide : (2 : Fin 5) ∈ ([0, 1, 2, 3] : List (Fin 5)))⟩ = ix5 p q r s 2 := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl
  | ⟨3, _⟩ =>
    -- axis 3: collapsed and named by the start index map; the clamped start alone
    refine Fin.ext ?_
    show (pointRowDims n0 n1 n2 n3 C a b c d wf).start (ix5 p q r s e) idx 3 + (pointRowDims n0 n1 n2 n3 C a b c d wf).batchCoord (ix5 p q r s e) 3 + (pointRowDims n0 n1 n2 n3 C a b c d wf).offCoord (ix5 p q r s e) 3 = _
    rw [GatherDims.batchCoord_eq_zero _ _ _ List.not_mem_nil,
      GatherDims.offCoord_eq_zero _ _ _ (fun h => ((GatherDims.mem_sKept _ _).mp h).1
        (by decide : (3 : Fin 5) ∈ ([0, 1, 2, 3] : List (Fin 5))))]
    simp only [Nat.add_zero]
    unfold GatherDims.start
    rw [dif_pos (show (3 : Fin 5) ∈ (pointRowDims n0 n1 n2 n3 C a b c d wf).startIndexMap from
      (by decide : (3 : Fin 5) ∈ ([0, 1, 2, 3] : List (Fin 5))))]
    have hsi : (pointRowDims n0 n1 n2 n3 C a b c d wf).siIdx (ix5 p q r s e) ⟨List.idxOf (3 : Fin 5) (pointRowDims n0 n1 n2 n3 C a b c d wf).startIndexMap,
        List.idxOf_lt_length_iff.2 (by decide : (3 : Fin 5) ∈ ([0, 1, 2, 3] : List (Fin 5)))⟩ = ix5 p q r s 3 := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl
  | ⟨4, _⟩ =>
    -- the trailing axis: the one offset axis, not named by the start index map; the offset coordinate alone
    refine Fin.ext ?_
    show (pointRowDims n0 n1 n2 n3 C a b c d wf).start (ix5 p q r s e) idx 4
      + (pointRowDims n0 n1 n2 n3 C a b c d wf).batchCoord (ix5 p q r s e) 4
      + (pointRowDims n0 n1 n2 n3 C a b c d wf).offCoord (ix5 p q r s e) 4 = _
    rw [GatherDims.batchCoord_eq_zero _ _ _ List.not_mem_nil]
    have hst : (pointRowDims n0 n1 n2 n3 C a b c d wf).start (ix5 p q r s e) idx 4 = 0 := by
      unfold GatherDims.start
      rw [dif_neg (show (4 : Fin 5) ∉ (pointRowDims n0 n1 n2 n3 C a b c d wf).startIndexMap from
        (by decide : (4 : Fin 5) ∉ ([0, 1, 2, 3] : List (Fin 5))))]
    have hk : (4 : Fin 5) ∈ (pointRowDims n0 n1 n2 n3 C a b c d wf).sKept :=
      (GatherDims.mem_sKept _ _).mpr ⟨(by decide : (4 : Fin 5) ∉ ([0, 1, 2, 3] : List (Fin 5))), List.not_mem_nil⟩
    have hoff : (pointRowDims n0 n1 n2 n3 C a b c d wf).offCoord (ix5 p q r s e) 4 = e.val := by
      unfold GatherDims.offCoord
      rw [dif_pos hk]
      rfl
    rw [hst, hoff]
    simp

end Idealize.ShloMosaic.PointGather

end
-- ==== Proof.LibPairGather.lean ====
/-
  A gather of one entry per pair of index words along the two trailing axes, read at an index.

  `x[:, i, j]` of a rank-3 array `[B, N, M]` at two integer vectors of length `E` lowers to a `stablehlo.gather` whose
  start indices are the two vectors joined along a new last axis, `[E, 2]` (index vector on axis 1; the operand's
  axes 1 and 2 collapsed and named in order by the start index map; axis 0 kept whole as the result's offset axis 0;
  slice sizes `[B, 1, 1]`): result entry `(b, e)` is the operand's at row `b` and at the two words `idx[e, ·]`, each
  read as a signed integer and clamped into its axis, `[0, N − 1]` and `[0, M − 1]`, as the gather clamps every start
  index. General in the extents and the element type.
-/
import Idealize.ShloMosaic.PureOps.ShapeOps
import Idealize.ShloMosaic.Lib.ValueIdx
import proofs.«151987_j39891656245395_2_alg».proof.Proof.LibPointGather

noncomputable section

namespace Idealize.ShloMosaic.PairGather

open Idealize.ShloMosaic Idealize.ShloMosaic.ValueIdx Idealize.ShloMosaic.PointGather

variable {α : Type}

/-- Dimension numbers of the pair gather: operand `[B, N, M]`, start indices `[E, 2]`, result `[B, E]`. -/
abbrev pairDims (B N M E : Nat)
    (wf : GatherDims.WF ⟨3, ![B, N, M]⟩ ⟨2, ![E, 2]⟩ ⟨2, ![B, E]⟩ [0] [1, 2] [] [1, 2] [] 1 ![B, 1, 1]) :
    GatherDims ⟨3, ![B, N, M]⟩ ⟨2, ![E, 2]⟩ ⟨2, ![B, E]⟩ where
  offsetDims := [0]
  collapsedSliceDims := [1, 2]
  operandBatchingDims := []
  startIndicesBatchingDims := []
  startIndexMap := [1, 2]
  indexVectorDim := 1
  sliceSizes := ![B, 1, 1]
  wf := wf

/-- THE PAIR GATHER AT `(b, e)`: the operand at row `b` and the two clamped index words of entry `e`. -/
theorem gather_pair_apply {B N M E w : Nat} (hN : 0 < N) (hM : 0 < M)
    (wf : GatherDims.WF ⟨3, ![B, N, M]⟩ ⟨2, ![E, 2]⟩ ⟨2, ![B, E]⟩ [0] [1, 2] [] [1, 2] [] 1 ![B, 1, 1])
    (x : (⟨3, ![B, N, M]⟩ : Shape).Idx → α) (idx : IVec ⟨2, ![E, 2]⟩ w) (b : Fin B) (e : Fin E) :
    Host.gather (pairDims B N M E wf) x idx (ix2 b e)
      = x (ix3 b (clampAx N hN (idx (ix2 e 0))) (clampAx M hM (idx (ix2 e 1)))) := by
  unfold Host.gather
  congr 1
  funext ax
  match ax with
  | ⟨0, _⟩ =>
    -- axis 0: the offset axis; no start, the result's own coordinate
    refine Fin.ext ?_
    show (pairDims B N M E wf).start (ix2 b e) idx 0 + (pairDims B N M E wf).batchCoord (ix2 b e) 0
      + (pairDims B N M E wf).offCoord (ix2 b e) 0 = _
    rw [GatherDims.batchCoord_eq_zero _ _ _ List.not_mem_nil]
    unfold GatherDims.start
    rw [dif_neg (show (0 : Fin 3) ∉ (pairDims B N M E wf).startIndexMap from
      (by decide : (0 : Fin 3) ∉ ([1, 2] : List (Fin 3))))]
    unfold GatherDims.offCoord
    rw [dif_pos (show (0 : Fin 3) ∈ (pairDims B N M E wf).sKept from (GatherDims.mem_sKept _ _).2
      ⟨(by decide : (0 : Fin 3) ∉ ([1, 2] : List (Fin 3))), List.not_mem_nil⟩)]
    simp only [Nat.zero_add]
    rfl
  | ⟨1, _⟩ =>
    -- axis 1: collapsed and named first by the start index map; the clamped start alone
    refine Fin.ext ?_
    show (pairDims B N M E wf).start (ix2 b e) idx 1 + (pairDims B N M E wf).batchCoord (ix2 b e) 1
      + (pairDims B N M E wf).offCoord (ix2 b e) 1 = _
    rw [GatherDims.batchCoord_eq_zero _ _ _ List.not_mem_nil,
      GatherDims.offCoord_eq_zero _ _ _ (fun h => ((GatherDims.mem_sKept _ _).mp h).1
        (by decide : (1 : Fin 3) ∈ ([1, 2] : List (Fin 3))))]
    simp only [Nat.add_zero]
    unfold GatherDims.start
    rw [dif_pos (show (1 : Fin 3) ∈ (pairDims B N M E wf).startIndexMap from
      (by decide : (1 : Fin 3) ∈ ([1, 2] : List (Fin 3))))]
    have hsi : (pairDims B N M E wf).siIdx (ix2 b e) ⟨List.idxOf (1 : Fin 3) (pairDims B N M E wf).startIndexMap,
        List.idxOf_lt_length_iff.2 (by decide : (1 : Fin 3) ∈ ([1, 2] : List (Fin 3)))⟩ = ix2 e 0 := by
      funext k; refine Fin.ext ?_
      match k with
      | ⟨0, _⟩ => rfl
      | ⟨1, _⟩ => rfl
    rw [hsi]
    rfl
  | ⟨2, _⟩ =>
    -- axis 2: collapsed and named second by the start index map; the clamped start alone
    refine Fin.ext ?_
    show (pairDims B N M E wf).start (ix2 b e) idx 2 + (pairDims B N M E wf).batchCoord (ix2 b e) 2
      + (pairDims B N M E wf).offCoord (ix2 b e) 2 = _
    rw [GatherDims.batchCoord_eq_zero _ _ _ List.not_mem_nil,
      GatherDims.offCoord_eq_zero _ _ _ (fun h => ((GatherDims.mem_sKept _ _).mp h).1
        (by decide : (2 : Fin 3) ∈ ([1, 2] : List (Fin 3))))]
    simp only [Nat.add_zero]
    unfold GatherDims.start
    rw [dif_pos (show (2 : Fin 3) ∈ (pairDims B N M E wf).startIndexMap from
      (by decide : (2 : Fin 3) ∈ ([1, 2] : List (Fin 3))))]
    have hsi : (pairDims B N M E wf).siIdx (ix2 b e) ⟨List.idxOf (2 : Fin 3) (pairDims B N M E wf).startIndexMap,
        List.idxOf_lt_length_iff.2 (by decide : (2 : Fin 3) ∈ ([1, 2] : List (Fin 3)))⟩ = ix2 e 1 := by
      funext k; refine Fin.ext ?_
      match k with
      | ⟨0, _⟩ => rfl
      | ⟨1, _⟩ => rfl
    rw [hsi]
    rfl

end Idealize.ShloMosaic.PairGather

end
-- ==== Proof.RefEntry.lean ====
/-
  The reference's result, entry by entry.

  The reference stacks the dense row on top of the 26 embedding rows (27 feature rows per batch row), forms all
  27 × 27 dot products of feature rows per batch row, and gathers, for column c of the result, the product at the row
  and column the index table lists at place c — the c-th pair i < j. So entry (b, c) is the dot product of features
  `pairL c` and `pairR c` of batch row b.
-/
import proofs.«151987_j39891656245395_2_alg».proof.Proof.RefIndex
import proofs.«151987_j39891656245395_2_alg».proof.Proof.LibPairGather
import Idealize.ShloMosaic.PureOps.Ideal.Laws

noncomputable section

namespace Cert.ReferenceIdeal.Entry

open Cert.ReferenceIdeal Cert.ReferenceIdeal.Gen Cert.ReferenceIdeal.Stages Cert.ReferenceIdeal.Index
open Idealize.ShloMosaic Idealize.ShloMosaic.ValueIdx Idealize.ShloMosaic.PointGather Idealize.ShloMosaic.PairGather Cert.Spec

/-! ## The stacked features -/

/-- Row n of the stack of batch row b is feature n: the dense row for n = 0, embedding row n - 1 otherwise. -/
theorem stack_apply (x0 : FVec Ideal S16384x128 .f32) (x1 : FVec Ideal S16384x26x128 .f32) (b : Fin 16384) (n : Fin 27)
    (k : Fin 128) : s_main_v1 x0 x1 (ix3 b n k) = feat x0 x1 b n.val k := by
  show concatenate S16384x27x128 1 [⟨S16384x1x128, s_main_v0 x0⟩, ⟨S16384x26x128, x1⟩]
    concatenates_S16384x1x128_S16384x26x128_S16384x27x128_d1 (ix3 b n k) = _
  unfold feat
  by_cases hn : n.val = 0
  · rw [if_pos hn]
    rw [concatenate_pair_apply_left 1 (s_main_v0 x0) x1 concatenates_S16384x1x128_S16384x26x128_S16384x27x128_d1 (ix3 b n k) rfl
      (ix3 b (0 : Fin 1) k) (fun a => by
        match a with
        | ⟨0, _⟩ => rfl
        | ⟨1, _⟩ => exact hn.symm
        | ⟨2, _⟩ => rfl)]
    show broadcastInDim S16384x1x128 ![0, 2] bcast_S16384x128_S16384x1x128_0_2 x0 (ix3 b (0 : Fin 1) k) = _
    rw [broadcastInDim_apply ![0, 2] bcast_S16384x128_S16384x1x128_0_2 x0 (ix3 b (0 : Fin 1) k) (ix2 b k) (fun a => by
      match a with
      | ⟨0, _⟩ => rfl
      | ⟨1, _⟩ => rfl)]
  · have hlt : n.val - 1 < 26 := by have := n.isLt; omega
    rw [if_neg hn, dif_pos hlt]
    rw [concatenate_pair_apply_right 1 (s_main_v0 x0) x1 concatenates_S16384x1x128_S16384x26x128_S16384x27x128_d1 (ix3 b n k) rfl rfl
      (ix3 b (⟨n.val - 1, hlt⟩ : Fin 26) k) (fun a ha => by
        match a with
        | ⟨0, _⟩ => rfl
        | ⟨1, _⟩ => exact absurd rfl ha
        | ⟨2, _⟩ => rfl) (by show n.val - 1 + 1 = n.val; omega)]

/-! ## The table of dot products -/

theorem lhs_0 (i : S16384x27x27.Idx) (q : dot_S16384x27x128_S16384x27x128_S16384x27x27_2_2_1_1_0_0.contr.Idx) : (dot_S16384x27x128_S16384x27x128_S16384x27x27_2_2_1_1_0_0.lhsIdx i q 0).val = (i 0).val := by
  unfold DotDims.lhsIdx
  rw [dif_pos (show (0 : Fin S16384x27x128.rank) ∈ dot_S16384x27x128_S16384x27x128_S16384x27x27_2_2_1_1_0_0.lhsBatch by decide)]
  rfl
theorem lhs_1 (i : S16384x27x27.Idx) (q : dot_S16384x27x128_S16384x27x128_S16384x27x27_2_2_1_1_0_0.contr.Idx) : (dot_S16384x27x128_S16384x27x128_S16384x27x27_2_2_1_1_0_0.lhsIdx i q 1).val = (i 1).val := by
  unfold DotDims.lhsIdx
  rw [dif_neg (show ¬(1 : Fin S16384x27x128.rank) ∈ dot_S16384x27x128_S16384x27x128_S16384x27x27_2_2_1_1_0_0.lhsBatch by decide), dif_pos (show (1 : Fin S16384x27x128.rank) ∈ dot_S16384x27x128_S16384x27x128_S16384x27x27_2_2_1_1_0_0.lhsNonContracting by decide)]
  rfl
theorem lhs_2 (i : S16384x27x27.Idx) (q : dot_S16384x27x128_S16384x27x128_S16384x27x27_2_2_1_1_0_0.contr.Idx) : (dot_S16384x27x128_S16384x27x128_S16384x27x27_2_2_1_1_0_0.lhsIdx i q 2).val = (q ⟨0, by decide⟩).val :=
  dot_S16384x27x128_S16384x27x128_S16384x27x27_2_2_1_1_0_0.lhsIdx_val_of_single rfl i q
theorem rhs_0 (i : S16384x27x27.Idx) (q : dot_S16384x27x128_S16384x27x128_S16384x27x27_2_2_1_1_0_0.contr.Idx) : (dot_S16384x27x128_S16384x27x128_S16384x27x27_2_2_1_1_0_0.rhsIdx i q 0).val = (i 0).val := by
  unfold DotDims.rhsIdx
  rw [dif_pos (show (0 : Fin S16384x27x128.rank) ∈ dot_S16384x27x128_S16384x27x128_S16384x27x27_2_2_1_1_0_0.rhsBatch by decide)]
  rfl
theorem rhs_1 (i : S16384x27x27.Idx) (q : dot_S16384x27x128_S16384x27x128_S16384x27x27_2_2_1_1_0_0.contr.Idx) : (dot_S16384x27x128_S16384x27x128_S16384x27x27_2_2_1_1_0_0.rhsIdx i q 1).val = (i 2).val := by
  unfold DotDims.rhsIdx
  rw [dif_neg (show ¬(1 : Fin S16384x27x128.rank) ∈ dot_S16384x27x128_S16384x27x128_S16384x27x27_2_2_1_1_0_0.rhsBatch by decide), dif_pos (show (1 : Fin S16384x27x128.rank) ∈ dot_S16384x27x128_S16384x27x128_S16384x27x27_2_2_1_1_0_0.rhsNonContracting by decide)]
  rfl
theorem rhs_2 (i : S16384x27x27.Idx) (q : dot_S16384x27x128_S16384x27x128_S16384x27x27_2_2_1_1_0_0.contr.Idx) : (dot_S16384x27x128_S16384x27x128_S16384x27x27_2_2_1_1_0_0.rhsIdx i q 2).val = (q ⟨0, by decide⟩).val :=
  dot_S16384x27x128_S16384x27x128_S16384x27x27_2_2_1_1_0_0.rhsIdx_val_of_single rfl i q

/-- Entry (b, n, m) of the table is the dot product of features n and m of batch row b. -/
theorem dot_apply (x0 : FVec Ideal S16384x128 .f32) (x1 : FVec Ideal S16384x26x128 .f32) (b : Fin 16384) (n m : Fin 27) :
    s_main_v2 x0 x1 (ix3 b n m) = ∑ k : Fin 128, feat x0 x1 b n.val k * feat x0 x1 b m.val k := by
  show Host.dotGeneral (F := Ideal) dot_S16384x27x128_S16384x27x128_S16384x27x27_2_2_1_1_0_0 none (s_main_v1 x0 x1) (s_main_v1 x0 x1) (ix3 b n m) = _
  simp only [Host.dotGeneral]
  rw [Ideal.dotGeneral_apply, ← Equiv.sum_comp (ValueIdx.contrEquiv1 dot_S16384x27x128_S16384x27x128_S16384x27x27_2_2_1_1_0_0 128 rfl rfl).symm]
  refine Finset.sum_congr rfl fun k _ => ?_
  have hk := ValueIdx.contrEquiv1_symm_val dot_S16384x27x128_S16384x27x128_S16384x27x27_2_2_1_1_0_0 128 rfl rfl k
  have el : dot_S16384x27x128_S16384x27x128_S16384x27x27_2_2_1_1_0_0.lhsIdx (ix3 b n m) ((ValueIdx.contrEquiv1 dot_S16384x27x128_S16384x27x128_S16384x27x27_2_2_1_1_0_0 128 rfl rfl).symm k) = ix3 b n k := funext fun a => Fin.ext (by
    match a with
    | ⟨0, _⟩ => exact lhs_0 _ _
    | ⟨1, _⟩ => exact lhs_1 _ _
    | ⟨2, _⟩ => exact (lhs_2 _ _).trans hk)
  have er : dot_S16384x27x128_S16384x27x128_S16384x27x27_2_2_1_1_0_0.rhsIdx (ix3 b n m) ((ValueIdx.contrEquiv1 dot_S16384x27x128_S16384x27x128_S16384x27x27_2_2_1_1_0_0 128 rfl rfl).symm k) = ix3 b m k := funext fun a => Fin.ext (by
    match a with
    | ⟨0, _⟩ => exact rhs_0 _ _
    | ⟨1, _⟩ => exact rhs_1 _ _
    | ⟨2, _⟩ => exact (rhs_2 _ _).trans hk)
  rw [el, er, stack_apply, stack_apply]

/-! ## The gathered entries -/

/-- A small natural number's word names that coordinate of an axis of 27. -/
theorem clamp_small {n : ℕ} (hn : n < 27) : clampAx 27 (by norm_num) (BitVec.ofNat 32 n) = (⟨n, hn⟩ : Fin 27) := by
  refine Fin.ext ?_
  show min (BitVec.ofNat 32 n).toInt.toNat (27 - 1) = n
  rw [Words.toInt_toNat_ofNat (by omega)]
  omega

/-- Entry (b, c) of the reference's result is the dot product of the two features of pair c in batch row b. -/
theorem out_apply (x0 : FVec Ideal S16384x128 .f32) (x1 : FVec Ideal S16384x26x128 .f32) (b : Fin 16384) (c : Fin 351) :
    s_main_v36 x0 x1 (ix2 b c) = dotAt x0 x1 b c := by
  show Host.gather (pairDims 16384 27 27 351 gather_S16384x27x27_S351x2_S16384x351_0_12_n_n_12_1_1638411_wf) (s_main_v2 x0 x1) s_main_v35 (ix2 b c) = _
  rw [gather_pair_apply (by norm_num) (by norm_num), table_left, table_right, clamp_small (pairL_lt c), clamp_small (pairR_lt c),
    dot_apply]
  rfl

/-- The reference's result is the specification's array. -/
theorem out_eq_dots (x0 : FVec Ideal S16384x128 .f32) (x1 : FVec Ideal S16384x26x128 .f32) :
    s_main_v36 x0 x1 = dots x0 x1 := by
  funext j
  obtain ⟨b, c, rfl⟩ : ∃ (b : Fin 16384) (c : Fin 351), j = ix2 b c := ⟨j 0, j 1, eq_ix2 j⟩
  rw [out_apply, dots_apply]

end Cert.ReferenceIdeal.Entry

end
-- ==== Proof.RefStages.lean ====
/-
  After @main's line the result buffer holds the last stage of the two argument buffers' launch contents, and the
  argument buffers hold what they held.

  Each operation's result is read off the line: its own buffer at its function of its operands' buffers, every other
  buffer as it was. The line is long and its values are used many times over, so the reading is done in steps: ten
  of the buffers in turn — the first running sum, the count, the second running sum, the two quotients and the two
  remainders, the index table, the table of dot products, the result — each from the ones before it.
-/
import proofs.«151987_j39891656245395_2_alg».proof.Proof.RefStageDefs

noncomputable section

namespace Cert.ReferenceIdeal.Stages

open Cert.ReferenceIdeal Cert.ReferenceIdeal.Gen Cert.ReferenceIdeal.Line Idealize.ShloMosaic Idealize.ShloMosaic.TcCoe Idealize.SL.Sem Idealize.ShloMosaic.StableHlo

-- the reductions, the scatter, the gather and the joins stay folded while the two readings are compared: the comparison never looks inside them
attribute [local irreducible] Host.reduceWindow Host.scatter Host.gather concatenate stackRows joinColumns

set_option maxRecDepth 32768 in
set_option maxHeartbeats 1000000 in
theorem at_main_v7 (V : Valuation τ sig (Elt Ideal)) :
    after (ops (F := Ideal)) V (main_v7 : DevRef τ sig) = s_main_v7 := by
  unfold s_main_v7
  simp only [s_main_call1_call0_v0, s_main_call1_call0_c, s_main_call1_v1, s_main_call1_v0, s_main_v6, s_main_v5, s_main_cst_0, s_main_v4, s_main_v3, s_main_cst, s_main_call0_v5, s_main_call0_cst, s_main_call0_v4, s_main_call0_v3, s_main_call0_v2, s_main_call0_v1, s_main_call0_c, s_main_call0_v0]
  after_results_simp
  try rfl

set_option maxRecDepth 32768 in
set_option maxHeartbeats 1000000 in
theorem at_main_v17 (V : Valuation τ sig (Elt Ideal)) :
    after (ops (F := Ideal)) V (main_v17 : DevRef τ sig) = s_main_v17 := by
  unfold s_main_v17
  simp only [s_main_v16, s_main_c_4, s_main_v15, s_main_v14, s_main_v9, s_main_call2_v1, s_main_call2_v0, s_main_c_1, s_main_v13, s_main_v12, s_main_c_3, s_main_v11, s_main_v10, s_main_c_2, s_main_v8, s_main_c]
  rw [← at_main_v7 V]
  after_results_simp
  try rfl

set_option maxRecDepth 32768 in
set_option maxHeartbeats 1000000 in
theorem at_main_v18 (V : Valuation τ sig (Elt Ideal)) :
    after (ops (F := Ideal)) V (main_v18 : DevRef τ sig) = s_main_v18 := by
  unfold s_main_v18
  simp only [s_main_call3_call0_v0, s_main_call3_call0_c]
  rw [← at_main_v17 V]
  after_results_simp
  try rfl

set_option maxRecDepth 32768 in
set_option maxHeartbeats 1000000 in
theorem at_main_v19 (V : Valuation τ sig (Elt Ideal)) :
    after (ops (F := Ideal)) V (main_v19 : DevRef τ sig) = s_main_v19 := by
  unfold s_main_v19
  simp only [s_main_call4_v1, s_main_call4_v0, s_main_c_5, s_main_call4_v12, s_main_call4_v11, s_main_call4_c_0, s_main_call4_v10, s_main_call4_v9, s_main_call4_v8, s_main_call4_c, s_main_call4_v7, s_main_call4_v6, s_main_call4_v5, s_main_call4_v4, s_main_call4_v3, s_main_call4_v2]
  rw [← at_main_v18 V]
  after_results_simp
  try rfl

set_option maxRecDepth 32768 in
set_option maxHeartbeats 1000000 in
theorem at_main_v20 (V : Valuation τ sig (Elt Ideal)) :
    after (ops (F := Ideal)) V (main_v20 : DevRef τ sig) = s_main_v20 := by
  unfold s_main_v20
  simp only [s_main_call5_v4, s_main_call5_v3, s_main_call5_v2, s_main_call5_v0, s_main_c_6, s_main_call5_c_0, s_main_call5_v1, s_main_call5_c, s_main_call5_v14, s_main_call5_v13, s_main_call5_v12, s_main_call5_v6, s_main_call5_v5, s_main_call5_c_1, s_main_call5_v11, s_main_call5_v10, s_main_call5_v9, s_main_call5_c_3, s_main_call5_v8, s_main_call5_v7, s_main_call5_c_2]
  rw [← at_main_v19 V]
  after_results_simp
  try rfl

set_option maxRecDepth 32768 in
set_option maxHeartbeats 1000000 in
theorem at_main_v21 (V : Valuation τ sig (Elt Ideal)) :
    after (ops (F := Ideal)) V (main_v21 : DevRef τ sig) = s_main_v21 := by
  unfold s_main_v21
  simp only [s_main_call6_v1, s_main_call6_v0, s_main_c_7, s_main_call6_v12, s_main_call6_v11, s_main_call6_c_0, s_main_call6_v10, s_main_call6_v9, s_main_call6_v8, s_main_call6_c, s_main_call6_v7, s_main_call6_v6, s_main_call6_v5, s_main_call6_v4, s_main_call6_v3, s_main_call6_v2]
  rw [← at_main_v18 V]
  after_results_simp
  try rfl

set_option maxRecDepth 32768 in
set_option maxHeartbeats 1000000 in
theorem at_main_v22 (V : Valuation τ sig (Elt Ideal)) :
    after (ops (F := Ideal)) V (main_v22 : DevRef τ sig) = s_main_v22 := by
  unfold s_main_v22
  simp only [s_main_call7_v4, s_main_call7_v3, s_main_call7_v2, s_main_call7_v0, s_main_c_8, s_main_call7_c_0, s_main_call7_v1, s_main_call7_c, s_main_call7_v14, s_main_call7_v13, s_main_call7_v12, s_main_call7_v6, s_main_call7_v5, s_main_call7_c_1, s_main_call7_v11, s_main_call7_v10, s_main_call7_v9, s_main_call7_c_3, s_main_call7_v8, s_main_call7_v7, s_main_call7_c_2]
  rw [← at_main_v21 V]
  after_results_simp
  try rfl

set_option maxRecDepth 32768 in
set_option maxHeartbeats 1000000 in
theorem at_main_v35 (V : Valuation τ sig (Elt Ideal)) :
    after (ops (F := Ideal)) V (main_v35 : DevRef τ sig) = s_main_v35 := by
  unfold s_main_v35
  simp only [s_main_v34, s_main_v32, s_main_v31, s_main_v30, s_main_c_12, s_main_v29, s_main_v28, s_main_c_11, s_main_v33, s_main_v27, s_main_v26, s_main_v25, s_main_c_10, s_main_v24, s_main_v23, s_main_c_9]
  rw [← at_main_v22 V, ← at_main_v20 V]
  after_results_simp
  try rfl

set_option maxRecDepth 32768 in
set_option maxHeartbeats 1000000 in
theorem at_main_v2 (V : Valuation τ sig (Elt Ideal)) :
    after (ops (F := Ideal)) V (main_v2 : DevRef τ sig) = s_main_v2 (V (main_arg0 : DevRef τ sig)) (V (main_arg1 : DevRef τ sig)) := by
  unfold s_main_v2
  simp only [s_main_v1, s_main_v0]
  after_results_simp
  try rfl

set_option maxRecDepth 32768 in
set_option maxHeartbeats 1000000 in
theorem at_main_v36 (V : Valuation τ sig (Elt Ideal)) :
    after (ops (F := Ideal)) V (main_v36 : DevRef τ sig) = s_main_v36 (V (main_arg0 : DevRef τ sig)) (V (main_arg1 : DevRef τ sig)) := by
  unfold s_main_v36
  rw [← at_main_v35 V, ← at_main_v2 V]
  after_results_simp
  try rfl

/-- The result buffer after the line is the last stage of the argument buffers' launch contents. -/
theorem out_eq (V : Valuation τ sig (Elt Ideal)) :
    after (ops (F := Ideal)) V (main_v36 : DevRef τ sig)
      = s_main_v36 (V (main_arg0 : DevRef τ sig)) (V (main_arg1 : DevRef τ sig)) := at_main_v36 V

set_option maxRecDepth 32768 in
set_option maxHeartbeats 1000000 in
/-- The line leaves the first argument as it was. -/
theorem arg0_eq (V : Valuation τ sig (Elt Ideal)) :
    after (ops (F := Ideal)) V (main_arg0 : DevRef τ sig) = V (main_arg0 : DevRef τ sig) := by
  after_results_simp

set_option maxRecDepth 32768 in
set_option maxHeartbeats 1000000 in
/-- The line leaves the second argument as it was. -/
theorem arg1_eq (V : Valuation τ sig (Elt Ideal)) :
    after (ops (F := Ideal)) V (main_arg1 : DevRef τ sig) = V (main_arg1 : DevRef τ sig) := by
  after_results_simp

end Cert.ReferenceIdeal.Stages

end
-- ==== Proof.RefWhole.lean ====
/-
  The reference's run, with its result named: every weakly fair execution of the reference's @main terminates, its
  result array the table of pairwise dot products of the two argument arrays, the arguments unchanged.
-/
import proofs.«151987_j39891656245395_2_alg».proof.Proof.RefEntry
import proofs.«151987_j39891656245395_2_alg».proof.Proof.RefStages

noncomputable section

namespace Cert.ReferenceIdeal.Whole

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36)
          = Cert.Spec.dots (B := 16384) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v36).trans ((Stages.out_eq _).trans (Entry.out_eq_dots _ _)),
        (h c main_arg0).trans (Stages.arg0_eq _),
        (h c main_arg1).trans (Stages.arg1_eq _)⟩)
    (Line.run_main m ρ)

end Cert.ReferenceIdeal.Whole

end
-- ==== Proof.lean ====
/-
  The certificate's claim: the kernel computes, for every batch row, the dot products of all pairs i < j of its 27
  feature rows (the dense row and the 26 embedding rows), and so does the reference.

  The kernel works on blocks of 512 batch rows: for each pair in lexicographic order it multiplies the two feature rows
  lane by lane, sums over the 128 lanes, and stores the sums as one column of the output block; 32 blocks tile the
  16384 rows. The reference stacks the features, forms all 27 × 27 dot products per row with one batched contraction,
  and gathers the strict upper triangle row by row through an index table it computes on the host. The c-th triangle
  position read row by row is the c-th pair in lexicographic order, so both arrays are the specification's
  `Cert.Spec.dots` of the arguments. The two sums over the lanes are the same finite sum of the same products, so the
  equality needs no finiteness of the inputs; the precondition is not used.

  The three frames: the two kernel programs' are the frame certificates of their runs; the reference's is its run with
  the result forgotten. The idealization rewrote nothing, so `preserves` is trivial.
-/
import proofs.«151987_j39891656245395_2_alg».proof.Defs
import proofs.«151987_j39891656245395_2_alg».proof.Proof.Gen.Kernel
import proofs.«151987_j39891656245395_2_alg».proof.Proof.Gen.KernelIdeal
import proofs.«151987_j39891656245395_2_alg».proof.Proof.Gen.ReferenceIdeal
import proofs.«151987_j39891656245395_2_alg».proof.Proof.Gen.Pre_finite_inputs
import proofs.«151987_j39891656245395_2_alg».proof.Proof.KernelFrameP
import proofs.«151987_j39891656245395_2_alg».proof.Proof.KernelIdealFrameP
import proofs.«151987_j39891656245395_2_alg».proof.Proof.KernelValue
import proofs.«151987_j39891656245395_2_alg».proof.Proof.RefWhole
import Idealize.ShloMosaic.Adequacy
import Idealize.ShloMosaic.Init

noncomputable section

namespace Cert.Proof

open Idealize.ShloMosaic Idealize.ShloMosaic.TcCoe Idealize.SL.Sem

theorem frame_kernel [Cert.Pre_finite_inputs.Facts] : Cert.frame_Kernel (hKernel := Cert.Kernel.Gen.facts) :=
  fun m ρ _ => Cert.Kernel.GenP.frame m ρ

theorem frame_kernelIdeal [Cert.Pre_finite_inputs.Facts] : Cert.frame_KernelIdeal (hKernelIdeal := Cert.KernelIdeal.Gen.facts) :=
  fun m ρ _ => Cert.KernelIdeal.GenP.frame m ρ

theorem frame_referenceIdeal [Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.Whole.run m ρ)

/-- Both idealized programs end with the table of pairwise dot products of the arguments they share. -/
theorem algebraic [Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' _ hagree
  refine ⟨fun c => Cert.Spec.dots (B := 16384)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.WholeValue.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
